-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x3 : Shape := ⟨2, ![100000, 3]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64 .f32) (main_arg14 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S1 .f32) (main_arg9 : FVec F S128x64 .f32) (main_arg10 : FVec F S64 .f32) (main_arg11 : FVec F S64x64 .f32) (main_arg12 : FVec F S64 .f32) (main_arg13 : FVec F S64 .f32) (main_arg14 : FVec F S64 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_v48 main_v49 main_v50

def fn_part1 {F : FTy → Type} [FloatOps F] (main_arg5 : FVec F S64x64 .f32) (main_arg6 : FVec F S64 .f32) (main_arg7 : FVec F S64x1 .f32) (main_arg8 : FVec F S1 .f32) (main_arg9 : FVec F S128x64 .f32) (main_arg10 : FVec F S64 .f32) (main_arg11 : FVec F S64x64 .f32) (main_arg12 : FVec F S64 .f32) (main_arg13 : FVec F S64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x64 .f32) (main_arg1 : FVec F S100000x3 .f32) (main_arg2 : IVec S2x1600000 32) (main_arg3 : FVec F S128x64 .f32) (main_arg4 : FVec F S64 .f32) (main_arg5 : FVec F S64x64 .f32) (main_arg6 : FVec F S64 .f32) (main_arg7 : FVec F S64x1 .f32) (main_arg8 : FVec F S1 .f32) (main_arg9 : FVec F S128x64 .f32) (main_arg10 : FVec F S64 .f32) (main_arg11 : FVec F S64x64 .f32) (main_arg12 : FVec F S64 .f32) (main_arg13 : FVec F S64 .f32) (main_arg14 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x64 : Shape := ⟨2, ![100000, 64]⟩
abbrev S100000x3 : Shape := ⟨2, ![100000, 3]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S1600000x3 : Shape := ⟨2, ![1600000, 3]⟩
abbrev S8000x128 : Shape := ⟨2, ![8000, 128]⟩
abbrev S8000x1 : Shape := ⟨2, ![8000, 1]⟩
abbrev S8000x64 : Shape := ⟨2, ![8000, 64]⟩
abbrev S1x64 : Shape := ⟨2, ![1, 64]⟩
abbrev S1x1 : Shape := ⟨2, ![1, 1]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩

abbrev nBuf : Space → Nat
  | .hbm => 69
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S100000x3, .f32⟩
  | .hbm, ⟨2, _⟩ => ⟨S2x1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S128x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S100000x64, .bf16⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .bf16⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .bf16⟩
  | .hbm, ⟨38, _⟩ => ⟨S1600000x128, .bf16⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x3, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x3, .f32⟩
  | .hbm, ⟨57, _⟩ => ⟨S1600000x3, .f32⟩
  | .hbm, ⟨58, _⟩ => ⟨S1600000x3, .f32⟩
  | .hbm, ⟨59, _⟩ => ⟨S_, .f32⟩
  | .hbm, ⟨60, _⟩ => ⟨S1600000, .f32⟩
  | .hbm, ⟨61, _⟩ => ⟨S1600000x1, .f32⟩
  | .hbm, ⟨62, _⟩ => ⟨S1600000x64, .bf16⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S100000x64, .f32⟩
  | .local _ .vmem, ⟨0, _⟩ => ⟨S8000x128, .bf16⟩
  | .local _ .vmem, ⟨1, _⟩ => ⟨S8000x128, .bf16⟩
  | .local _ .vmem, ⟨2, _⟩ => ⟨S8000x1, .f32⟩
  | .local _ .vmem, ⟨3, _⟩ => ⟨S8000x1, .f32⟩
  | .local _ .vmem, ⟨4, _⟩ => ⟨S128x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64x1, .f32⟩
  | .local _ .vmem, ⟨9, _⟩ => ⟨S1, .f32⟩
  | .local _ .vmem, ⟨10, _⟩ => ⟨S8000x64, .bf16⟩
  | .local _ .vmem, ⟨11, _⟩ => ⟨S8000x64, .bf16⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S128x64, .f32⟩
  | .local _ .vmem, ⟨17, _⟩ => ⟨S64, .f32⟩
  | .local _ .vmem, ⟨18, _⟩ => ⟨S64x64, .f32⟩
  | .local _ .vmem, ⟨19, _⟩ => ⟨S64, .f32⟩
  | .local _ .vmem, ⟨20, _⟩ => ⟨S64, .f32⟩
  | .local _ .vmem, ⟨21, _⟩ => ⟨S64, .f32⟩
  | .local _ .vmem, ⟨22, _⟩ => ⟨S5000x64, .f32⟩
  | .local _ .vmem, ⟨23, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8000x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  reducesTo_S1600000x3_S1600000_d1 : S1600000x3.ReducesTo [1] S1600000
  h_S_ : 0 < S_.numel
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  inb_S8000x64_S8000x64_0_0 : ∀ a, (![0, 0] : Fin 2 → Nat) a + S8000x64.size a ≤ S8000x64.size a
  h_S8000x64 : 0 < S8000x64.numel
  packedbf16_S8000x64_S8000x64_0_0 : (Rect.unit (s := S8000x64) ![0, 0] S8000x64.size inb_S8000x64_S8000x64_0_0).PackedRows (EltTy.packing .bf16)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  gather_S100000x64_S1600000x1_S1600000x64_1_0_n_n_0_1_164_wf : GatherDims.WF S100000x64 S1600000x1 S1600000x64 [1] [0] [] [0] [] 1 ![1, 64]
  gather_S100000x3_S1600000x1_S1600000x3_1_0_n_n_0_1_13_wf : GatherDims.WF S100000x3 S1600000x1 S1600000x3 [1] [0] [] [0] [] 1 ![1, 3]
  dot_S8000x128_S128x64_S8000x64_1_0_0_1_n_n_wf : DotDims.WF S8000x128 S128x64 S8000x64 [1] [0] [0] [1] [] []
  dot_S8000x64_S64x64_S8000x64_1_0_0_1_n_n_wf : DotDims.WF S8000x64 S64x64 S8000x64 [1] [0] [0] [1] [] []
  dot_S8000x64_S64x1_S8000x1_1_0_0_1_n_n_wf : DotDims.WF S8000x64 S64x1 S8000x1 [1] [0] [0] [1] [] []
  scatter_S100000x64_S1600000x1_S1600000x64_1_0_0_1_wf : ScatterDims.WF S100000x64 S1600000x1 S1600000x64 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1600000x128.size a
  hwx0_0 : ∀ i : grid0.Coords, EltTy.bits .bf16 = 32 ∨ (Rect.block (s := S1600000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S1600000x1.size a
  hwx0_1 : ∀ i : grid0.Coords, EltTy.bits .f32 = 32 ∨ (Rect.block (s := S1600000x1) S8000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x64.size a ≤ S1600000x64.size a
  hwx0_8 : ∀ i : grid0.Coords, EltTy.bits .bf16 = 32 ∨ (Rect.block (s := S1600000x64) S8000x64.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x64_S64x1_S8000x1_1_0_0_1_n_n : DotDims S8000x64 S64x1 S8000x1 where
  lhsContracting := [1]
  rhsContracting := [0]
  lhsNonContracting := [0]
  rhsNonContracting := [1]
  lhsBatch := []
  rhsBatch := []
  wf := dot_S8000x64_S64x1_S8000x1_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v19) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S8000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v43) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S100000x3 : Shape := ⟨2, ![100000, 3]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x3 : Shape := ⟨2, ![1600000, 3]⟩
abbrev S1600000x128 : Shape := ⟨2, ![1600000, 128]⟩
abbrev S1x64 : Shape := ⟨2, ![1, 64]⟩
abbrev S1x1 : Shape := ⟨2, ![1, 1]⟩
abbrev S100000x128 : Shape := ⟨2, ![100000, 128]⟩
abbrev S100000 : Shape := ⟨1, ![100000]⟩
abbrev S100000x1 : Shape := ⟨2, ![100000, 1]⟩

abbrev nBuf : Space → Nat
  | .hbm => 166
  | .vmem => 0
  | .smem => 0
  | _ => 0

abbrev hbmTy0_0 (i : Nat) : BufTy := match i % 128 with
  | 0 => ⟨S100000x64, .f32⟩
  | 1 => ⟨S100000x3, .f32⟩
  | 2 => ⟨S2x1600000, .i32⟩
  | 3 => ⟨S128x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S128x64, .f32⟩
  | 10 => ⟨S64, .f32⟩
  | 11 => ⟨S64x64, .f32⟩
  | 12 => ⟨S64, .f32⟩
  | 13 => ⟨S64, .f32⟩
  | 14 => ⟨S64, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x64, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x3, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x3, .f32⟩
  | 55 => ⟨S1600000x3, .f32⟩
  | 56 => ⟨S1600000x3, .f32⟩
  | 57 => ⟨S_, .f32⟩
  | 58 => ⟨S1600000, .f32⟩
  | 59 => ⟨S1600000x1, .f32⟩
  | 60 => ⟨S1600000x128, .f32⟩
  | 61 => ⟨S1600000x64, .f32⟩
  | 62 => ⟨S1x64, .f32⟩
  | 63 => ⟨S1600000x64, .f32⟩
  | 64 => ⟨S1600000x64, .f32⟩
  | 65 => ⟨S_, .f32⟩
  | 66 => ⟨S1600000x64, .f32⟩
  | 67 => ⟨S1600000x64, .f32⟩
  | 68 => ⟨S1600000x64, .f32⟩
  | 69 => ⟨S1x64, .f32⟩
  | 70 => ⟨S1600000x64, .f32⟩
  | 71 => ⟨S1600000x64, .f32⟩
  | 72 => ⟨S_, .f32⟩
  | 73 => ⟨S1600000x64, .f32⟩
  | 74 => ⟨S1600000x64, .f32⟩
  | 75 => ⟨S1600000x1, .f32⟩
  | 76 => ⟨S1x1, .f32⟩
  | 77 => ⟨S1600000x1, .f32⟩
  | 78 => ⟨S1600000x1, .f32⟩
  | 79 => ⟨S1600000x1, .f32⟩
  | 80 => ⟨S_, .f32⟩
  | 81 => ⟨S1600000x1, .f32⟩
  | 82 => ⟨S1600000x1, .f32⟩
  | 83 => ⟨S_, .f32⟩
  | 84 => ⟨S1600000x1, .f32⟩
  | 85 => ⟨S1600000x1, .f32⟩
  | 86 => ⟨S1600000x1, .f32⟩
  | 87 => ⟨S1600000x1, .f32⟩
  | 88 => ⟨S_, .f32⟩
  | 89 => ⟨S1600000x1, .f32⟩
  | 90 => ⟨S1600000x1, .f32⟩
  | 91 => ⟨S_, .f32⟩
  | 92 => ⟨S1600000x1, .f32⟩
  | 93 => ⟨S1600000x1, .f32⟩
  | 94 => ⟨S1600000x1, .f32⟩
  | 95 => ⟨S1600000x1, .f32⟩
  | 96 => ⟨S1600000x1, .f32⟩
  | 97 => ⟨S_, .f32⟩
  | 98 => ⟨S1600000x1, .f32⟩
  | 99 => ⟨S1600000x1, .f32⟩
  | 100 => ⟨S_, .f32⟩
  | 101 => ⟨S1600000x1, .f32⟩
  | 102 => ⟨S1600000x1, .f32⟩
  | 103 => ⟨S1600000x64, .f32⟩
  | 104 => ⟨S1600000x64, .f32⟩
  | 105 => ⟨S_, .f32⟩
  | 106 => ⟨S100000x64, .f32⟩
  | 107 => ⟨S1600000x1, .i32⟩
  | 108 => ⟨S100000x64, .f32⟩
  | 109 => ⟨S100000x128, .f32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S100000x64, .f32⟩
  | 122 => ⟨S_, .f32⟩
  | 123 => ⟨S100000, .f32⟩
  | 124 => ⟨S100000x1, .f32⟩
  | 125 => ⟨S_, .f32⟩
  | 126 => ⟨S100000x1, .f32⟩
  | 127 => ⟨S100000x1, .f32⟩
  | _ => ⟨S100000x64, .f32⟩

abbrev hbmTy0_1 (i : Nat) : BufTy := match i % 128 with
  | 0 => ⟨S_, .i32⟩
  | 1 => ⟨S_, .f32⟩
  | 2 => ⟨S100000, .f32⟩
  | 3 => ⟨S100000x1, .f32⟩
  | 4 => ⟨S_, .f32⟩
  | 5 => ⟨S100000x1, .f32⟩
  | 6 => ⟨S100000x1, .f32⟩
  | 7 => ⟨S100000x64, .f32⟩
  | 8 => ⟨S100000x64, .f32⟩
  | 9 => ⟨S100000x64, .f32⟩
  | 10 => ⟨S_, .f32⟩
  | 11 => ⟨S_, .f32⟩
  | 12 => ⟨S_, .f32⟩
  | 13 => ⟨S_, .f32⟩
  | 14 => ⟨S100000, .f32⟩
  | 15 => ⟨S100000x1, .f32⟩
  | 16 => ⟨S100000x1, .f32⟩
  | 17 => ⟨S100000x1, .f32⟩
  | 18 => ⟨S_, .f32⟩
  | 19 => ⟨S_, .i1⟩
  | 20 => ⟨S_, .f32⟩
  | 21 => ⟨S_, .f32⟩
  | 22 => ⟨S100000x1, .f32⟩
  | 23 => ⟨S100000x1, .f32⟩
  | 24 => ⟨S100000x64, .f32⟩
  | 25 => ⟨S100000x64, .f32⟩
  | 26 => ⟨S_, .f32⟩
  | 27 => ⟨S100000x1, .f32⟩
  | 28 => ⟨S100000x1, .f32⟩
  | 29 => ⟨S100000x1, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call0_cst : Ref sig .tc := ⟨.hbm, 65, rfl⟩
abbrev main_call0_v0 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call1_cst : Ref sig .tc := ⟨.hbm, 72, rfl⟩
abbrev main_call1_v0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_call2_cst : Ref sig .tc := ⟨.hbm, 114, rfl⟩
abbrev main_call2_v0 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_14 : Ref sig .tc := ⟨.hbm, 122, rfl⟩
abbrev main_v85 : Ref sig .tc := ⟨.hbm, 123, rfl⟩
abbrev main_v86 : Ref sig .tc := ⟨.hbm, 124, rfl⟩
abbrev main_cst_15 : Ref sig .tc := ⟨.hbm, 125, rfl⟩
abbrev main_v87 : Ref sig .tc := ⟨.hbm, 126, rfl⟩
abbrev main_v88 : Ref sig .tc := ⟨.hbm, 127, rfl⟩
abbrev main_c_16 : Ref sig .tc := ⟨.hbm, 128, rfl⟩
abbrev main_call3_cst : Ref sig .tc := ⟨.hbm, 129, rfl⟩
abbrev main_call3_v0 : Ref sig .tc := ⟨.hbm, 130, rfl⟩
abbrev main_call3_v1 : Ref sig .tc := ⟨.hbm, 131, rfl⟩
abbrev main_call3_cst_0 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_v7 : Ref sig .tc := ⟨.hbm, 138, rfl⟩
abbrev main_call3_cst_1 : Ref sig .tc := ⟨.hbm, 139, rfl⟩
abbrev main_call3_v8 : Ref sig .tc := ⟨.hbm, 140, rfl⟩
abbrev main_call3_cst_2 : Ref sig .tc := ⟨.hbm, 141, rfl⟩
abbrev main_call3_v9 : Ref sig .tc := ⟨.hbm, 142, rfl⟩
abbrev main_call3_v10 : Ref sig .tc := ⟨.hbm, 143, rfl⟩
abbrev main_call3_v11 : Ref sig .tc := ⟨.hbm, 144, rfl⟩
abbrev main_call3_v12 : Ref sig .tc := ⟨.hbm, 145, rfl⟩
abbrev main_call3_cst_3 : Ref sig .tc := ⟨.hbm, 146, rfl⟩
abbrev main_call3_v13 : Ref sig .tc := ⟨.hbm, 147, rfl⟩
abbrev main_call3_cst_4 : Ref sig .tc := ⟨.hbm, 148, rfl⟩
abbrev main_call3_call0_v0 : Ref sig .tc := ⟨.hbm, 149, rfl⟩
abbrev main_call3_call0_v1 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_cst_17 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  concatenates_S1600000x64_S1600000x64_S1600000x128_d1 : Shape.Concatenates [S1600000x64, S1600000x64] S1600000x128 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  gather_S100000x3_S1600000x1_S1600000x3_1_0_n_n_0_1_13_wf : GatherDims.WF S100000x3 S1600000x1 S1600000x3 [1] [0] [] [0] [] 1 ![1, 3]
  dot_S1600000x128_S128x64_S1600000x64_1_0_0_1_n_n_wf : DotDims.WF S1600000x128 S128x64 S1600000x64 [1] [0] [0] [1] [] []
  dot_S1600000x64_S64x64_S1600000x64_1_0_0_1_n_n_wf : DotDims.WF S1600000x64 S64x64 S1600000x64 [1] [0] [0] [1] [] []
  dot_S1600000x64_S64x1_S1600000x1_1_0_0_1_n_n_wf : DotDims.WF S1600000x64 S64x1 S1600000x1 [1] [0] [0] [1] [] []
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibColumnJoin.lean ====
/-
  Two [a, 64] arrays joined along the columns into one [a, 128] array, read at an entry.

  Column d < 64 of the joined array is column d of the first piece; column 64 + d is column d of the second.  This is
  how a real part and an imaginary part are laid side by side so that one 128-deep product does the work of two
  64-deep ones.
-/
import Idealize.ShloMosaic.Lib.Pipeline.Value
import Idealize.ShloMosaic.Lib.ValueIdx

noncomputable section

namespace Cert.ColumnJoin

open Idealize.ShloMosaic Idealize.ShloMosaic.ValueIdx

variable {α : Type}

/-- A column in the first half of the joined array reads the first piece. -/
theorem left_apply {a : ℕ} (x₁ x₂ : (⟨2, ![a, 64]⟩ : Shape).Idx → α)
    (h : Shape.Concatenates [⟨2, ![a, 64]⟩, ⟨2, ![a, 64]⟩] ⟨2, ![a, 128]⟩ 1) (p : Fin a) (d : Fin 64) :
    concatenate ⟨2, ![a, 128]⟩ 1 [⟨⟨2, ![a, 64]⟩, x₁⟩, ⟨⟨2, ![a, 64]⟩, x₂⟩] h (ix2 p ⟨d.val, by omega⟩)
      = x₁ (ix2 p d) :=
  concatenate_pair_apply_left 1 x₁ x₂ h _ rfl (ix2 p d) fun b => by
    match b with
    | ⟨0, _⟩ => rfl
    | ⟨1, _⟩ => rfl

/-- A column in the second half of the joined array reads the second piece, 64 columns to the left. -/
theorem right_apply {a : ℕ} (x₁ x₂ : (⟨2, ![a, 64]⟩ : Shape).Idx → α)
    (h : Shape.Concatenates [⟨2, ![a, 64]⟩, ⟨2, ![a, 64]⟩] ⟨2, ![a, 128]⟩ 1) (p : Fin a) (d : Fin 64) :
    concatenate ⟨2, ![a, 128]⟩ 1 [⟨⟨2, ![a, 64]⟩, x₁⟩, ⟨⟨2, ![a, 64]⟩, x₂⟩] h (ix2 p ⟨64 + d.val, by omega⟩)
      = x₂ (ix2 p d) :=
  concatenate_pair_apply_right 1 x₁ x₂ h _ rfl rfl (ix2 p d)
    (fun b hb => by
      match b with
      | ⟨0, _⟩ => rfl
      | ⟨1, _⟩ => exact absurd rfl hb)
    (by show d.val + 64 = 64 + d.val; omega)

end Cert.ColumnJoin

end
-- ==== Proof.Spec.lean ====
/-
  One message-passing layer over a graph, written row by row on the extended reals.

  Edge e joins a receiving node and a sending node.  Its row of 128 numbers (the two nodes' 64 features side by side) goes
  through two affine maps, each followed by a maximum with zero; the resulting 64 numbers are the edge's message.  The
  message is then scaled by one weight per edge: the logistic function of (an affine reading of the message) times (the
  logistic function of 30 / (√d + ε)), d the squared distance of the two nodes.  Every number of an edge's row depends on
  that edge's row alone, so the same formulas describe a block of rows and the whole array.

  A node's row of 64 features h and its 64 summed messages m, side by side, go through an affine map, a maximum with
  zero and a second affine map; the result is added to h, and the 64 sums z are normalised: with μ the mean of z and v the
  mean of (z − μ)², the output is (z − μ) · (v + ε)^(−1/2) · g + b.  Again a row's output depends on that row alone.
-/
import Idealize.ShloMosaic.Lib.ValueIdx
import Idealize.ShloMosaic.Lib.Pipeline.Value
import Idealize.ShloMosaic.PureOps.Ideal
import proofs.«154884_j40596030882310_2_alg».proof.Proof.LibColumnJoin

noncomputable section

open scoped BigOperators

namespace Cert.Egnn

open Idealize.ShloMosaic Idealize.ShloMosaic.ValueIdx

/-! ## An edge's row -/

/-- The first layer of the edge map at row `p`, column `j`. -/
def hidden {a : ℕ} (e : (⟨2, ![a, 128]⟩ : Shape).Idx → EReal) (We1 : (⟨2, ![128, 64]⟩ : Shape).Idx → EReal)
    (be1 : (⟨1, ![64]⟩ : Shape).Idx → EReal) (p : Fin a) (j : Fin 64) : EReal :=
  max (∑ k : Fin 128, e (ix2 p k) * We1 (ix2 k j) + be1 (ix1 j)) 0

/-- The edge's message at row `p`, column `j`: the second layer over the first. -/
def message {a : ℕ} (e : (⟨2, ![a, 128]⟩ : Shape).Idx → EReal) (We1 : (⟨2, ![128, 64]⟩ : Shape).Idx → EReal)
    (be1 : (⟨1, ![64]⟩ : Shape).Idx → EReal) (We2 : (⟨2, ![64, 64]⟩ : Shape).Idx → EReal)
    (be2 : (⟨1, ![64]⟩ : Shape).Idx → EReal) (p : Fin a) (j : Fin 64) : EReal :=
  max (∑ k : Fin 64, hidden e We1 be1 p k * We2 (ix2 k j) + be2 (ix1 j)) 0

/-- The distance gate of row `p`: the logistic function of 30 / (√d + ε). -/
def gate {a : ℕ} (d : (⟨2, ![a, 1]⟩ : Shape).Idx → EReal) (p : Fin a) : EReal :=
  Ideal.logistic (Ideal.div (Ideal.ofBits .f32 0x41F00000#32)
    (Ideal.sqrt (d (ix2 p (0 : Fin 1))) + Ideal.ofBits .f32 0x322BCC77#32))

/-- The weight of edge `p`: the logistic function of the message's affine reading times the distance gate. -/
def weight {a : ℕ} (e : (⟨2, ![a, 128]⟩ : Shape).Idx → EReal) (d : (⟨2, ![a, 1]⟩ : Shape).Idx → EReal)
    (We1 : (⟨2, ![128, 64]⟩ : Shape).Idx → EReal) (be1 : (⟨1, ![64]⟩ : Shape).Idx → EReal)
    (We2 : (⟨2, ![64, 64]⟩ : Shape).Idx → EReal) (be2 : (⟨1, ![64]⟩ : Shape).Idx → EReal)
    (Winf : (⟨2, ![64, 1]⟩ : Shape).Idx → EReal) (binf : (⟨1, ![1]⟩ : Shape).Idx → EReal) (p : Fin a) : EReal :=
  Ideal.logistic ((∑ k : Fin 64, message e We1 be1 We2 be2 p k * Winf (ix2 k (0 : Fin 1)) + binf (ix1 (0 : Fin 1)))
    * gate d p)

/-- The weighted messages of `a` edges, as an [a, 64] array. -/
def edgeRows {a : ℕ} (e : (⟨2, ![a, 128]⟩ : Shape).Idx → EReal) (d : (⟨2, ![a, 1]⟩ : Shape).Idx → EReal)
    (We1 : (⟨2, ![128, 64]⟩ : Shape).Idx → EReal) (be1 : (⟨1, ![64]⟩ : Shape).Idx → EReal)
    (We2 : (⟨2, ![64, 64]⟩ : Shape).Idx → EReal) (be2 : (⟨1, ![64]⟩ : Shape).Idx → EReal)
    (Winf : (⟨2, ![64, 1]⟩ : Shape).Idx → EReal) (binf : (⟨1, ![1]⟩ : Shape).Idx → EReal) :
    (⟨2, ![a, 64]⟩ : Shape).Idx → EReal :=
  fun i => message e We1 be1 We2 be2 (i 0) (i 1) * weight e d We1 be1 We2 be2 Winf binf (i 0)

theorem edgeRows_apply {a : ℕ} (e : (⟨2, ![a, 128]⟩ : Shape).Idx → EReal) (d : (⟨2, ![a, 1]⟩ : Shape).Idx → EReal)
    (We1 : (⟨2, ![128, 64]⟩ : Shape).Idx → EReal) (be1 : (⟨1, ![64]⟩ : Shape).Idx → EReal)
    (We2 : (⟨2, ![64, 64]⟩ : Shape).Idx → EReal) (be2 : (⟨1, ![64]⟩ : Shape).Idx → EReal)
    (Winf : (⟨2, ![64, 1]⟩ : Shape).Idx → EReal) (binf : (⟨1, ![1]⟩ : Shape).Idx → EReal) (p : Fin a) (q : Fin 64) :
    edgeRows e d We1 be1 We2 be2 Winf binf (ix2 p q)
      = message e We1 be1 We2 be2 p q * weight e d We1 be1 We2 be2 Winf binf p := rfl

/-! ## A node's row -/

/-- Two [a, 64] arrays side by side, read at row `p`, column `k` of 128. -/
def joined {a : ℕ} (x₁ x₂ : (⟨2, ![a, 64]⟩ : Shape).Idx → EReal) (p : Fin a) (k : Fin 128) : EReal :=
  if hk : k.val < 64 then x₁ (ix2 p ⟨k.val, hk⟩) else x₂ (ix2 p ⟨k.val - 64, by have := k.isLt; omega⟩)

/-- The side-by-side array the programs build reads as `joined`. -/
theorem concatenate_apply {a : ℕ} (x₁ x₂ : (⟨2, ![a, 64]⟩ : Shape).Idx → EReal)
    (h : Shape.Concatenates [⟨2, ![a, 64]⟩, ⟨2, ![a, 64]⟩] ⟨2, ![a, 128]⟩ 1) (p : Fin a) (k : Fin 128) :
    concatenate ⟨2, ![a, 128]⟩ 1 [⟨⟨2, ![a, 64]⟩, x₁⟩, ⟨⟨2, ![a, 64]⟩, x₂⟩] h (ix2 p k) = joined x₁ x₂ p k := by
  unfold joined
  by_cases hk : k.val < 64
  · rw [dif_pos hk]
    exact Cert.ColumnJoin.left_apply x₁ x₂ h p ⟨k.val, hk⟩
  · rw [dif_neg hk]
    have hk' : k.val - 64 < 64 := by have := k.isLt; omega
    have e : k = ⟨64 + (⟨k.val - 64, hk'⟩ : Fin 64).val, by have := k.isLt; omega⟩ := Fin.ext (by show k.val = 64 + (k.val - 64); omega)
    exact (congrArg (fun kk : Fin 128 => concatenate ⟨2, ![a, 128]⟩ 1 [⟨⟨2, ![a, 64]⟩, x₁⟩, ⟨⟨2, ![a, 64]⟩, x₂⟩] h (ix2 p kk)) e).trans
      (Cert.ColumnJoin.right_apply x₁ x₂ h p ⟨k.val - 64, hk'⟩)

/-- The first layer of the node map at row `p`, column `j`, over the summed messages `mi` and the features `h` side by side. -/
def nodeHidden {a : ℕ} (mi h : (⟨2, ![a, 64]⟩ : Shape).Idx → EReal) (Wn1 : (⟨2, ![128, 64]⟩ : Shape).Idx → EReal)
    (bn1 : (⟨1, ![64]⟩ : Shape).Idx → EReal) (p : Fin a) (j : Fin 64) : EReal :=
  max (∑ k : Fin 128, joined mi h p k * Wn1 (ix2 k j) + bn1 (ix1 j)) 0

/-- The features plus their update at row `p`, column `j`. -/
def updated {a : ℕ} (mi h : (⟨2, ![a, 64]⟩ : Shape).Idx → EReal) (Wn1 : (⟨2, ![128, 64]⟩ : Shape).Idx → EReal)
    (bn1 : (⟨1, ![64]⟩ : Shape).Idx → EReal) (Wn2 : (⟨2, ![64, 64]⟩ : Shape).Idx → EReal)
    (bn2 : (⟨1, ![64]⟩ : Shape).Idx → EReal) (p : Fin a) (j : Fin 64) : EReal :=
  h (ix2 p j) + (∑ k : Fin 64, nodeHidden mi h Wn1 bn1 p k * Wn2 (ix2 k j) + bn2 (ix1 j))

/-- The mean of row `p` of a function of (row, column): its sum over the 64 columns divided by 64. -/
def rowMean {a : ℕ} (z : Fin a → Fin 64 → EReal) (p : Fin a) : EReal :=
  Ideal.div (∑ j : Fin 64, z p j) (Ideal.ofBits .f32 0x42800000#32)

/-- The normalised rows: (z − μ) · (v + ε)^(−1/2) · g + b, with μ the row mean of z and v the row mean of (z − μ)². -/
def normRows {a : ℕ} (z : Fin a → Fin 64 → EReal) (g b : (⟨1, ![64]⟩ : Shape).Idx → EReal) :
    (⟨2, ![a, 64]⟩ : Shape).Idx → EReal :=
  fun i => (z (i 0) (i 1) - rowMean z (i 0))
      * Ideal.rsqrt (rowMean (fun p j => (z p j - rowMean z p) * (z p j - rowMean z p)) (i 0) + Ideal.ofBits .f32 0x3727C5AC#32)
      * g (ix1 (i 1)) + b (ix1 (i 1))

/-- The layer's output for `a` nodes, as an [a, 64] array. -/
def nodeRows {a : ℕ} (mi h : (⟨2, ![a, 64]⟩ : Shape).Idx → EReal) (Wn1 : (⟨2, ![128, 64]⟩ : Shape).Idx → EReal)
    (bn1 : (⟨1, ![64]⟩ : Shape).Idx → EReal) (Wn2 : (⟨2, ![64, 64]⟩ : Shape).Idx → EReal)
    (bn2 : (⟨1, ![64]⟩ : Shape).Idx → EReal) (g b : (⟨1, ![64]⟩ : Shape).Idx → EReal) :
    (⟨2, ![a, 64]⟩ : Shape).Idx → EReal :=
  normRows (updated mi h Wn1 bn1 Wn2 bn2) g b

theorem nodeRows_apply {a : ℕ} (mi h : (⟨2, ![a, 64]⟩ : Shape).Idx → EReal) (Wn1 : (⟨2, ![128, 64]⟩ : Shape).Idx → EReal)
    (bn1 : (⟨1, ![64]⟩ : Shape).Idx → EReal) (Wn2 : (⟨2, ![64, 64]⟩ : Shape).Idx → EReal)
    (bn2 : (⟨1, ![64]⟩ : Shape).Idx → EReal) (g b : (⟨1, ![64]⟩ : Shape).Idx → EReal) (p : Fin a) (q : Fin 64) :
    nodeRows mi h Wn1 bn1 Wn2 bn2 g b (ix2 p q)
      = (updated mi h Wn1 bn1 Wn2 bn2 p q - rowMean (updated mi h Wn1 bn1 Wn2 bn2) p)
        * Ideal.rsqrt (rowMean (fun p j => (updated mi h Wn1 bn1 Wn2 bn2 p j - rowMean (updated mi h Wn1 bn1 Wn2 bn2) p)
            * (updated mi h Wn1 bn1 Wn2 bn2 p j - rowMean (updated mi h Wn1 bn1 Wn2 bn2) p)) p + Ideal.ofBits .f32 0x3727C5AC#32)
        * g (ix1 q) + b (ix1 q) := rfl

/-! ## Rows of a block are rows of the array -/

/-- An edge block's rows: if block row `y` of the inputs is row `r` of the whole arrays, its output row is row `r` of the whole output. -/
theorem edgeRows_block {a n : ℕ} (E : (⟨2, ![n, 128]⟩ : Shape).Idx → EReal) (D : (⟨2, ![n, 1]⟩ : Shape).Idx → EReal)
    (e : (⟨2, ![a, 128]⟩ : Shape).Idx → EReal) (d : (⟨2, ![a, 1]⟩ : Shape).Idx → EReal)
    (We1 : (⟨2, ![128, 64]⟩ : Shape).Idx → EReal) (be1 : (⟨1, ![64]⟩ : Shape).Idx → EReal)
    (We2 : (⟨2, ![64, 64]⟩ : Shape).Idx → EReal) (be2 : (⟨1, ![64]⟩ : Shape).Idx → EReal)
    (Winf : (⟨2, ![64, 1]⟩ : Shape).Idx → EReal) (binf : (⟨1, ![1]⟩ : Shape).Idx → EReal)
    (y : Fin a) (r : Fin n) (he : ∀ k : Fin 128, e (ix2 y k) = E (ix2 r k)) (hd : d (ix2 y (0 : Fin 1)) = D (ix2 r (0 : Fin 1)))
    (q : Fin 64) :
    edgeRows e d We1 be1 We2 be2 Winf binf (ix2 y q) = edgeRows E D We1 be1 We2 be2 Winf binf (ix2 r q) := by
  simp only [edgeRows_apply, message, hidden, weight, gate, he, hd]

/-- A node block's rows likewise. -/
theorem nodeRows_block {a n : ℕ} (MI H : (⟨2, ![n, 64]⟩ : Shape).Idx → EReal) (mi h : (⟨2, ![a, 64]⟩ : Shape).Idx → EReal)
    (Wn1 : (⟨2, ![128, 64]⟩ : Shape).Idx → EReal) (bn1 : (⟨1, ![64]⟩ : Shape).Idx → EReal)
    (Wn2 : (⟨2, ![64, 64]⟩ : Shape).Idx → EReal) (bn2 : (⟨1, ![64]⟩ : Shape).Idx → EReal)
    (g b : (⟨1, ![64]⟩ : Shape).Idx → EReal)
    (y : Fin a) (r : Fin n) (hm : ∀ k : Fin 64, mi (ix2 y k) = MI (ix2 r k)) (hh : ∀ k : Fin 64, h (ix2 y k) = H (ix2 r k))
    (q : Fin 64) :
    nodeRows mi h Wn1 bn1 Wn2 bn2 g b (ix2 y q) = nodeRows MI H Wn1 bn1 Wn2 bn2 g b (ix2 r q) := by
  have hj : ∀ k : Fin 128, joined mi h y k = joined MI H r k := fun k => by
    unfold joined
    split
    · exact hm _
    · exact hh _
  have hu : ∀ j : Fin 64, updated mi h Wn1 bn1 Wn2 bn2 y j = updated MI H Wn1 bn1 Wn2 bn2 r j := fun j => by
    simp only [updated, nodeHidden, hj, hh]
  simp only [nodeRows_apply, rowMean, hu]

end Cert.Egnn

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.EdgePayload.lean ====
/-
  The edge kernel's body, read entry by entry.

  The body takes a block of 8000 edges: their 128 joined features, their squared distances, and the six weight arrays.
  Every operation of the body is either entrywise, a product of a block of rows with a weight matrix, or the repeat of
  a vector along rows or of a column along columns; so entry (y, q) of what the body stores depends on row y of the block
  alone, and it is the weighted message of that row: two affine maps each followed by a maximum with zero, then the
  product with the logistic weight of the row.  The changes of float format on the way are the identity on the extended
  reals.
-/
import proofs.«154884_j40596030882310_2_alg».proof.Proof.Gen.KernelIdeal.Frame
import proofs.«154884_j40596030882310_2_alg».proof.Proof.Spec
import proofs.«154884_j40596030882310_2_alg».proof.Proof.LibPlainMatmul
import proofs.«154884_j40596030882310_2_alg».proof.Proof.LibRowOps
import proofs.«154884_j40596030882310_2_alg».proof.Proof.LibKeepdims

noncomputable section

open scoped BigOperators

namespace Cert.KernelIdeal.Edge

open Idealize.ShloMosaic Idealize.ShloMosaic.ValueIdx Cert.KernelIdeal Cert.KernelIdeal.Gen

/-- An affine map of the rows of an [a, n] array, read at an entry: the product with an [n, b] array onto the zero array
    plus a vector of b numbers repeated along the rows is, at (p, q), the sum over k of left (p, k) · right (k, q), plus
    the vector's entry q. -/
theorem affine_apply {a n b : ℕ} {φ₁ φ₂ : FTy}
    (wf : DotDims.WF ⟨2, ![a, n]⟩ ⟨2, ![n, b]⟩ ⟨2, ![a, b]⟩ [1] [0] [0] [1] [] [])
    (L : FVec Ideal ⟨2, ![a, n]⟩ φ₁) (R : FVec Ideal ⟨2, ![n, b]⟩ φ₂) (bias : FVec Ideal ⟨1, ![b]⟩ .f32)
    (hc : (⟨1, ![b]⟩ : Shape).ShapeCasts ⟨2, ![1, b]⟩) (hb : (⟨2, ![1, b]⟩ : Shape).Broadcasts ⟨2, ![a, b]⟩)
    (p : Fin a) (q : Fin b) :
    addf (matmul (Cert.PlainMatmul.dims wf) none L R (constant ⟨2, ![a, b]⟩ .f32 0x00000000#32))
        (broadcastTo ⟨2, ![a, b]⟩ (shapeCast ⟨2, ![1, b]⟩ bias hc) hb) (ix2 p q)
      = ∑ k : Fin n, L (ix2 p k) * R (ix2 k q) + bias (ix1 q) := by
  show FloatOps.matmul (Cert.PlainMatmul.dims wf) none L R (constant ⟨2, ![a, b]⟩ .f32 0x00000000#32) (ix2 p q)
      + broadcastTo ⟨2, ![a, b]⟩ (shapeCast ⟨2, ![1, b]⟩ bias hc) hb (ix2 p q) = _
  rw [Cert.PlainMatmul.zero_acc_apply, Cert.RowOps.row_repeated_apply]

/-- The same followed by a maximum with zero. -/
theorem affine_relu_apply {a n b : ℕ} {φ₁ φ₂ : FTy}
    (wf : DotDims.WF ⟨2, ![a, n]⟩ ⟨2, ![n, b]⟩ ⟨2, ![a, b]⟩ [1] [0] [0] [1] [] [])
    (L : FVec Ideal ⟨2, ![a, n]⟩ φ₁) (R : FVec Ideal ⟨2, ![n, b]⟩ φ₂) (bias : FVec Ideal ⟨1, ![b]⟩ .f32)
    (hc : (⟨1, ![b]⟩ : Shape).ShapeCasts ⟨2, ![1, b]⟩) (hb : (⟨2, ![1, b]⟩ : Shape).Broadcasts ⟨2, ![a, b]⟩)
    (p : Fin a) (q : Fin b) :
    maximumf (addf (matmul (Cert.PlainMatmul.dims wf) none L R (constant ⟨2, ![a, b]⟩ .f32 0x00000000#32))
        (broadcastTo ⟨2, ![a, b]⟩ (shapeCast ⟨2, ![1, b]⟩ bias hc) hb))
        (broadcast ⟨2, ![a, b]⟩ (Scalar.ofBits (F := Ideal) .f32 0x00000000#32)) (ix2 p q)
      = max (∑ k : Fin n, L (ix2 p k) * R (ix2 k q) + bias (ix1 q)) 0 := by
  show max (addf (matmul (Cert.PlainMatmul.dims wf) none L R (constant ⟨2, ![a, b]⟩ .f32 0x00000000#32))
        (broadcastTo ⟨2, ![a, b]⟩ (shapeCast ⟨2, ![1, b]⟩ bias hc) hb) (ix2 p q)) (Ideal.ofBits .f32 0x00000000#32) = _
  rw [affine_apply, Ideal.ofBits_zero_f32]

/-- The body's second layer at row y, column q of a block is the message of the block's rows. -/
theorem pay2_apply (x0 : Vec Ideal S8000x128 .bf16) (x2 : Vec Ideal S128x64 .f32) (x3 : Vec Ideal S64 .f32)
    (x4 : Vec Ideal S64x64 .f32) (x5 : Vec Ideal S64 .f32) (y : Fin 8000) (q : Fin 64) :
    k0_pay2 (F := Ideal) x0 x2 x3 x4 x5 (ix2 y q) = Cert.Egnn.message (a := 8000) x0 x2 x3 x4 x5 y q := by
  unfold k0_pay2
  refine (affine_relu_apply dot_S8000x64_S64x64_S8000x64_1_0_0_1_n_n_wf _ _ x5 _ _ y q).trans ?_
  unfold Cert.Egnn.message
  refine congrArg (fun s : EReal => max (s + x5 (ix1 q)) 0) (Finset.sum_congr rfl fun k _ => congrArg (fun u : EReal => u * x4 (ix2 k q)) ?_)
  refine (affine_relu_apply dot_S8000x128_S128x64_S8000x64_1_0_0_1_n_n_wf _ _ x3 _ _ y k).trans ?_
  rw [shapeCast_self]
  rfl

/-- The body's weight column at row y of a block is the weight of the block's row y. -/
theorem pay3_apply (x0 : Vec Ideal S8000x128 .bf16) (x2 : Vec Ideal S128x64 .f32) (x3 : Vec Ideal S64 .f32)
    (x4 : Vec Ideal S64x64 .f32) (x5 : Vec Ideal S64 .f32) (x6 : Vec Ideal S64x1 .f32) (x7 : Vec Ideal S1 .f32)
    (x1 : Vec Ideal S8000x1 .f32) (y : Fin 8000) :
    k0_pay3 (F := Ideal) x0 x2 x3 x4 x5 x6 x7 x1 (ix2 y (0 : Fin 1))
      = Cert.Egnn.weight (a := 8000) x0 x1 x2 x3 x4 x5 x6 x7 y := by
  unfold k0_pay3
  show Ideal.logistic (addf (matmul dot_S8000x64_S64x1_S8000x1_1_0_0_1_n_n none
          (truncf .bf16 (k0_pay2 (F := Ideal) x0 x2 x3 x4 x5) bitsLt_bf16_f32) (truncf .bf16 x6 bitsLt_bf16_f32) (constant S8000x1 .f32 0x00000000#32))
        (broadcastTo S8000x1 (shapeCast S1x1 x7 shapeCasts_S1_S1x1) broadcasts_S1x1_S8000x1) (ix2 y (0 : Fin 1))
      * Ideal.logistic (Ideal.div (Ideal.ofBits .f32 0x41F00000#32)
          (Ideal.sqrt (shapeCast S8000x1 x1 shapeCasts_S8000x1_S8000x1 (ix2 y (0 : Fin 1))) + Ideal.ofBits .f32 0x322BCC77#32))) = _
  rw [shapeCast_self]
  unfold Cert.Egnn.weight Cert.Egnn.gate
  refine congrArg (fun s : EReal => Ideal.logistic (s * _)) ?_
  refine (affine_apply dot_S8000x64_S64x1_S8000x1_1_0_0_1_n_n_wf _ _ x7 _ _ y (0 : Fin 1)).trans ?_
  refine congrArg (fun s : EReal => s + x7 (ix1 (0 : Fin 1))) (Finset.sum_congr rfl fun k _ => congrArg (fun u : EReal => u * x6 (ix2 k (0 : Fin 1))) ?_)
  exact pay2_apply x0 x2 x3 x4 x5 y k

/-- What the body stores at row y, column q of its output block: the message of the block's row y at q times the row's weight. -/
theorem pay1_apply (x0 : Vec Ideal S8000x128 .bf16) (x1 : Vec Ideal S8000x1 .f32) (x2 : Vec Ideal S128x64 .f32) (x3 : Vec Ideal S64 .f32)
    (x4 : Vec Ideal S64x64 .f32) (x5 : Vec Ideal S64 .f32) (x6 : Vec Ideal S64x1 .f32) (x7 : Vec Ideal S1 .f32)
    (y : Fin 8000) (q : Fin 64) :
    k0_pay1 (F := Ideal) (k0_pay2 (F := Ideal) x0 x2 x3 x4 x5) (k0_pay3 (F := Ideal) x0 x2 x3 x4 x5 x6 x7 x1) (ix2 y q)
      = Cert.Egnn.edgeRows (a := 8000) x0 x1 x2 x3 x4 x5 x6 x7 (ix2 y q) := by
  unfold k0_pay1
  show k0_pay2 (F := Ideal) x0 x2 x3 x4 x5 (ix2 y q)
      * broadcastTo S8000x64 (k0_pay3 (F := Ideal) x0 x2 x3 x4 x5 x6 x7 x1) broadcasts_S8000x1_S8000x64 (ix2 y q) = _
  rw [Cert.Keepdims.column_repeat_apply, pay2_apply, pay3_apply, Cert.Egnn.edgeRows_apply]

theorem zeros2 : (![0, 0] : Fin 2 → Nat) = fun _ => 0 := funext fun a => by fin_cases a <;> rfl

theorem zeros1 : (![0] : Fin 1 → Nat) = fun _ => 0 := funext fun a => by fin_cases a <;> rfl

/-- What the body leaves in its output block, entry by entry: the weighted messages of the block's own rows. -/
theorem out_apply (x0 : Vec Ideal S8000x128 .bf16) (x1 : Vec Ideal S8000x1 .f32) (x2 : Vec Ideal S128x64 .f32) (x3 : Vec Ideal S64 .f32)
    (x4 : Vec Ideal S64x64 .f32) (x5 : Vec Ideal S64 .f32) (x6 : Vec Ideal S64x1 .f32) (x7 : Vec Ideal S1 .f32)
    (y : Fin 8000) (q : Fin 64) :
    out0_8 (F := Ideal) x0 x1 x2 x3 x4 x5 x6 x7 (ix2 y q)
      = Cert.Egnn.edgeRows (a := 8000) x0 x1 x2 x3 x4 x5 x6 x7 (ix2 y q) := by
  unfold out0_8
  rw [View.canon_unit_zero zeros2]
  simp only [View.ld_unit_zero (S := S8000x128) zeros2, View.ld_unit_zero (S := S8000x1) zeros2,
    View.ld_unit_zero (S := S128x64) zeros2, View.ld_unit_zero (S := S64x64) zeros2, View.ld_unit_zero (S := S64x1) zeros2,
    View.ld_unit_zero (S := S64) zeros1, View.ld_unit_zero (S := S1) zeros1]
  exact pay1_apply x0 x1 x2 x3 x4 x5 x6 x7 y q

end Cert.KernelIdeal.Edge

end
-- ==== Proof.EdgeKernel.lean ====
/-
  From the edge kernel's blocks to its output array.

  The region runs the body at 200 points; point t reads rows 8000·t … 8000·t + 7999 of the edge features and of the squared
  distances together with the whole weight arrays, and writes back rows 8000·t … 8000·t + 7999 of the output.  Since every
  entry of a block's result depends on its own row alone, what point t writes back is block t of one function of the whole
  arrays — the weighted messages of all 1600000 edges — and since the 200 blocks of rows cover the array, that function is
  what the output array holds after the region, whatever the arrays held when the region was entered.
-/
import proofs.«154884_j40596030882310_2_alg».proof.Proof.EdgePayload
import Idealize.ShloMosaic.Lib.Pipeline.Value

set_option maxRecDepth 16384

noncomputable section

open scoped BigOperators

namespace Cert.KernelIdeal.Edge

open Idealize.ShloMosaic Idealize.ShloMosaic.TcCoe Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The index maps over the grid: at point t the row-blocked windows (the edge features, the distances, the output) are at
    block t of their rows, and the weight windows are at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-- Row y of the block of edge features at point t is row 8000·t + y of the array. -/
theorem features_block (c : Dev nD) (t : Fin cfg0.N) (x : S8000x128.Idx) (k : S1600000x128.Idx)
    (hk0 : (k 0).val = t.val * 8000 + (x 0).val) (hk1 : (k 1).val = (x 1).val) :
    (iblk0 V c 0 t : Vec Ideal S8000x128 .bf16) x = (V c main_v19 : S1600000x128.Idx → EReal) k := by
  obtain ⟨e0, e1, -⟩ := idx_facts t
  unfold iblk0
  rw [View.read_apply]
  show (V c main_v19 : S1600000x128.Idx → EReal) _ = (V c main_v19 : S1600000x128.Idx → EReal) _
  refine congrArg (V c main_v19 : S1600000x128.Idx → EReal) (funext fun a => Fin.ext ?_)
  match a with
  | ⟨0, _⟩ => show win0_0.index t (0 : Fin 2) * 8000 + 1 * (x 0).val = (k 0).val; omega
  | ⟨1, _⟩ => show win0_0.index t (1 : Fin 2) * 128 + 1 * (x 1).val = (k 1).val; omega

/-- Row y of the block of squared distances at point t is row 8000·t + y of the array. -/
theorem distances_block (c : Dev nD) (t : Fin cfg0.N) (x : S8000x1.Idx) (k : S1600000x1.Idx)
    (hk0 : (k 0).val = t.val * 8000 + (x 0).val) (hk1 : (k 1).val = (x 1).val) :
    (iblk0 V c 1 t : Vec Ideal S8000x1 .f32) x = (V c main_v37 : S1600000x1.Idx → EReal) k := by
  obtain ⟨-, -, e0, e1, -⟩ := idx_facts t
  unfold iblk0
  rw [View.read_apply]
  show (V c main_v37 : S1600000x1.Idx → EReal) _ = (V c main_v37 : S1600000x1.Idx → EReal) _
  refine congrArg (V c main_v37 : S1600000x1.Idx → EReal) (funext fun a => Fin.ext ?_)
  match a with
  | ⟨0, _⟩ => show win0_1.index t (0 : Fin 2) * 8000 + 1 * (x 0).val = (k 0).val; omega
  | ⟨1, _⟩ => show win0_1.index t (1 : Fin 2) * 1 + 1 * (x 1).val = (k 1).val; omega

/-- Each weight window's block is its whole array, at every point. -/
theorem weights_block (c : Dev nD) (t : Fin cfg0.N) :
    (iblk0 V c 2 t : Vec Ideal S128x64 .f32) = (V c main_arg3 : S128x64.Idx → EReal)
    ∧ (iblk0 V c 3 t : Vec Ideal S64 .f32) = (V c main_arg4 : S64.Idx → EReal)
    ∧ (iblk0 V c 4 t : Vec Ideal S64x64 .f32) = (V c main_arg5 : S64x64.Idx → EReal)
    ∧ (iblk0 V c 5 t : Vec Ideal S64 .f32) = (V c main_arg6 : S64.Idx → EReal)
    ∧ (iblk0 V c 6 t : Vec Ideal S64x1 .f32) = (V c main_arg7 : S64x1.Idx → EReal)
    ∧ (iblk0 V c 7 t : Vec Ideal S1 .f32) = (V c main_arg8 : S1.Idx → EReal) := by
  obtain ⟨-, -, -, -, a0, a1, b0, c0, c1, d0, f0, f1, g0, -⟩ := idx_facts t
  unfold iblk0
  refine ⟨funext fun x => ?_, funext fun x => ?_, funext fun x => ?_, funext fun x => ?_, funext fun x => ?_, funext fun x => ?_⟩
  · rw [View.read_apply]
    show (V c main_arg3 : S128x64.Idx → EReal) _ = (V c main_arg3 : S128x64.Idx → EReal) x
    refine congrArg (V c main_arg3 : S128x64.Idx → EReal) (funext fun a => Fin.ext ?_)
    match a with
    | ⟨0, _⟩ => show win0_2.index t (0 : Fin 2) * 128 + 1 * (x 0).val = (x 0).val; omega
    | ⟨1, _⟩ => show win0_2.index t (1 : Fin 2) * 64 + 1 * (x 1).val = (x 1).val; omega
  · rw [View.read_apply]
    show (V c main_arg4 : S64.Idx → EReal) _ = (V c main_arg4 : S64.Idx → EReal) x
    refine congrArg (V c main_arg4 : S64.Idx → EReal) (funext fun a => Fin.ext ?_)
    match a with
    | ⟨0, _⟩ => show win0_3.index t (0 : Fin 1) * 64 + 1 * (x 0).val = (x 0).val; omega
  · rw [View.read_apply]
    show (V c main_arg5 : S64x64.Idx → EReal) _ = (V c main_arg5 : S64x64.Idx → EReal) x
    refine congrArg (V c main_arg5 : S64x64.Idx → EReal) (funext fun a => Fin.ext ?_)
    match a with
    | ⟨0, _⟩ => show win0_4.index t (0 : Fin 2) * 64 + 1 * (x 0).val = (x 0).val; omega
    | ⟨1, _⟩ => show win0_4.index t (1 : Fin 2) * 64 + 1 * (x 1).val = (x 1).val; omega
  · rw [View.read_apply]
    show (V c main_arg6 : S64.Idx → EReal) _ = (V c main_arg6 : S64.Idx → EReal) x
    refine congrArg (V c main_arg6 : S64.Idx → EReal) (funext fun a => Fin.ext ?_)
    match a with
    | ⟨0, _⟩ => show win0_5.index t (0 : Fin 1) * 64 + 1 * (x 0).val = (x 0).val; omega
  · rw [View.read_apply]
    show (V c main_arg7 : S64x1.Idx → EReal) _ = (V c main_arg7 : S64x1.Idx → EReal) x
    refine congrArg (V c main_arg7 : S64x1.Idx → EReal) (funext fun a => Fin.ext ?_)
    match a with
    | ⟨0, _⟩ => show win0_6.index t (0 : Fin 2) * 64 + 1 * (x 0).val = (x 0).val; omega
    | ⟨1, _⟩ => show win0_6.index t (1 : Fin 2) * 1 + 1 * (x 1).val = (x 1).val; omega
  · rw [View.read_apply]
    show (V c main_arg8 : S1.Idx → EReal) _ = (V c main_arg8 : S1.Idx → EReal) x
    refine congrArg (V c main_arg8 : S1.Idx → EReal) (funext fun a => Fin.ext ?_)
    match a with
    | ⟨0, _⟩ => show win0_7.index t (0 : Fin 1) * 1 + 1 * (x 0).val = (x 0).val; omega

/-- A block of 8000 rows starting at row r₀ of the arrays: entry j of what the body leaves is entry i of the whole arrays'
    weighted messages, when i is j moved down by r₀ rows. -/
theorem out_block (E : S1600000x128.Idx → EReal) (D : S1600000x1.Idx → EReal)
    (x0 : Vec Ideal S8000x128 .bf16) (x1 : Vec Ideal S8000x1 .f32) (x2 : Vec Ideal S128x64 .f32) (x3 : Vec Ideal S64 .f32)
    (x4 : Vec Ideal S64x64 .f32) (x5 : Vec Ideal S64 .f32) (x6 : Vec Ideal S64x1 .f32) (x7 : Vec Ideal S1 .f32) (r₀ : ℕ)
    (h0 : ∀ (x : S8000x128.Idx) (k : S1600000x128.Idx), (k 0).val = r₀ + (x 0).val → (k 1).val = (x 1).val → x0 x = E k)
    (h1 : ∀ (x : S8000x1.Idx) (k : S1600000x1.Idx), (k 0).val = r₀ + (x 0).val → (k 1).val = (x 1).val → x1 x = D k)
    (j : S8000x64.Idx) (i : S1600000x64.Idx) (hi0 : (i 0).val = r₀ + (j 0).val) (hi1 : (i 1).val = (j 1).val) :
    out0_8 (F := Ideal) x0 x1 x2 x3 x4 x5 x6 x7 j = Cert.Egnn.edgeRows (a := 1600000) E D x2 x3 x4 x5 x6 x7 i := by
  obtain ⟨y, q, rfl⟩ : ∃ (y : Fin 8000) (q : Fin 64), j = ix2 y q := ⟨j 0, j 1, eq_ix2 j⟩
  obtain ⟨r, q', rfl⟩ : ∃ (r : Fin 1600000) (q' : Fin 64), i = ix2 r q' := ⟨i 0, i 1, eq_ix2 i⟩
  obtain rfl : q' = q := Fin.ext hi1
  have hr : r.val = r₀ + y.val := hi0
  refine (out_apply x0 x1 x2 x3 x4 x5 x6 x7 y q').trans ?_
  exact Cert.Egnn.edgeRows_block E D x0 x1 x2 x3 x4 x5 x6 x7 y r
    (fun k => h0 (ix2 y k) (ix2 r k) hr rfl) (h1 (ix2 y (0 : Fin 1)) (ix2 r (0 : Fin 1)) hr rfl) q'

/-- The weighted messages of all 1600000 edges, from the arrays as the region finds them. -/
abbrev edgeArray (c : Dev nD) : S1600000x64.Idx → EReal :=
  Cert.Egnn.edgeRows (a := 1600000) (V c main_v19) (V c main_v37) (V c main_arg3) (V c main_arg4) (V c main_arg5)
    (V c main_arg6) (V c main_arg7) (V c main_arg8)

/-- What point t writes back is block t of the whole array of weighted messages. -/
theorem flushed_eq (c : Dev nD) (t : Fin cfg0.N) :
    (dat0 (F := Ideal) V c).flushed 8 t = ((cfg0.win 8).blk t).view.read (Elt Ideal) (edgeArray V c) := by
  show (cfg0.win 8).cut (grid0.coords t) ((dat0 (F := Ideal) V c).after 8 t) = _
  rw [after0_8]
  obtain ⟨w2, w3, w4, w5, w6, w7⟩ := weights_block V c t
  obtain ⟨-, -, -, -, -, -, -, -, -, -, -, -, -, e0, e1⟩ := idx_facts t
  funext j
  rw [View.read_apply]
  show out0_8 (F := Ideal) (iblk0 V c 0 t) (iblk0 V c 1 t) (iblk0 V c 2 t) (iblk0 V c 3 t) (iblk0 V c 4 t) (iblk0 V c 5 t)
      (iblk0 V c 6 t) (iblk0 V c 7 t) j = edgeArray V c (((cfg0.win 8).blk t).view.emb j)
  rw [w2, w3, w4, w5, w6, w7]
  refine out_block (V c main_v19) (V c main_v37) (iblk0 V c 0 t) (iblk0 V c 1 t) _ _ _ _ _ _ (t.val * 8000)
    (fun x k hk0 hk1 => features_block V c t x k hk0 hk1) (fun x k hk0 hk1 => distances_block V c t x k hk0 hk1)
    j _ ?_ ?_
  · show win0_8.index t (0 : Fin 2) * 8000 + 1 * (j 0).val = t.val * 8000 + (j 0).val; omega
  · show win0_8.index t (1 : Fin 2) * 64 + 1 * (j 1).val = (j 1).val; omega

/-- An entry of the array is in point t's block when each coordinate is in the block's range on its axis. -/
theorem mem_blk (t : Fin cfg0.N) (i : S1600000x64.Idx) :
    i ∈ ((cfg0.win 8).blk t).view.set ↔ ∀ a : Fin 2, win0_8.index t a * S8000x64.size a ≤ (i a).val
      ∧ (i a).val < win0_8.index t a * S8000x64.size a + S8000x64.size a := by
  show i ∈ ((View.whole main_v38).slice (win0_8.rect t)).set ↔ _
  rw [View.set_slice_whole, Rect.mem_set_unit]
  exact Iff.rfl

/-- After the region's 200 points the output array holds the weighted messages of all 1600000 edges: row r is written by
    point r / 8000, whose block it is in. -/
theorem final (c : Dev nD) :
    (dat0 (F := Ideal) V c).arrAt 8 cfg0.N
      = Cert.Egnn.edgeRows (a := 1600000) (V c main_v19) (V c main_v37) (V c main_arg3) (V c main_arg4) (V c main_arg5)
          (V c main_arg6) (V c main_arg7) (V c main_arg8) :=
  (dat0 (F := Ideal) V c).arrAt_eq_of_cover 8 (edgeArray V c) (fun t _ => flushed_eq V c t) fun i => by
    have hN : grid0.N = 200 := N_0
    have hi0 : (i 0).val < 1600000 := (i 0).isLt
    have hi1 : (i 1).val < 64 := (i 1).isLt
    have ht : (i 0).val / 8000 < cfg0.N := by show (i 0).val / 8000 < grid0.N; omega
    obtain ⟨-, -, -, -, -, -, -, -, -, -, -, -, -, e0, e1⟩ := idx_facts ⟨(i 0).val / 8000, ht⟩
    have e0' : win0_8.index ⟨(i 0).val / 8000, ht⟩ (0 : Fin 2) = (i 0).val / 8000 := e0
    refine ⟨⟨(i 0).val / 8000, ht⟩, flush0_8 _, ?_⟩
    rw [mem_blk]
    intro a
    match a with
    | ⟨0, _⟩ =>
      show win0_8.index ⟨(i 0).val / 8000, ht⟩ (0 : Fin 2) * 8000 ≤ (i 0).val
        ∧ (i 0).val < win0_8.index ⟨(i 0).val / 8000, ht⟩ (0 : Fin 2) * 8000 + 8000
      omega
    | ⟨1, _⟩ =>
      show win0_8.index ⟨(i 0).val / 8000, ht⟩ (1 : Fin 2) * 64 ≤ (i 1).val
        ∧ (i 1).val < win0_8.index ⟨(i 0).val / 8000, ht⟩ (1 : Fin 2) * 64 + 64
      omega

end Cert.KernelIdeal.Edge

end
-- ==== Proof.NodeKernelRow.lean ====
/-
  The node kernel's body, read entry by entry.

  One grid point of the node kernel loads a block of 5000 rows of the summed messages and of the features, and the six
  weight arrays whole, and stores one block of 5000 output rows.  Here the stored value at row p, column q is shown to
  be the layer's row formula over the block's rows: the two arrays side by side go through an affine map, a maximum
  with zero and a second affine map; the result is added to the features; the sums are centred by their row's mean,
  multiplied by the reciprocal root of the row's variance plus a constant, scaled and shifted.  Each stage is read at an
  index through the reading of its one non-pointwise operation: a product onto the zero array is a sum over the
  contracted axis, a lane sum is a sum over the columns, a column kept and repeated reads its row's entry, a bias
  repeated along the rows reads its column's entry.  The conversions to the narrower float format are the identity on
  the extended reals.
-/
import proofs.«154884_j40596030882310_2_alg».proof.Proof.Gen.KernelIdeal.Skeleton
import proofs.«154884_j40596030882310_2_alg».proof.Proof.Spec
import proofs.«154884_j40596030882310_2_alg».proof.Proof.LibPlainMatmul
import proofs.«154884_j40596030882310_2_alg».proof.Proof.LibRowOps
import proofs.«154884_j40596030882310_2_alg».proof.Proof.LibKeepdims

noncomputable section

open scoped BigOperators

namespace Cert.KernelIdeal.Node

open Idealize.ShloMosaic Idealize.ShloMosaic.ValueIdx Cert.KernelIdeal Cert.KernelIdeal.Gen

/-- The features plus their update, read off the body's arithmetic at row `p`, column `j`: two products onto the zero
    array, each with its bias repeated along the rows, a maximum with zero between them, and the features added. -/
theorem updated_apply (x0 x1 : Vec Ideal S5000x64 .f32) (x2 : Vec Ideal S128x64 .f32) (x3 : Vec Ideal S64 .f32)
    (x4 : Vec Ideal S64x64 .f32) (x5 : Vec Ideal S64 .f32) (p : Fin 5000) (j : Fin 64) :
    k1_pay2 (F := Ideal) x0 x1 x2 x3 x4 x5 (ix2 p j) = Cert.Egnn.updated x0 x1 x2 x3 x4 x5 p j := by
  unfold k1_pay2 Cert.Egnn.updated
  refine (addf_apply _ _ _).trans (congrArg (x1 (ix2 p j) + ·) ?_)
  refine (addf_apply _ _ _).trans (congrArg₂ (· + ·) ?_ (Cert.RowOps.row_repeated_apply x5 _ _ p j))
  refine (Cert.PlainMatmul.zero_acc_apply _ none _ _ p j).trans (Finset.sum_congr rfl fun k _ => ?_)
  refine congrArg (· * x4 (ix2 k j)) ?_
  unfold Cert.Egnn.nodeHidden
  refine (truncf_apply (ψ := .bf16) _ bitsLt_bf16_f32 _).trans ?_
  refine (maximumf_apply _ _ _).trans (congrArg₂ max ?_ Ideal.ofBits_zero_f32)
  refine (addf_apply _ _ _).trans (congrArg₂ (· + ·) ?_ (Cert.RowOps.row_repeated_apply x3 _ _ p k))
  refine (Cert.PlainMatmul.zero_acc_apply _ none _ _ p k).trans (Finset.sum_congr rfl fun k' _ => ?_)
  refine congrArg (· * x2 (ix2 k' k)) ?_
  refine (truncf_apply (ψ := .bf16) _ bitsLt_bf16_f32 _).trans ?_
  exact (congrArg (fun v => concatenate S5000x128 1 [⟨S5000x64, v⟩, ⟨S5000x64, x1⟩]
      concatenates_S5000x64_S5000x64_S5000x128_d1 (ix2 p k')) (shapeCast_self x0 _)).trans
    (Cert.Egnn.concatenate_apply x0 x1 _ p k')

/-- The mean of a row of the updated features: the lane sum kept as a column, divided by 64. -/
theorem mean_apply (x0 x1 : Vec Ideal S5000x64 .f32) (x2 : Vec Ideal S128x64 .f32) (x3 : Vec Ideal S64 .f32)
    (x4 : Vec Ideal S64x64 .f32) (x5 : Vec Ideal S64 .f32) (p : Fin 5000) :
    k1_pay3 (F := Ideal) x0 x1 x2 x3 x4 x5 (ix2 p (0 : Fin 1))
      = Cert.Egnn.rowMean (Cert.Egnn.updated x0 x1 x2 x3 x4 x5) p := by
  unfold k1_pay3
  refine (divf_apply _ _ _).trans (congrArg₂ Ideal.div ?_ rfl)
  refine (Cert.Keepdims.column_cast_apply _ _ p).trans ?_
  exact (Cert.RowOps.sum_over_columns_apply _ _ _ _ p).trans
    (Finset.sum_congr rfl fun d _ => updated_apply x0 x1 x2 x3 x4 x5 p d)

/-- The updated features less their row's mean, the mean repeated along the columns. -/
theorem centred_apply (x0 x1 : Vec Ideal S5000x64 .f32) (x2 : Vec Ideal S128x64 .f32) (x3 : Vec Ideal S64 .f32)
    (x4 : Vec Ideal S64x64 .f32) (x5 : Vec Ideal S64 .f32) (p : Fin 5000) (j : Fin 64) :
    k1_pay5 (F := Ideal) x0 x1 x2 x3 x4 x5 (ix2 p j)
      = Cert.Egnn.updated x0 x1 x2 x3 x4 x5 p j - Cert.Egnn.rowMean (Cert.Egnn.updated x0 x1 x2 x3 x4 x5) p := by
  unfold k1_pay5
  refine (subf_apply _ _ _).trans (congrArg₂ (· - ·) (updated_apply x0 x1 x2 x3 x4 x5 p j) ?_)
  exact (Cert.Keepdims.column_repeat_apply _ _ p j).trans (mean_apply x0 x1 x2 x3 x4 x5 p)

/-- The mean of a row of the squared centred features. -/
theorem variance_apply (x0 x1 : Vec Ideal S5000x64 .f32) (x2 : Vec Ideal S128x64 .f32) (x3 : Vec Ideal S64 .f32)
    (x4 : Vec Ideal S64x64 .f32) (x5 : Vec Ideal S64 .f32) (p : Fin 5000) :
    k1_pay4 (F := Ideal) x0 x1 x2 x3 x4 x5 (ix2 p (0 : Fin 1))
      = Cert.Egnn.rowMean (fun p j =>
          (Cert.Egnn.updated x0 x1 x2 x3 x4 x5 p j - Cert.Egnn.rowMean (Cert.Egnn.updated x0 x1 x2 x3 x4 x5) p)
            * (Cert.Egnn.updated x0 x1 x2 x3 x4 x5 p j - Cert.Egnn.rowMean (Cert.Egnn.updated x0 x1 x2 x3 x4 x5) p)) p := by
  unfold k1_pay4
  refine (divf_apply _ _ _).trans (congrArg₂ Ideal.div ?_ rfl)
  refine (Cert.Keepdims.column_cast_apply _ _ p).trans ?_
  refine (Cert.RowOps.sum_over_columns_apply _ _ _ _ p).trans (Finset.sum_congr rfl fun d _ => ?_)
  exact (mulf_apply _ _ _).trans (congrArg₂ (· * ·) (centred_apply x0 x1 x2 x3 x4 x5 p d) (centred_apply x0 x1 x2 x3 x4 x5 p d))

/-- The last stage: the centred features times the reciprocal root of (variance plus a constant), the root repeated
    along the columns, times the scale and plus the shift, each repeated along the rows. -/
theorem scaled_apply (v33 v38 : FVec Ideal S5000x1 .f32) (v34 v35 : Vec Ideal S64 .f32) (v37 : FVec Ideal S5000x64 .f32)
    (p : Fin 5000) (q : Fin 64) :
    k1_pay1 (F := Ideal) v33 v34 v35 v37 v38 (ix2 p q)
      = v37 (ix2 p q) * Ideal.rsqrt (v33 (ix2 p (0 : Fin 1)) + v38 (ix2 p (0 : Fin 1))) * v34 (ix1 q) + v35 (ix1 q) := by
  unfold k1_pay1
  refine (addf_apply _ _ _).trans (congrArg₂ (· + ·) ?_ (Cert.RowOps.row_repeated_apply v35 _ _ p q))
  refine (mulf_apply _ _ _).trans (congrArg₂ (· * ·) ?_ (Cert.RowOps.row_repeated_apply v34 _ _ p q))
  refine (mulf_apply _ _ _).trans (congrArg (v37 (ix2 p q) * ·) ?_)
  exact (Cert.Keepdims.column_repeat_apply _ _ p q).trans rfl

/-- The whole body at row `p`, column `q`, of its eight loaded blocks: the layer's row formula over the block's rows. -/
theorem payload_apply (x0 x1 : Vec Ideal S5000x64 .f32) (x2 : Vec Ideal S128x64 .f32) (x3 : Vec Ideal S64 .f32)
    (x4 : Vec Ideal S64x64 .f32) (x5 x6 x7 : Vec Ideal S64 .f32) (p : Fin 5000) (q : Fin 64) :
    k1_pay1 (F := Ideal) (k1_pay4 x0 x1 x2 x3 x4 x5) x6 x7 (k1_pay5 x0 x1 x2 x3 x4 x5) k1_pay6 (ix2 p q)
      = Cert.Egnn.nodeRows (a := 5000) x0 x1 x2 x3 x4 x5 x6 x7 (ix2 p q) := by
  rw [scaled_apply, variance_apply, centred_apply, Cert.Egnn.nodeRows_apply]
  rfl

end Cert.KernelIdeal.Node

end
-- ==== Proof.NodeKernel.lean ====
/-
  The node kernel's output array as a function of its input arrays.

  The node kernel runs over 20 grid points.  At point t it reads rows 5000 t … 5000 t + 4999 of the summed messages and
  of the features, and the six weight arrays whole, and writes rows 5000 t … 5000 t + 4999 of the output.  A row of the
  layer depends on that row of the two inputs alone, so what point t writes is block t of ONE function of the whole
  input arrays: the layer over all 100000 nodes.  The 20 blocks cover the 100000 rows (row r is in block r / 5000), so
  after the region the output array is that function.  Everything is stated for any contents the region may find its
  arrays at.
-/
import proofs.«154884_j40596030882310_2_alg».proof.Proof.Gen.KernelIdeal.Frame
import proofs.«154884_j40596030882310_2_alg».proof.Proof.Spec
import proofs.«154884_j40596030882310_2_alg».proof.Proof.NodeKernelRow
import Idealize.ShloMosaic.Lib.Pipeline.Value

noncomputable section

open scoped BigOperators

namespace Cert.KernelIdeal.Node

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The origin's offsets on two axes are all zero, -/
theorem zeros2 : (![0, 0] : Fin 2 → Nat) = fun _ => 0 := funext fun a => by fin_cases a <;> rfl
/-- and on one axis. -/
theorem zeros1 : (![0] : Fin 1 → Nat) = fun _ => 0 := funext fun a => by fin_cases a <;> rfl

/-- What the body leaves in the output window's buffer, at row `p`, column `q`: its one store covers the buffer, every
    load reads a whole block, and the stored value is the layer's row formula over the blocks' rows. -/
theorem body_apply (x0 x1 : Vec Ideal S5000x64 .f32) (x2 : Vec Ideal S128x64 .f32) (x3 : Vec Ideal S64 .f32)
    (x4 : Vec Ideal S64x64 .f32) (x5 x6 x7 : Vec Ideal S64 .f32) (p : Fin 5000) (q : Fin 64) :
    out1_8 (F := Ideal) x0 x1 x2 x3 x4 x5 x6 x7 (ix2 p q)
      = Cert.Egnn.nodeRows (a := 5000) x0 x1 x2 x3 x4 x5 x6 x7 (ix2 p q) := by
  unfold out1_8
  rw [View.canon_unit_zero zeros2]
  simp only [View.ld_unit_zero (S := S5000x64) zeros2, View.ld_unit_zero (S := S128x64) zeros2,
    View.ld_unit_zero (S := S64x64) zeros2, View.ld_unit_zero (S := S64) zeros1]
  exact payload_apply x0 x1 x2 x3 x4 x5 x6 x7 p q

/-- The layer over all 100000 nodes, of the arrays as the region finds them. -/
abbrev wholeRows (c : Dev nD) : Buf (Elt Ideal) ((c : Thread nD τ).loc main_v43) :=
  Cert.Egnn.nodeRows (a := 100000) (V c main_v42) (V c main_arg0) (V c main_arg9) (V c main_arg10) (V c main_arg11)
    (V c main_arg12) (V c main_arg13) (V c main_arg14)

/-- The block indices over the grid: at point `t` the three row-blocked windows (summed messages, features, output) are
    at block `t` of the rows and block 0 of the columns, and each weight window is at block 0 on every axis. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0 ∧ win1_6.index t (0 : Fin 1) = 0 ∧ win1_7.index t (0 : Fin 1) = 0 :=
  (by decide +kernel : ∀ t : Fin grid1.N, _)

/-- Row `y` of point `t`'s block of the summed messages is row `5000 t + y` of the array: a block's coordinate in the
    array is the block index times the block's extent plus the coordinate inside the block. -/
theorem rows_block0 (c : Dev nD) (t : Fin cfg1.N) (y : Fin 5000) (k : Fin 64) (r : Fin 100000)
    (hr : r.val = t.val * 5000 + y.val) :
    (iblk1 V c 0 t : Vec Ideal S5000x64 .f32) (ix2 y k) = (V c main_v42 : S100000x64.Idx → EReal) (ix2 r k) := by
  unfold iblk1
  rw [View.read_apply]
  show (V c main_v42 : S100000x64.Idx → EReal) _ = V c main_v42 (ix2 r k)
  obtain ⟨e0, e1, -⟩ := idx_facts t
  refine congrArg (V c main_v42 : S100000x64.Idx → EReal) (funext fun a => Fin.ext ?_)
  match a with
  | ⟨0, _⟩ => show win1_0.index t (0 : Fin 2) * 5000 + 1 * y.val = r.val; omega
  | ⟨1, _⟩ => show win1_0.index t (1 : Fin 2) * 64 + 1 * k.val = k.val; omega

/-- The features' block likewise. -/
theorem rows_block1 (c : Dev nD) (t : Fin cfg1.N) (y : Fin 5000) (k : Fin 64) (r : Fin 100000)
    (hr : r.val = t.val * 5000 + y.val) :
    (iblk1 V c 1 t : Vec Ideal S5000x64 .f32) (ix2 y k) = (V c main_arg0 : S100000x64.Idx → EReal) (ix2 r k) := by
  unfold iblk1
  rw [View.read_apply]
  show (V c main_arg0 : S100000x64.Idx → EReal) _ = V c main_arg0 (ix2 r k)
  obtain ⟨-, -, e0, e1, -⟩ := idx_facts t
  refine congrArg (V c main_arg0 : S100000x64.Idx → EReal) (funext fun a => Fin.ext ?_)
  match a with
  | ⟨0, _⟩ => show win1_1.index t (0 : Fin 2) * 5000 + 1 * y.val = r.val; omega
  | ⟨1, _⟩ => show win1_1.index t (1 : Fin 2) * 64 + 1 * k.val = k.val; omega

/-- Each weight window's block is its whole array, at every point: the first affine map's matrix, -/
theorem weights_block2 (c : Dev nD) (t : Fin cfg1.N) :
    (iblk1 V c 2 t : Vec Ideal S128x64 .f32) = (V c main_arg9 : S128x64.Idx → EReal) := by
  funext x
  unfold iblk1
  rw [View.read_apply]
  show (V c main_arg9 : S128x64.Idx → EReal) _ = V c main_arg9 x
  obtain ⟨-, -, -, -, -, -, e0, e1, -⟩ := idx_facts t
  refine congrArg (V c main_arg9 : S128x64.Idx → EReal) (funext fun a => Fin.ext ?_)
  match a with
  | ⟨0, _⟩ => show win1_2.index t (0 : Fin 2) * 128 + 1 * (x 0).val = (x 0).val; omega
  | ⟨1, _⟩ => show win1_2.index t (1 : Fin 2) * 64 + 1 * (x 1).val = (x 1).val; omega

/-- its bias, -/
theorem weights_block3 (c : Dev nD) (t : Fin cfg1.N) :
    (iblk1 V c 3 t : Vec Ideal S64 .f32) = (V c main_arg10 : S64.Idx → EReal) := by
  funext x
  unfold iblk1
  rw [View.read_apply]
  show (V c main_arg10 : S64.Idx → EReal) _ = V c main_arg10 x
  obtain ⟨-, -, -, -, -, -, -, -, e0, -⟩ := idx_facts t
  refine congrArg (V c main_arg10 : S64.Idx → EReal) (funext fun a => Fin.ext ?_)
  match a with
  | ⟨0, _⟩ => show win1_3.index t (0 : Fin 1) * 64 + 1 * (x 0).val = (x 0).val; omega

/-- the second affine map's matrix, -/
theorem weights_block4 (c : Dev nD) (t : Fin cfg1.N) :
    (iblk1 V c 4 t : Vec Ideal S64x64 .f32) = (V c main_arg11 : S64x64.Idx → EReal) := by
  funext x
  unfold iblk1
  rw [View.read_apply]
  show (V c main_arg11 : S64x64.Idx → EReal) _ = V c main_arg11 x
  obtain ⟨-, -, -, -, -, -, -, -, -, e0, e1, -⟩ := idx_facts t
  refine congrArg (V c main_arg11 : S64x64.Idx → EReal) (funext fun a => Fin.ext ?_)
  match a with
  | ⟨0, _⟩ => show win1_4.index t (0 : Fin 2) * 64 + 1 * (x 0).val = (x 0).val; omega
  | ⟨1, _⟩ => show win1_4.index t (1 : Fin 2) * 64 + 1 * (x 1).val = (x 1).val; omega

/-- its bias, -/
theorem weights_block5 (c : Dev nD) (t : Fin cfg1.N) :
    (iblk1 V c 5 t : Vec Ideal S64 .f32) = (V c main_arg12 : S64.Idx → EReal) := by
  funext x
  unfold iblk1
  rw [View.read_apply]
  show (V c main_arg12 : S64.Idx → EReal) _ = V c main_arg12 x
  obtain ⟨-, -, -, -, -, -, -, -, -, -, -, e0, -⟩ := idx_facts t
  refine congrArg (V c main_arg12 : S64.Idx → EReal) (funext fun a => Fin.ext ?_)
  match a with
  | ⟨0, _⟩ => show win1_5.index t (0 : Fin 1) * 64 + 1 * (x 0).val = (x 0).val; omega

/-- the normalisation's scale, -/
theorem weights_block6 (c : Dev nD) (t : Fin cfg1.N) :
    (iblk1 V c 6 t : Vec Ideal S64 .f32) = (V c main_arg13 : S64.Idx → EReal) := by
  funext x
  unfold iblk1
  rw [View.read_apply]
  show (V c main_arg13 : S64.Idx → EReal) _ = V c main_arg13 x
  obtain ⟨-, -, -, -, -, -, -, -, -, -, -, -, e0, -⟩ := idx_facts t
  refine congrArg (V c main_arg13 : S64.Idx → EReal) (funext fun a => Fin.ext ?_)
  match a with
  | ⟨0, _⟩ => show win1_6.index t (0 : Fin 1) * 64 + 1 * (x 0).val = (x 0).val; omega

/-- and its shift. -/
theorem weights_block7 (c : Dev nD) (t : Fin cfg1.N) :
    (iblk1 V c 7 t : Vec Ideal S64 .f32) = (V c main_arg14 : S64.Idx → EReal) := by
  funext x
  unfold iblk1
  rw [View.read_apply]
  show (V c main_arg14 : S64.Idx → EReal) _ = V c main_arg14 x
  obtain ⟨-, -, -, -, -, -, -, -, -, -, -, -, -, e0⟩ := idx_facts t
  refine congrArg (V c main_arg14 : S64.Idx → EReal) (funext fun a => Fin.ext ?_)
  match a with
  | ⟨0, _⟩ => show win1_7.index t (0 : Fin 1) * 64 + 1 * (x 0).val = (x 0).val; omega

/-- What point `t` writes back is block `t` of the layer over all the nodes. -/
theorem flushed_eq (c : Dev nD) (t : Fin cfg1.N) :
    (dat1 (F := Ideal) V c).flushed 8 t = ((cfg1.win 8).blk t).view.read (Elt Ideal) (wholeRows V c) := by
  show (cfg1.win 8).cut (grid1.coords t) ((dat1 (F := Ideal) V c).after 8 t) = _
  rw [after1_8, weights_block2 V c t, weights_block3 V c t, weights_block4 V c t, weights_block5 V c t,
    weights_block6 V c t, weights_block7 V c t]
  funext j
  have hj0 : (j 0).val < 5000 := (j 0).isLt
  have hj1 : (j 1).val < 64 := (j 1).isLt
  have hN : grid1.N = 20 := N_1
  have ht : t.val < 20 := lt_of_lt_of_eq t.isLt hN
  obtain ⟨-, -, -, -, e0, e1, -⟩ := idx_facts t
  have ej : (cfg1.win 8).xinj (grid1.coords t) j = ix2 (⟨(j 0).val, hj0⟩ : Fin 5000) (⟨(j 1).val, hj1⟩ : Fin 64) :=
    funext fun a => Fin.ext (by
      match a with
      | ⟨0, _⟩ => rfl
      | ⟨1, _⟩ => rfl)
  rw [View.read_apply]
  show out1_8 (F := Ideal) (iblk1 V c 0 t) (iblk1 V c 1 t) (V c main_arg9) (V c main_arg10) (V c main_arg11)
      (V c main_arg12) (V c main_arg13) (V c main_arg14) ((cfg1.win 8).xinj (grid1.coords t) j)
    = wholeRows V c (((cfg1.win 8).blk t).view.emb j)
  rw [ej]
  refine (body_apply (iblk1 V c 0 t) (iblk1 V c 1 t) (V c main_arg9) (V c main_arg10) (V c main_arg11)
    (V c main_arg12) (V c main_arg13) (V c main_arg14) ⟨(j 0).val, hj0⟩ ⟨(j 1).val, hj1⟩).trans ?_
  refine (Cert.Egnn.nodeRows_block (V c main_v42) (V c main_arg0) (iblk1 V c 0 t) (iblk1 V c 1 t) (V c main_arg9)
    (V c main_arg10) (V c main_arg11) (V c main_arg12) (V c main_arg13) (V c main_arg14)
    (⟨(j 0).val, hj0⟩ : Fin 5000) (⟨t.val * 5000 + (j 0).val, by omega⟩ : Fin 100000)
    (fun k => rows_block0 V c t _ k _ rfl) (fun k => rows_block1 V c t _ k _ rfl) ⟨(j 1).val, hj1⟩).trans ?_
  refine congrArg (wholeRows V c) (funext fun a => Fin.ext ?_)
  match a with
  | ⟨0, _⟩ => show t.val * 5000 + (j 0).val = win1_8.index t (0 : Fin 2) * 5000 + 1 * (j 0).val; omega
  | ⟨1, _⟩ => show (j 1).val = win1_8.index t (1 : Fin 2) * 64 + 1 * (j 1).val; omega

/-- A node's row is in point `t`'s block iff it is one of rows 5000 t … 5000 t + 4999. -/
theorem mem_block (t : Fin cfg1.N) (i : S100000x64.Idx) :
    i ∈ ((cfg1.win 8).blk t).view.set ↔ ∀ a : Fin 2, win1_8.index t a * S5000x64.size a ≤ (i a).val
      ∧ (i a).val < win1_8.index t a * S5000x64.size a + S5000x64.size a := by
  show i ∈ ((View.whole main_v43).slice (win1_8.rect t)).set ↔ _
  rw [View.set_slice_whole, Rect.mem_set_unit]
  exact Iff.rfl

/-- The output array after the region: the layer over all 100000 nodes of the arrays as the region finds them. Row
    `r` is written by point `r / 5000`, and every point writes its block of the one whole-array function. -/
theorem final (c : Dev nD) :
    (dat1 (F := Ideal) V c).arrAt 8 cfg1.N
      = Cert.Egnn.nodeRows (a := 100000) (V c main_v42) (V c main_arg0) (V c main_arg9) (V c main_arg10)
          (V c main_arg11) (V c main_arg12) (V c main_arg13) (V c main_arg14) :=
  (dat1 (F := Ideal) V c).arrAt_eq_of_cover 8 (wholeRows V c) (fun t _ => flushed_eq V c t) fun i => by
    have hN : grid1.N = 20 := N_1
    have hi0 : (i 0).val < 100000 := (i 0).isLt
    have hi1 : (i 1).val < 64 := (i 1).isLt
    have htl : (i 0).val / 5000 < cfg1.N := by rw [show cfg1.N = 20 from hN]; omega
    obtain ⟨-, -, -, -, e0, e1, -⟩ := idx_facts ⟨(i 0).val / 5000, htl⟩
    refine ⟨⟨(i 0).val / 5000, htl⟩, flush1_8 _, ?_⟩
    rw [mem_block]
    intro a
    match a with
    | ⟨0, _⟩ =>
      show win1_8.index ⟨(i 0).val / 5000, htl⟩ (0 : Fin 2) * 5000 ≤ (i 0).val
        ∧ (i 0).val < win1_8.index ⟨(i 0).val / 5000, htl⟩ (0 : Fin 2) * 5000 + 5000
      rw [e0]
      show (i 0).val / 5000 * 5000 ≤ (i 0).val ∧ (i 0).val < (i 0).val / 5000 * 5000 + 5000
      omega
    | ⟨1, _⟩ =>
      show win1_8.index ⟨(i 0).val / 5000, htl⟩ (1 : Fin 2) * 64 ≤ (i 1).val
        ∧ (i 1).val < win1_8.index ⟨(i 0).val / 5000, htl⟩ (1 : Fin 2) * 64 + 64
      rw [e1]
      omega

end Cert.KernelIdeal.Node

end
-- ==== Proof.KernelRun.lean ====
/-
  The idealized kernel program's run with its result array named.

  The program is four segments in a row: host operations, the edge region, host operations, the node region.  After the
  last segment every buffer that outlives a region holds the last boundary's contents; reading the result buffer there
  (beside the fifteen argument buffers, which nothing writes) names what the program returns: the node region's output
  window after its last write-back.
-/
import proofs.«154884_j40596030882310_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of the program ends, nothing faulting, with the result buffer at the last boundary's
    contents and every argument as launched. -/
theorem run_out : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.Out

end
-- ==== Proof.KernelOut.lean ====
/-
  The idealized kernel program's result array as a function of the argument arrays.

  Going back from the last boundary: the node region's output is the node specification of the region's input arrays; of
  those, the features and the weights are arguments that nothing has written, and the summed messages are the host's
  scatter-add, by receiving node, of the edge region's output; the edge region's output is the edge specification of its
  own input arrays, of which the weights are again untouched arguments, and the edge rows and squared distances are what
  the first stretch of host operations left.
-/
import proofs.«154884_j40596030882310_2_alg».proof.Proof.KernelRun
import proofs.«154884_j40596030882310_2_alg».proof.Proof.Spec
import Idealize.ShloMosaic.Lib.StableHlo.Run
import Idealize.ShloMosaic.PureOps.Ideal

set_option maxRecDepth 16384

noncomputable section

namespace Cert.KernelIdeal.Out

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## Arguments that nothing writes, read at the two regions' entries -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
theorem W3_main_arg11 (c : Dev nD) : W3 m ρ c (Proc.devRef .tc main_arg11) = m ((c : Thread nD τ).loc main_arg11) :=
  calc W3 m ρ c (Proc.devRef .tc main_arg11)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl
theorem W3_main_arg12 (c : Dev nD) : W3 m ρ c (Proc.devRef .tc main_arg12) = m ((c : Thread nD τ).loc main_arg12) :=
  calc W3 m ρ c (Proc.devRef .tc main_arg12)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl
theorem W3_main_arg13 (c : Dev nD) : W3 m ρ c (Proc.devRef .tc main_arg13) = m ((c : Thread nD τ).loc main_arg13) :=
  calc W3 m ρ c (Proc.devRef .tc main_arg13)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl
theorem W3_main_arg14 (c : Dev nD) : W3 m ρ c (Proc.devRef .tc main_arg14) = m ((c : Thread nD τ).loc main_arg14) :=
  calc W3 m ρ c (Proc.devRef .tc main_arg14)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W1_main_arg5 (c : Dev nD) : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W1_main_arg6 (c : Dev nD) : W1 m ρ c (Proc.devRef .tc main_arg6) = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W1_main_arg7 (c : Dev nD) : W1 m ρ c (Proc.devRef .tc main_arg7) = m ((c : Thread nD τ).loc main_arg7) :=
  calc W1 m ρ c (Proc.devRef .tc main_arg7)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W1_main_arg8 (c : Dev nD) : W1 m ρ c (Proc.devRef .tc main_arg8) = m ((c : Thread nD τ).loc main_arg8) :=
  calc W1 m ρ c (Proc.devRef .tc main_arg8)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-! ## The summed messages the node region reads -/

/-- After the second stretch of host operations, from any contents `Wg`: the summed-messages buffer holds the scatter-add,
    from zero, of the widened edge output by the receiving-node indices. -/
theorem mi_of (Wg : Valuation τ sig (Elt Ideal)) :
    StableHlo.after (hostOps1 (F := Ideal)) Wg (Proc.devRef .tc main_v42)
      = Host.scatterAdd (F := Ideal) scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (Wg (Proc.devRef .tc main_v3)))
          (extf .f32 (Wg (Proc.devRef .tc main_v38)) bitsLt_bf16_f32) := by
  after_results

/-- At the node region's entry the summed-messages buffer holds the host's scatter-add, from zero, of the edge region's
    output rows by the receiving-node indices the first stretch left. -/
theorem V3_mi (c : Dev nD) :
    V3 m ρ c main_v42
      = Host.scatterAdd (F := Ideal) scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (W1 m ρ c (Proc.devRef .tc main_v3)))
          (extf .f32 ((dat0 (V1 m ρ) c).arrAt 8 cfg0.N) bitsLt_bf16_f32) := by
  refine (mi_of (W2 m ρ c)).trans ?_
  rw [W2_of_ne m ρ c main_v3 (by decide),
    show W2 m ρ c (Proc.devRef .tc main_v38) = (dat0 (V1 m ρ) c).arrAt 8 cfg0.N from W2_arr m ρ c 8]

/-! ## The result -/

/-- The program's result array, given the two regions' output arrays as the edge and node specifications of their
    input arrays (for every entry contents). -/
theorem out_eq
    (hE : ∀ (V : (c : Dev nD) → (b : Ref sig .tc) → Buf (Elt Ideal) ((c : Thread nD τ).loc b)) (c : Dev nD),
      (dat0 (F := Ideal) V c).arrAt 8 cfg0.N
        = Cert.Egnn.edgeRows (a := 1600000) (V c main_v19) (V c main_v37) (V c main_arg3) (V c main_arg4) (V c main_arg5) (V c main_arg6) (V c main_arg7) (V c main_arg8))
    (hN : ∀ (V : (c : Dev nD) → (b : Ref sig .tc) → Buf (Elt Ideal) ((c : Thread nD τ).loc b)) (c : Dev nD),
      (dat1 (F := Ideal) V c).arrAt 8 cfg1.N
        = Cert.Egnn.nodeRows (a := 100000) (V c main_v42) (V c main_arg0) (V c main_arg9) (V c main_arg10) (V c main_arg11) (V c main_arg12) (V c main_arg13) (V c main_arg14))
    (c : Dev nD) :
    W4 m ρ c (Proc.devRef .tc main_v43)
      = Cert.Egnn.nodeRows (a := 100000)
          (Host.scatterAdd (F := Ideal) scatter_S100000x64_S1600000x1_S1600000x64_1_0_0_1
            (broadcastInDim S100000x64 ![] bcast_S_S100000x64 (constant (F := Ideal) S_ .f32 0x00000000#32))
            (broadcastInDim S1600000x1 ![0] bcast_S1600000_S1600000x1_0 (W1 m ρ c (Proc.devRef .tc main_v3)))
            (Cert.Egnn.edgeRows (a := 1600000) (V1 m ρ c main_v19) (V1 m ρ c main_v37)
              (m ((c : Thread nD τ).loc main_arg3)) (m ((c : Thread nD τ).loc main_arg4)) (m ((c : Thread nD τ).loc main_arg5))
              (m ((c : Thread nD τ).loc main_arg6)) (m ((c : Thread nD τ).loc main_arg7)) (m ((c : Thread nD τ).loc main_arg8))))
          (m ((c : Thread nD τ).loc main_arg0)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) := by
  refine ((W4_arr m ρ c 8).trans (hN (V3 m ρ) c)).trans ?_
  rw [V3_mi m ρ c, hE (V1 m ρ) c]
  rw [show V3 m ρ c main_arg0 = m ((c : Thread nD τ).loc main_arg0) from W3_main_arg0 m ρ c,
    show V3 m ρ c main_arg9 = m ((c : Thread nD τ).loc main_arg9) from W3_main_arg9 m ρ c,
    show V3 m ρ c main_arg10 = m ((c : Thread nD τ).loc main_arg10) from W3_main_arg10 m ρ c,
    show V3 m ρ c main_arg11 = m ((c : Thread nD τ).loc main_arg11) from W3_main_arg11 m ρ c,
    show V3 m ρ c main_arg12 = m ((c : Thread nD τ).loc main_arg12) from W3_main_arg12 m ρ c,
    show V3 m ρ c main_arg13 = m ((c : Thread nD τ).loc main_arg13) from W3_main_arg13 m ρ c,
    show V3 m ρ c main_arg14 = m ((c : Thread nD τ).loc main_arg14) from W3_main_arg14 m ρ c,
    show V1 m ρ c main_arg3 = m ((c : Thread nD τ).loc main_arg3) from W1_main_arg3 m ρ c,
    show V1 m ρ c main_arg4 = m ((c : Thread nD τ).loc main_arg4) from W1_main_arg4 m ρ c,
    show V1 m ρ c main_arg5 = m ((c : Thread nD τ).loc main_arg5) from W1_main_arg5 m ρ c,
    show V1 m ρ c main_arg6 = m ((c : Thread nD τ).loc main_arg6) from W1_main_arg6 m ρ c,
    show V1 m ρ c main_arg7 = m ((c : Thread nD τ).loc main_arg7) from W1_main_arg7 m ρ c,
    show V1 m ρ c main_arg8 = m ((c : Thread nD τ).loc main_arg8) from W1_main_arg8 m ρ c]
  rfl

end Cert.KernelIdeal.Out

end
-- ==== Proof.RefRun.lean ====
/-
  The reference program's @main as a straight line of host operations, and its run.

  @main is 151 operations once the outlined functions are unfolded at their calls (two rectifiers on the
  edge chain, one on the node chain, the variance with its masked select): each writes one buffer as a pure
  function of the buffers it reads. The line is cut in four consecutive stages:
    A  the two index rows, the four gathers, the squared distance and the joined endpoint features;
    B  the edge network: three affine maps with rectifiers, the distance gate and the attention gate;
    C  the sum of the gated messages over the edges that share a target node;
    D  the node network, the residual and the layer normalisation.
  `main_eq`: @main is that line. `run`: every weakly fair execution terminates with each buffer at the fold
  of the operations' results over the launch contents. `kept_*`: no operation writes an argument.
-/
import proofs.«154884_j40596030882310_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stage A: the source and target index rows, wrapped into range; the node features and positions gathered at both; the squared distance per edge; the two gathered feature blocks joined along the columns. -/
abbrev opsA : List (HloOp τ sig (Elt F)) :=
  [ StableHlo.unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v3 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v3 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v3 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_c_1 (constantI S_ 32 0#32),
    StableHlo.unary main_c_1 main_v11 (broadcastInDim S1600000 ![] bcast_S_S1600000 : (⟨S_, .i32⟩ : BufTy).Contents (Elt F) → (⟨S1600000, .i32⟩ : BufTy).Contents (Elt F)),
    StableHlo.binary main_v1 main_v11 main_v12 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v13 (broadcastInDim S1600000 ![] bcast_S_S1600000 : (⟨S_, .i32⟩ : BufTy).Contents (Elt F) → (⟨S1600000, .i32⟩ : BufTy).Contents (Elt F)),
    StableHlo.binary main_v1 main_v13 main_v14 (addi : (⟨S1600000, .i32⟩ : BufTy).Contents (Elt F) → (⟨S1600000, .i32⟩ : BufTy).Contents (Elt F) → (⟨S1600000, .i32⟩ : BufTy).Contents (Elt F)),
    StableHlo.ternary main_v12 main_v14 main_v1 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v15 main_v16 (broadcastInDim S1600000x1 ![0] bcast_S1600000_S1600000x1_0 : (⟨S1600000, .i32⟩ : BufTy).Contents (Elt F) → (⟨S1600000x1, .i32⟩ : BufTy).Contents (Elt F)),
    StableHlo.binary main_arg0 main_v16 main_v17 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_c_3 (constantI S_ 32 0#32),
    StableHlo.unary main_c_3 main_v18 (broadcastInDim S1600000 ![] bcast_S_S1600000 : (⟨S_, .i32⟩ : BufTy).Contents (Elt F) → (⟨S1600000, .i32⟩ : BufTy).Contents (Elt F)),
    StableHlo.binary main_v3 main_v18 main_v19 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v20 (broadcastInDim S1600000 ![] bcast_S_S1600000 : (⟨S_, .i32⟩ : BufTy).Contents (Elt F) → (⟨S1600000, .i32⟩ : BufTy).Contents (Elt F)),
    StableHlo.binary main_v3 main_v20 main_v21 (addi : (⟨S1600000, .i32⟩ : BufTy).Contents (Elt F) → (⟨S1600000, .i32⟩ : BufTy).Contents (Elt F) → (⟨S1600000, .i32⟩ : BufTy).Contents (Elt F)),
    StableHlo.ternary main_v19 main_v21 main_v3 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v22 main_v23 (broadcastInDim S1600000x1 ![0] bcast_S1600000_S1600000x1_0 : (⟨S1600000, .i32⟩ : BufTy).Contents (Elt F) → (⟨S1600000x1, .i32⟩ : BufTy).Contents (Elt F)),
    StableHlo.binary main_arg1 main_v23 main_v24 ((fun x i => Host.gather gather_S100000x3_S1600000x1_S1600000x3_1_0_n_n_0_1_13 x i) : (⟨S100000x3, .f32⟩ : BufTy).Contents (Elt F) → (⟨S1600000x1, .i32⟩ : BufTy).Contents (Elt F) → (⟨S1600000x3, .f32⟩ : BufTy).Contents (Elt F)),
    StableHlo.nullary main_c_5 (constantI S_ 32 0#32),
    StableHlo.unary main_c_5 main_v25 (broadcastInDim S1600000 ![] bcast_S_S1600000 : (⟨S_, .i32⟩ : BufTy).Contents (Elt F) → (⟨S1600000, .i32⟩ : BufTy).Contents (Elt F)),
    StableHlo.binary main_v1 main_v25 main_v26 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v27 (broadcastInDim S1600000 ![] bcast_S_S1600000 : (⟨S_, .i32⟩ : BufTy).Contents (Elt F) → (⟨S1600000, .i32⟩ : BufTy).Contents (Elt F)),
    StableHlo.binary main_v1 main_v27 main_v28 (addi : (⟨S1600000, .i32⟩ : BufTy).Contents (Elt F) → (⟨S1600000, .i32⟩ : BufTy).Contents (Elt F) → (⟨S1600000, .i32⟩ : BufTy).Contents (Elt F)),
    StableHlo.ternary main_v26 main_v28 main_v1 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v29 main_v30 (broadcastInDim S1600000x1 ![0] bcast_S1600000_S1600000x1_0 : (⟨S1600000, .i32⟩ : BufTy).Contents (Elt F) → (⟨S1600000x1, .i32⟩ : BufTy).Contents (Elt F)),
    StableHlo.binary main_arg1 main_v30 main_v31 ((fun x i => Host.gather gather_S100000x3_S1600000x1_S1600000x3_1_0_n_n_0_1_13 x i) : (⟨S100000x3, .f32⟩ : BufTy).Contents (Elt F) → (⟨S1600000x1, .i32⟩ : BufTy).Contents (Elt F) → (⟨S1600000x3, .f32⟩ : BufTy).Contents (Elt F)),
    StableHlo.binary main_v24 main_v31 main_v32 (subf : (⟨S1600000x3, .f32⟩ : BufTy).Contents (Elt F) → (⟨S1600000x3, .f32⟩ : BufTy).Contents (Elt F) → (⟨S1600000x3, .f32⟩ : BufTy).Contents (Elt F)),
    StableHlo.binary main_v32 main_v32 main_v33 (mulf : (⟨S1600000x3, .f32⟩ : BufTy).Contents (Elt F) → (⟨S1600000x3, .f32⟩ : BufTy).Contents (Elt F) → (⟨S1600000x3, .f32⟩ : BufTy).Contents (Elt F)),
    StableHlo.nullary main_cst (constant S_ .f32 0x00000000#32),
    StableHlo.binary main_v33 main_cst main_v34 ((fun x v => Host.reduceAdd x v reducesTo_S1600000x3_S1600000_d1 h_S_) : (⟨S1600000x3, .f32⟩ : BufTy).Contents (Elt F) → (⟨S_, .f32⟩ : BufTy).Contents (Elt F) → (⟨S1600000, .f32⟩ : BufTy).Contents (Elt F)),
    StableHlo.unary main_v34 main_v35 (broadcastInDim S1600000x1 ![0] bcast_S1600000_S1600000x1_0 : (⟨S1600000, .f32⟩ : BufTy).Contents (Elt F) → (⟨S1600000x1, .f32⟩ : BufTy).Contents (Elt F)),
    StableHlo.binary main_v10 main_v17 main_v36 ((fun a b => concatenate S1600000x128 1 [⟨S1600000x64, a⟩, ⟨S1600000x64, b⟩] concatenates_S1600000x64_S1600000x64_S1600000x128_d1) : (⟨S1600000x64, .f32⟩ : BufTy).Contents (Elt F) → (⟨S1600000x64, .f32⟩ : BufTy).Contents (Elt F) → (⟨S1600000x128, .f32⟩ : BufTy).Contents (Elt F)) ]

/-- Stage B: the edge network on the joined features — affine, rectifier, affine, rectifier —, the scalar attention logit, the distance gate `1 / (1 + exp (-(30 / (sqrt d² + ε))))`, the logistic of their product, and the message scaled by it. -/
abbrev opsB : List (HloOp τ sig (Elt F)) :=
  [ StableHlo.binary main_v36 main_arg3 main_v37 ((fun l r => Host.dotGeneral dot_S1600000x128_S128x64_S1600000x64_1_0_0_1_n_n none l r) : (⟨S1600000x128, .f32⟩ : BufTy).Contents (Elt F) → (⟨S128x64, .f32⟩ : BufTy).Contents (Elt F) → (⟨S1600000x64, .f32⟩ : BufTy).Contents (Elt F)),
    StableHlo.unary main_arg4 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S1600000x64 ![0, 1] bcast_S1x64_S1600000x64_0_1 : (⟨S1x64, .f32⟩ : BufTy).Contents (Elt F) → (⟨S1600000x64, .f32⟩ : BufTy).Contents (Elt F)),
    StableHlo.binary main_v37 main_v39 main_v40 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call0.cst (constant S_ .f32 0x00000000#32),
    StableHlo.TRef.unary main_call0.cst main_call0.v0 (broadcastInDim S1600000x64 ![] bcast_S_S1600000x64),
    StableHlo.TRef.binary (.of main_v40 : StableHlo.TRef sig ⟨S1600000x64, .f32⟩) main_call0.v0 main_call0.v1 maximumf,
    StableHlo.binary main_v41 main_arg5 main_v42 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg6 main_v43 (broadcastInDim S1x64 ![1] bcast_S64_S1x64_1 : (⟨S64, .f32⟩ : BufTy).Contents (Elt F) → (⟨S1x64, .f32⟩ : BufTy).Contents (Elt F)),
    StableHlo.unary main_v43 main_v44 (broadcastInDim S1600000x64 ![0, 1] bcast_S1x64_S1600000x64_0_1 : (⟨S1x64, .f32⟩ : BufTy).Contents (Elt F) → (⟨S1600000x64, .f32⟩ : BufTy).Contents (Elt F)),
    StableHlo.binary main_v42 main_v44 main_v45 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call1.cst (constant S_ .f32 0x00000000#32),
    StableHlo.TRef.unary main_call1.cst main_call1.v0 (broadcastInDim S1600000x64 ![] bcast_S_S1600000x64),
    StableHlo.TRef.binary (.of main_v45 : StableHlo.TRef sig ⟨S1600000x64, .f32⟩) main_call1.v0 main_call1.v1 maximumf,
    StableHlo.binary main_v46 main_arg7 main_v47 ((fun l r => Host.dotGeneral dot_S1600000x64_S64x1_S1600000x1_1_0_0_1_n_n none l r) : (⟨S1600000x64, .f32⟩ : BufTy).Contents (Elt F) → (⟨S64x1, .f32⟩ : BufTy).Contents (Elt F) → (⟨S1600000x1, .f32⟩ : BufTy).Contents (Elt F)),
    StableHlo.unary main_arg8 main_v48 (broadcastInDim S1x1 ![1] bcast_S1_S1x1_1 : (⟨S1, .f32⟩ : BufTy).Contents (Elt F) → (⟨S1x1, .f32⟩ : BufTy).Contents (Elt F)),
    StableHlo.unary main_v48 main_v49 (broadcastInDim S1600000x1 ![0, 1] bcast_S1x1_S1600000x1_0_1 : (⟨S1x1, .f32⟩ : BufTy).Contents (Elt F) → (⟨S1600000x1, .f32⟩ : BufTy).Contents (Elt F)),
    StableHlo.binary main_v47 main_v49 main_v50 (addf : (⟨S1600000x1, .f32⟩ : BufTy).Contents (Elt F) → (⟨S1600000x1, .f32⟩ : BufTy).Contents (Elt F) → (⟨S1600000x1, .f32⟩ : BufTy).Contents (Elt F)),
    StableHlo.unary main_v35 main_v51 (Host.sqrt : (⟨S1600000x1, .f32⟩ : BufTy).Contents (Elt F) → (⟨S1600000x1, .f32⟩ : BufTy).Contents (Elt F)),
    StableHlo.nullary main_cst_7 (constant S_ .f32 0x322BCC77#32),
    StableHlo.unary main_cst_7 main_v52 (broadcastInDim S1600000x1 ![] bcast_S_S1600000x1 : (⟨S_, .f32⟩ : BufTy).Contents (Elt F) → (⟨S1600000x1, .f32⟩ : BufTy).Contents (Elt F)),
    StableHlo.binary main_v51 main_v52 main_v53 (addf : (⟨S1600000x1, .f32⟩ : BufTy).Contents (Elt F) → (⟨S1600000x1, .f32⟩ : BufTy).Contents (Elt F) → (⟨S1600000x1, .f32⟩ : BufTy).Contents (Elt F)),
    StableHlo.nullary main_cst_8 (constant S_ .f32 0x41F00000#32),
    StableHlo.unary main_cst_8 main_v54 (broadcastInDim S1600000x1 ![] bcast_S_S1600000x1 : (⟨S_, .f32⟩ : BufTy).Contents (Elt F) → (⟨S1600000x1, .f32⟩ : BufTy).Contents (Elt F)),
    StableHlo.binary main_v54 main_v53 main_v55 (Host.divf : (⟨S1600000x1, .f32⟩ : BufTy).Contents (Elt F) → (⟨S1600000x1, .f32⟩ : BufTy).Contents (Elt F) → (⟨S1600000x1, .f32⟩ : BufTy).Contents (Elt F)),
    StableHlo.unary main_v55 main_v56 (Host.negf : (⟨S1600000x1, .f32⟩ : BufTy).Contents (Elt F) → (⟨S1600000x1, .f32⟩ : BufTy).Contents (Elt F)),
    StableHlo.unary main_v56 main_v57 (Host.exp : (⟨S1600000x1, .f32⟩ : BufTy).Contents (Elt F) → (⟨S1600000x1, .f32⟩ : BufTy).Contents (Elt F)),
    StableHlo.nullary main_cst_9 (constant S_ .f32 0x3F800000#32),
    StableHlo.unary main_cst_9 main_v58 (broadcastInDim S1600000x1 ![] bcast_S_S1600000x1 : (⟨S_, .f32⟩ : BufTy).Contents (Elt F) → (⟨S1600000x1, .f32⟩ : BufTy).Contents (Elt F)),
    StableHlo.binary main_v58 main_v57 main_v59 (addf : (⟨S1600000x1, .f32⟩ : BufTy).Contents (Elt F) → (⟨S1600000x1, .f32⟩ : BufTy).Contents (Elt F) → (⟨S1600000x1, .f32⟩ : BufTy).Contents (Elt F)),
    StableHlo.nullary main_cst_10 (constant S_ .f32 0x3F800000#32),
    StableHlo.unary main_cst_10 main_v60 (broadcastInDim S1600000x1 ![] bcast_S_S1600000x1 : (⟨S_, .f32⟩ : BufTy).Contents (Elt F) → (⟨S1600000x1, .f32⟩ : BufTy).Contents (Elt F)),
    StableHlo.binary main_v60 main_v59 main_v61 (Host.divf : (⟨S1600000x1, .f32⟩ : BufTy).Contents (Elt F) → (⟨S1600000x1, .f32⟩ : BufTy).Contents (Elt F) → (⟨S1600000x1, .f32⟩ : BufTy).Contents (Elt F)),
    StableHlo.binary main_v50 main_v61 main_v62 (mulf : (⟨S1600000x1, .f32⟩ : BufTy).Contents (Elt F) → (⟨S1600000x1, .f32⟩ : BufTy).Contents (Elt F) → (⟨S1600000x1, .f32⟩ : BufTy).Contents (Elt F)),
    StableHlo.unary main_v62 main_v63 (Host.negf : (⟨S1600000x1, .f32⟩ : BufTy).Contents (Elt F) → (⟨S1600000x1, .f32⟩ : BufTy).Contents (Elt F)),
    StableHlo.unary main_v63 main_v64 (Host.exp : (⟨S1600000x1, .f32⟩ : BufTy).Contents (Elt F) → (⟨S1600000x1, .f32⟩ : BufTy).Contents (Elt F)),
    StableHlo.nullary main_cst_11 (constant S_ .f32 0x3F800000#32),
    StableHlo.unary main_cst_11 main_v65 (broadcastInDim S1600000x1 ![] bcast_S_S1600000x1 : (⟨S_, .f32⟩ : BufTy).Contents (Elt F) → (⟨S1600000x1, .f32⟩ : BufTy).Contents (Elt F)),
    StableHlo.binary main_v65 main_v64 main_v66 (addf : (⟨S1600000x1, .f32⟩ : BufTy).Contents (Elt F) → (⟨S1600000x1, .f32⟩ : BufTy).Contents (Elt F) → (⟨S1600000x1, .f32⟩ : BufTy).Contents (Elt F)),
    StableHlo.nullary main_cst_12 (constant S_ .f32 0x3F800000#32),
    StableHlo.unary main_cst_12 main_v67 (broadcastInDim S1600000x1 ![] bcast_S_S1600000x1 : (⟨S_, .f32⟩ : BufTy).Contents (Elt F) → (⟨S1600000x1, .f32⟩ : BufTy).Contents (Elt F)),
    StableHlo.binary main_v67 main_v66 main_v68 (Host.divf : (⟨S1600000x1, .f32⟩ : BufTy).Contents (Elt F) → (⟨S1600000x1, .f32⟩ : BufTy).Contents (Elt F) → (⟨S1600000x1, .f32⟩ : BufTy).Contents (Elt F)),
    StableHlo.unary main_v68 main_v69 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v46 main_v69 main_v70 (mulf : (⟨S1600000x64, .f32⟩ : BufTy).Contents (Elt F) → (⟨S1600000x64, .f32⟩ : BufTy).Contents (Elt F) → (⟨S1600000x64, .f32⟩ : BufTy).Contents (Elt F)) ]

/-- Stage C: a zero table of node rows, the target index as a column, and the sum of the messages into the rows their targets name. -/
abbrev opsC : List (HloOp τ sig (Elt F)) :=
  [ StableHlo.nullary main_cst_13 (constant S_ .f32 0x00000000#32),
    StableHlo.unary main_cst_13 main_v71 (broadcastInDim S100000x64 ![] bcast_S_S100000x64 : (⟨S_, .f32⟩ : BufTy).Contents (Elt F) → (⟨S100000x64, .f32⟩ : BufTy).Contents (Elt F)),
    StableHlo.unary main_v3 main_v72 (broadcastInDim S1600000x1 ![0] bcast_S1600000_S1600000x1_0 : (⟨S1600000, .i32⟩ : BufTy).Contents (Elt F) → (⟨S1600000x1, .i32⟩ : BufTy).Contents (Elt F)),
    StableHlo.ternary main_v71 main_v72 main_v70 main_v73 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- Stage D: the aggregate joined with the node features, the node network, the residual sum, its row mean and row variance (the variance's divisor `64 - 0`, positive, so the masked select keeps the quotient), and the normalised rows scaled and shifted. -/
abbrev opsD : List (HloOp τ sig (Elt F)) :=
  [ StableHlo.binary main_v73 main_arg0 main_v74 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v74 main_arg9 main_v75 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg10 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S100000x64 ![0, 1] bcast_S1x64_S100000x64_0_1 : (⟨S1x64, .f32⟩ : BufTy).Contents (Elt F) → (⟨S100000x64, .f32⟩ : BufTy).Contents (Elt F)),
    StableHlo.binary main_v75 main_v77 main_v78 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v78 : StableHlo.TRef sig ⟨S100000x64, .f32⟩) main_call2.v0 main_call2.v1 maximumf,
    StableHlo.binary main_v79 main_arg11 main_v80 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg12 main_v81 (broadcastInDim S1x64 ![1] bcast_S64_S1x64_1 : (⟨S64, .f32⟩ : BufTy).Contents (Elt F) → (⟨S1x64, .f32⟩ : BufTy).Contents (Elt F)),
    StableHlo.unary main_v81 main_v82 (broadcastInDim S100000x64 ![0, 1] bcast_S1x64_S100000x64_0_1 : (⟨S1x64, .f32⟩ : BufTy).Contents (Elt F) → (⟨S100000x64, .f32⟩ : BufTy).Contents (Elt F)),
    StableHlo.binary main_v80 main_v82 main_v83 (addf : (⟨S100000x64, .f32⟩ : BufTy).Contents (Elt F) → (⟨S100000x64, .f32⟩ : BufTy).Contents (Elt F) → (⟨S100000x64, .f32⟩ : BufTy).Contents (Elt F)),
    StableHlo.binary main_arg0 main_v83 main_v84 (addf : (⟨S100000x64, .f32⟩ : BufTy).Contents (Elt F) → (⟨S100000x64, .f32⟩ : BufTy).Contents (Elt F) → (⟨S100000x64, .f32⟩ : BufTy).Contents (Elt F)),
    StableHlo.nullary main_cst_14 (constant S_ .f32 0x00000000#32),
    StableHlo.binary main_v84 main_cst_14 main_v85 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v85 main_v86 (broadcastInDim S100000x1 ![0] bcast_S100000_S100000x1_0 : (⟨S100000, .f32⟩ : BufTy).Contents (Elt F) → (⟨S100000x1, .f32⟩ : BufTy).Contents (Elt F)),
    StableHlo.nullary main_cst_15 (constant S_ .f32 0x42800000#32),
    StableHlo.unary main_cst_15 main_v87 (broadcastInDim S100000x1 ![] bcast_S_S100000x1 : (⟨S_, .f32⟩ : BufTy).Contents (Elt F) → (⟨S100000x1, .f32⟩ : BufTy).Contents (Elt F)),
    StableHlo.binary main_v86 main_v87 main_v88 (Host.divf : (⟨S100000x1, .f32⟩ : BufTy).Contents (Elt F) → (⟨S100000x1, .f32⟩ : BufTy).Contents (Elt F) → (⟨S100000x1, .f32⟩ : BufTy).Contents (Elt F)),
    StableHlo.nullary main_c_16 (constantI S_ 32 0#32),
    StableHlo.TRef.nullary main_call3.cst (constant S_ .f32 0x00000000#32),
    StableHlo.TRef.binary (.of main_v84 : StableHlo.TRef sig ⟨S100000x64, .f32⟩) main_call3.cst main_call3.v0 (fun x v => Host.reduceAdd x v reducesTo_S100000x64_S100000_d1 h_S_),
    StableHlo.TRef.unary main_call3.v0 main_call3.v1 (broadcastInDim S100000x1 ![0] bcast_S100000_S100000x1_0),
    StableHlo.TRef.nullary main_call3.cst_0 (constant S_ .f32 0x42800000#32),
    StableHlo.TRef.unary main_call3.cst_0 main_call3.v2 (broadcastInDim S100000x1 ![] bcast_S_S100000x1),
    StableHlo.TRef.binary main_call3.v1 main_call3.v2 main_call3.v3 Host.divf,
    StableHlo.TRef.unary main_call3.v3 main_call3.v4 (broadcastInDim S100000x64 ![0, 1] bcast_S100000x1_S100000x64_0_1),
    StableHlo.TRef.binary (.of main_v84 : StableHlo.TRef sig ⟨S100000x64, .f32⟩) main_call3.v4 main_call3.v5 subf,
    StableHlo.TRef.binary main_call3.v5 main_call3.v5 main_call3.v6 mulf,
    StableHlo.TRef.unary (.of main_c_16 : StableHlo.TRef sig ⟨S_, .i32⟩) main_call3.v7 (sitofp .f32),
    StableHlo.TRef.nullary main_call3.cst_1 (constant S_ .f32 0x42800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S100000_d1 h_S_),
    StableHlo.TRef.unary main_call3.v9 main_call3.v10 (broadcastInDim S100000x1 ![0] bcast_S100000_S100000x1_0),
    StableHlo.TRef.unary main_call3.v8 main_call3.v11 (broadcastInDim S100000x1 ![] bcast_S_S100000x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S100000x1 ![] bcast_S_S100000x1),
    StableHlo.TRef.ternary main_call3.v13 main_call3.v12 main_call3.call0.v1 main_call3.call0.v2 (fun p a b => select (broadcastInDim S100000x1 ![] bcast_S_S100000x1 p) a b),
    StableHlo.unary main_v88 main_v90 (broadcastInDim S100000x64 ![0, 1] bcast_S100000x1_S100000x64_0_1 : (⟨S100000x1, .f32⟩ : BufTy).Contents (Elt F) → (⟨S100000x64, .f32⟩ : BufTy).Contents (Elt F)),
    StableHlo.binary main_v84 main_v90 main_v91 (subf : (⟨S100000x64, .f32⟩ : BufTy).Contents (Elt F) → (⟨S100000x64, .f32⟩ : BufTy).Contents (Elt F) → (⟨S100000x64, .f32⟩ : BufTy).Contents (Elt F)),
    StableHlo.nullary main_cst_17 (constant S_ .f32 0x3727C5AC#32),
    StableHlo.unary main_cst_17 main_v92 (broadcastInDim S100000x1 ![] bcast_S_S100000x1 : (⟨S_, .f32⟩ : BufTy).Contents (Elt F) → (⟨S100000x1, .f32⟩ : BufTy).Contents (Elt F)),
    StableHlo.binary main_v89 main_v92 main_v93 (addf : (⟨S100000x1, .f32⟩ : BufTy).Contents (Elt F) → (⟨S100000x1, .f32⟩ : BufTy).Contents (Elt F) → (⟨S100000x1, .f32⟩ : BufTy).Contents (Elt F)),
    StableHlo.unary main_v93 main_v94 (Host.rsqrt : (⟨S100000x1, .f32⟩ : BufTy).Contents (Elt F) → (⟨S100000x1, .f32⟩ : BufTy).Contents (Elt F)),
    StableHlo.unary main_v94 main_v95 (broadcastInDim S100000x64 ![0, 1] bcast_S100000x1_S100000x64_0_1 : (⟨S100000x1, .f32⟩ : BufTy).Contents (Elt F) → (⟨S100000x64, .f32⟩ : BufTy).Contents (Elt F)),
    StableHlo.binary main_v91 main_v95 main_v96 (mulf : (⟨S100000x64, .f32⟩ : BufTy).Contents (Elt F) → (⟨S100000x64, .f32⟩ : BufTy).Contents (Elt F) → (⟨S100000x64, .f32⟩ : BufTy).Contents (Elt F)),
    StableHlo.unary main_arg13 main_v97 (broadcastInDim S1x64 ![1] bcast_S64_S1x64_1 : (⟨S64, .f32⟩ : BufTy).Contents (Elt F) → (⟨S1x64, .f32⟩ : BufTy).Contents (Elt F)),
    StableHlo.unary main_v97 main_v98 (broadcastInDim S100000x64 ![0, 1] bcast_S1x64_S100000x64_0_1 : (⟨S1x64, .f32⟩ : BufTy).Contents (Elt F) → (⟨S100000x64, .f32⟩ : BufTy).Contents (Elt F)),
    StableHlo.binary main_v96 main_v98 main_v99 (mulf : (⟨S100000x64, .f32⟩ : BufTy).Contents (Elt F) → (⟨S100000x64, .f32⟩ : BufTy).Contents (Elt F) → (⟨S100000x64, .f32⟩ : BufTy).Contents (Elt F)),
    StableHlo.unary main_arg14 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S100000x64 ![0, 1] bcast_S1x64_S100000x64_0_1 : (⟨S1x64, .f32⟩ : BufTy).Contents (Elt F) → (⟨S100000x64, .f32⟩ : BufTy).Contents (Elt F)),
    StableHlo.binary main_v99 main_v101 main_v102 (addf : (⟨S100000x64, .f32⟩ : BufTy).Contents (Elt F) → (⟨S100000x64, .f32⟩ : BufTy).Contents (Elt F) → (⟨S100000x64, .f32⟩ : BufTy).Contents (Elt F)) ]

/-- The whole line: the four stages in order. -/
abbrev ops : List (HloOp τ sig (Elt F)) := opsA ++ opsB ++ opsC ++ opsD

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., binary_bufs_sub ..⟩

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsB_sub : (opsB : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩

theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsC_sub : (opsC : List (HloOp τ sig (Elt F))).Forall fun op => op.bufs ⊆ tcRefs τ sig :=
  ⟨nullary_bufs_sub .., unary_bufs_sub .., unary_bufs_sub .., ternary_bufs_sub ..⟩

theorem opsC_fresh : (opsC : List (HloOp τ sig (Elt F))).Forall fun op => op.fresh = ∅ :=
  ⟨rfl, rfl, rfl, rfl⟩

theorem opsD_sub : (opsD : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation touches TensorCore references only. -/
theorem ops_sub : (ops : List (HloOp τ sig (Elt F))).Forall fun op => op.bufs ⊆ tcRefs τ sig :=
  List.forall_append.mpr ⟨List.forall_append.mpr ⟨List.forall_append.mpr ⟨opsA_sub, opsB_sub⟩, opsC_sub⟩, opsD_sub⟩

/-- Every operation determines its result. -/
theorem ops_fresh : ∀ op ∈ (ops : List (HloOp τ sig (Elt F))), op.fresh = ∅ :=
  List.forall_iff_forall_mem.mp
    (List.forall_append.mpr ⟨List.forall_append.mpr ⟨List.forall_append.mpr ⟨opsA_fresh, opsB_fresh⟩, opsC_fresh⟩, opsD_fresh⟩)

-- one hundred and fifty-one binds re-associated: the rewrite under the chain recurses once per statement
set_option maxRecDepth 8192 in
set_option maxHeartbeats 4000000 in
/-- @main is that straight line: the windows and the functions unfolded at their calls, both sides are one chain of
    steps once sequencing is re-associated. -/
theorem main_eq (c : Dev nD) : main (F := F) c = seq ops := by
  simp only [main, main_part0, main_part1, main_part2, fn_relu.body, fn_relu_0.body, fn_var.body, fn_where.body,
    ops, opsA, opsB, opsC, opsD, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates with each TensorCore buffer at the fold of the operations' results over the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ (fun _ => ops_fresh)

/-- A buffer none of a literal line's operations writes holds, after the line, what it held before: each operation writes its one
    result buffer, and the buffer asked about is a different reference from every one of them. -/
macro "not_written" : tactic =>
  `(tactic| (refine after_of_forall_not_mem _ _ (List.forall_iff_forall_mem.mp ?_)
             simp only [ops, opsA, opsB, opsC, opsD, List.cons_append, List.nil_append, List.Forall, nullary_writes, unary_writes,
               binary_writes, ternary_writes, reshape_writes, Finset.mem_singleton]
             repeat' apply And.intro
             all_goals exact devRef_ne_of_ne (by decide)))

/-! No operation writes an argument: after the whole line each argument's buffer is as it was. -/
theorem kept_arg0 (W : Valuation τ sig (Elt F)) :
    after ops W (Proc.devRef .tc main_arg0) = W (Proc.devRef .tc main_arg0) := by not_written
theorem kept_arg1 (W : Valuation τ sig (Elt F)) :
    after ops W (Proc.devRef .tc main_arg1) = W (Proc.devRef .tc main_arg1) := by not_written
theorem kept_arg2 (W : Valuation τ sig (Elt F)) :
    after ops W (Proc.devRef .tc main_arg2) = W (Proc.devRef .tc main_arg2) := by not_written
theorem kept_arg3 (W : Valuation τ sig (Elt F)) :
    after ops W (Proc.devRef .tc main_arg3) = W (Proc.devRef .tc main_arg3) := by not_written
theorem kept_arg4 (W : Valuation τ sig (Elt F)) :
    after ops W (Proc.devRef .tc main_arg4) = W (Proc.devRef .tc main_arg4) := by not_written
theorem kept_arg5 (W : Valuation τ sig (Elt F)) :
    after ops W (Proc.devRef .tc main_arg5) = W (Proc.devRef .tc main_arg5) := by not_written
theorem kept_arg6 (W : Valuation τ sig (Elt F)) :
    after ops W (Proc.devRef .tc main_arg6) = W (Proc.devRef .tc main_arg6) := by not_written
theorem kept_arg7 (W : Valuation τ sig (Elt F)) :
    after ops W (Proc.devRef .tc main_arg7) = W (Proc.devRef .tc main_arg7) := by not_written
theorem kept_arg8 (W : Valuation τ sig (Elt F)) :
    after ops W (Proc.devRef .tc main_arg8) = W (Proc.devRef .tc main_arg8) := by not_written
theorem kept_arg9 (W : Valuation τ sig (Elt F)) :
    after ops W (Proc.devRef .tc main_arg9) = W (Proc.devRef .tc main_arg9) := by not_written
theorem kept_arg10 (W : Valuation τ sig (Elt F)) :
    after ops W (Proc.devRef .tc main_arg10) = W (Proc.devRef .tc main_arg10) := by not_written
theorem kept_arg11 (W : Valuation τ sig (Elt F)) :
    after ops W (Proc.devRef .tc main_arg11) = W (Proc.devRef .tc main_arg11) := by not_written
theorem kept_arg12 (W : Valuation τ sig (Elt F)) :
    after ops W (Proc.devRef .tc main_arg12) = W (Proc.devRef .tc main_arg12) := by not_written
theorem kept_arg13 (W : Valuation τ sig (Elt F)) :
    after ops W (Proc.devRef .tc main_arg13) = W (Proc.devRef .tc main_arg13) := by not_written
theorem kept_arg14 (W : Valuation τ sig (Elt F)) :
    after ops W (Proc.devRef .tc main_arg14) = W (Proc.devRef .tc main_arg14) := by not_written

end Cert.ReferenceIdeal.RefRun

end
-- ==== Proof.RefTerms.lean ====
/-
  The reference program's two chains of operations, each as one term of its inputs.

  The edge chain is the value the program computes for its statement %70 from the joined rows %36, the squared
  distances %35 and the six edge parameters; the node chain is the value of %102 from the summed messages %73, the
  node features and the six node parameters.  Every line applies the operation the program's statement applies, to
  the values of the lines before it, in the program's order; a called function's statements stand where the call
  stands.
-/
import Idealize.ShloMosaic.PureOps.Ideal
import proofs.«154884_j40596030882310_2_alg».proof.Proof.Gen.ReferenceIdeal

noncomputable section

namespace Cert.ReferenceIdeal.Terms

open Idealize.ShloMosaic Idealize.SL.Sem
open Cert.ReferenceIdeal Cert.ReferenceIdeal.Gen

/-- The weighted messages, statement by statement (%37 … %70). -/
noncomputable def edgeChain (e : FVec Ideal S1600000x128 .f32) (d : FVec Ideal S1600000x1 .f32)
    (a3 : FVec Ideal S128x64 .f32) (a4 : FVec Ideal S64 .f32) (a5 : FVec Ideal S64x64 .f32) (a6 : FVec Ideal S64 .f32)
    (a7 : FVec Ideal S64x1 .f32) (a8 : FVec Ideal S1 .f32) : FVec Ideal S1600000x64 .f32 :=
  have v37 : FVec Ideal S1600000x64 .f32 := Host.dotGeneral (F := Ideal) dot_S1600000x128_S128x64_S1600000x64_1_0_0_1_n_n none e a3
  have v38 : FVec Ideal S1x64 .f32 := broadcastInDim S1x64 ![1] bcast_S64_S1x64_1 a4
  have v39 : FVec Ideal S1600000x64 .f32 := broadcastInDim S1600000x64 ![0, 1] bcast_S1x64_S1600000x64_0_1 v38
  have v40 : FVec Ideal S1600000x64 .f32 := addf v37 v39
  have c0_cst : FVec Ideal S_ .f32 := constant (F := Ideal) S_ .f32 0x00000000#32
  have c0_v0 : FVec Ideal S1600000x64 .f32 := broadcastInDim S1600000x64 ![] bcast_S_S1600000x64 c0_cst
  have v41 : FVec Ideal S1600000x64 .f32 := maximumf v40 c0_v0
  have v42 : FVec Ideal S1600000x64 .f32 := Host.dotGeneral (F := Ideal) dot_S1600000x64_S64x64_S1600000x64_1_0_0_1_n_n none v41 a5
  have v43 : FVec Ideal S1x64 .f32 := broadcastInDim S1x64 ![1] bcast_S64_S1x64_1 a6
  have v44 : FVec Ideal S1600000x64 .f32 := broadcastInDim S1600000x64 ![0, 1] bcast_S1x64_S1600000x64_0_1 v43
  have v45 : FVec Ideal S1600000x64 .f32 := addf v42 v44
  have c1_cst : FVec Ideal S_ .f32 := constant (F := Ideal) S_ .f32 0x00000000#32
  have c1_v0 : FVec Ideal S1600000x64 .f32 := broadcastInDim S1600000x64 ![] bcast_S_S1600000x64 c1_cst
  have v46 : FVec Ideal S1600000x64 .f32 := maximumf v45 c1_v0
  have v47 : FVec Ideal S1600000x1 .f32 := Host.dotGeneral (F := Ideal) dot_S1600000x64_S64x1_S1600000x1_1_0_0_1_n_n none v46 a7
  have v48 : FVec Ideal S1x1 .f32 := broadcastInDim S1x1 ![1] bcast_S1_S1x1_1 a8
  have v49 : FVec Ideal S1600000x1 .f32 := broadcastInDim S1600000x1 ![0, 1] bcast_S1x1_S1600000x1_0_1 v48
  have v50 : FVec Ideal S1600000x1 .f32 := addf v47 v49
  have v51 : FVec Ideal S1600000x1 .f32 := Host.sqrt (F := Ideal) d
  have cst_7 : FVec Ideal S_ .f32 := constant (F := Ideal) S_ .f32 0x322BCC77#32
  have v52 : FVec Ideal S1600000x1 .f32 := broadcastInDim S1600000x1 ![] bcast_S_S1600000x1 cst_7
  have v53 : FVec Ideal S1600000x1 .f32 := addf v51 v52
  have cst_8 : FVec Ideal S_ .f32 := constant (F := Ideal) S_ .f32 0x41F00000#32
  have v54 : FVec Ideal S1600000x1 .f32 := broadcastInDim S1600000x1 ![] bcast_S_S1600000x1 cst_8
  have v55 : FVec Ideal S1600000x1 .f32 := Host.divf (F := Ideal) v54 v53
  have v56 : FVec Ideal S1600000x1 .f32 := Host.negf (F := Ideal) v55
  have v57 : FVec Ideal S1600000x1 .f32 := Host.exp (F := Ideal) v56
  have cst_9 : FVec Ideal S_ .f32 := constant (F := Ideal) S_ .f32 0x3F800000#32
  have v58 : FVec Ideal S1600000x1 .f32 := broadcastInDim S1600000x1 ![] bcast_S_S1600000x1 cst_9
  have v59 : FVec Ideal S1600000x1 .f32 := addf v58 v57
  have cst_10 : FVec Ideal S_ .f32 := constant (F := Ideal) S_ .f32 0x3F800000#32
  have v60 : FVec Ideal S1600000x1 .f32 := broadcastInDim S1600000x1 ![] bcast_S_S1600000x1 cst_10
  have v61 : FVec Ideal S1600000x1 .f32 := Host.divf (F := Ideal) v60 v59
  have v62 : FVec Ideal S1600000x1 .f32 := mulf v50 v61
  have v63 : FVec Ideal S1600000x1 .f32 := Host.negf (F := Ideal) v62
  have v64 : FVec Ideal S1600000x1 .f32 := Host.exp (F := Ideal) v63
  have cst_11 : FVec Ideal S_ .f32 := constant (F := Ideal) S_ .f32 0x3F800000#32
  have v65 : FVec Ideal S1600000x1 .f32 := broadcastInDim S1600000x1 ![] bcast_S_S1600000x1 cst_11
  have v66 : FVec Ideal S1600000x1 .f32 := addf v65 v64
  have cst_12 : FVec Ideal S_ .f32 := constant (F := Ideal) S_ .f32 0x3F800000#32
  have v67 : FVec Ideal S1600000x1 .f32 := broadcastInDim S1600000x1 ![] bcast_S_S1600000x1 cst_12
  have v68 : FVec Ideal S1600000x1 .f32 := Host.divf (F := Ideal) v67 v66
  have v69 : FVec Ideal S1600000x64 .f32 := broadcastInDim S1600000x64 ![0, 1] bcast_S1600000x1_S1600000x64_0_1 v68
  have v70 : FVec Ideal S1600000x64 .f32 := mulf v46 v69
  v70

/-- The layer's output, statement by statement (%74 … %102). -/
noncomputable def nodeChain (mi : FVec Ideal S100000x64 .f32) (a0 : FVec Ideal S100000x64 .f32)
    (a9 : FVec Ideal S128x64 .f32) (a10 : FVec Ideal S64 .f32) (a11 : FVec Ideal S64x64 .f32) (a12 : FVec Ideal S64 .f32)
    (a13 : FVec Ideal S64 .f32) (a14 : FVec Ideal S64 .f32) : FVec Ideal S100000x64 .f32 :=
  have v74 : FVec Ideal S100000x128 .f32 := concatenate S100000x128 1 [⟨S100000x64, mi⟩, ⟨S100000x64, a0⟩] concatenates_S100000x64_S100000x64_S100000x128_d1
  have v75 : FVec Ideal S100000x64 .f32 := Host.dotGeneral (F := Ideal) dot_S100000x128_S128x64_S100000x64_1_0_0_1_n_n none v74 a9
  have v76 : FVec Ideal S1x64 .f32 := broadcastInDim S1x64 ![1] bcast_S64_S1x64_1 a10
  have v77 : FVec Ideal S100000x64 .f32 := broadcastInDim S100000x64 ![0, 1] bcast_S1x64_S100000x64_0_1 v76
  have v78 : FVec Ideal S100000x64 .f32 := addf v75 v77
  have c2_cst : FVec Ideal S_ .f32 := constant (F := Ideal) S_ .f32 0x00000000#32
  have c2_v0 : FVec Ideal S100000x64 .f32 := broadcastInDim S100000x64 ![] bcast_S_S100000x64 c2_cst
  have v79 : FVec Ideal S100000x64 .f32 := maximumf v78 c2_v0
  have v80 : FVec Ideal S100000x64 .f32 := Host.dotGeneral (F := Ideal) dot_S100000x64_S64x64_S100000x64_1_0_0_1_n_n none v79 a11
  have v81 : FVec Ideal S1x64 .f32 := broadcastInDim S1x64 ![1] bcast_S64_S1x64_1 a12
  have v82 : FVec Ideal S100000x64 .f32 := broadcastInDim S100000x64 ![0, 1] bcast_S1x64_S100000x64_0_1 v81
  have v83 : FVec Ideal S100000x64 .f32 := addf v80 v82
  have v84 : FVec Ideal S100000x64 .f32 := addf a0 v83
  have cst_14 : FVec Ideal S_ .f32 := constant (F := Ideal) S_ .f32 0x00000000#32
  have v85 : FVec Ideal S100000 .f32 := Host.reduceAdd (F := Ideal) v84 cst_14 reducesTo_S100000x64_S100000_d1 h_S_
  have v86 : FVec Ideal S100000x1 .f32 := broadcastInDim S100000x1 ![0] bcast_S100000_S100000x1_0 v85
  have cst_15 : FVec Ideal S_ .f32 := constant (F := Ideal) S_ .f32 0x42800000#32
  have v87 : FVec Ideal S100000x1 .f32 := broadcastInDim S100000x1 ![] bcast_S_S100000x1 cst_15
  have v88 : FVec Ideal S100000x1 .f32 := Host.divf (F := Ideal) v86 v87
  have c_16 : IVec S_ 32 := constantI S_ 32 0#32
  have c3_cst : FVec Ideal S_ .f32 := constant (F := Ideal) S_ .f32 0x00000000#32
  have c3_v0 : FVec Ideal S100000 .f32 := Host.reduceAdd (F := Ideal) v84 c3_cst reducesTo_S100000x64_S100000_d1 h_S_
  have c3_v1 : FVec Ideal S100000x1 .f32 := broadcastInDim S100000x1 ![0] bcast_S100000_S100000x1_0 c3_v0
  have c3_cst_0 : FVec Ideal S_ .f32 := constant (F := Ideal) S_ .f32 0x42800000#32
  have c3_v2 : FVec Ideal S100000x1 .f32 := broadcastInDim S100000x1 ![] bcast_S_S100000x1 c3_cst_0
  have c3_v3 : FVec Ideal S100000x1 .f32 := Host.divf (F := Ideal) c3_v1 c3_v2
  have c3_v4 : FVec Ideal S100000x64 .f32 := broadcastInDim S100000x64 ![0, 1] bcast_S100000x1_S100000x64_0_1 c3_v3
  have c3_v5 : FVec Ideal S100000x64 .f32 := subf v84 c3_v4
  have c3_v6 : FVec Ideal S100000x64 .f32 := mulf c3_v5 c3_v5
  have c3_v7 : FVec Ideal S_ .f32 := sitofp (F := Ideal) .f32 c_16
  have c3_cst_1 : FVec Ideal S_ .f32 := constant (F := Ideal) S_ .f32 0x42800000#32
  have c3_v8 : FVec Ideal S_ .f32 := subf c3_cst_1 c3_v7
  have c3_cst_2 : FVec Ideal S_ .f32 := constant (F := Ideal) S_ .f32 0x00000000#32
  have c3_v9 : FVec Ideal S100000 .f32 := Host.reduceAdd (F := Ideal) c3_v6 c3_cst_2 reducesTo_S100000x64_S100000_d1 h_S_
  have c3_v10 : FVec Ideal S100000x1 .f32 := broadcastInDim S100000x1 ![0] bcast_S100000_S100000x1_0 c3_v9
  have c3_v11 : FVec Ideal S100000x1 .f32 := broadcastInDim S100000x1 ![] bcast_S_S100000x1 c3_v8
  have c3_v12 : FVec Ideal S100000x1 .f32 := Host.divf (F := Ideal) c3_v10 c3_v11
  have c3_cst_3 : FVec Ideal S_ .f32 := constant (F := Ideal) S_ .f32 0x00000000#32
  have c3_v13 : IVec S_ 1 := cmpf .ogt c3_v8 c3_cst_3
  have c3_cst_4 : FVec Ideal S_ .f32 := constant (F := Ideal) S_ .f32 0x7FC00000#32
  have w_v0 : FVec Ideal S_ .f32 := id c3_cst_4
  have w_v1 : FVec Ideal S100000x1 .f32 := broadcastInDim S100000x1 ![] bcast_S_S100000x1 w_v0
  have v89 : FVec Ideal S100000x1 .f32 := select (broadcastInDim S100000x1 ![] bcast_S_S100000x1 c3_v13) c3_v12 w_v1
  have v90 : FVec Ideal S100000x64 .f32 := broadcastInDim S100000x64 ![0, 1] bcast_S100000x1_S100000x64_0_1 v88
  have v91 : FVec Ideal S100000x64 .f32 := subf v84 v90
  have cst_17 : FVec Ideal S_ .f32 := constant (F := Ideal) S_ .f32 0x3727C5AC#32
  have v92 : FVec Ideal S100000x1 .f32 := broadcastInDim S100000x1 ![] bcast_S_S100000x1 cst_17
  have v93 : FVec Ideal S100000x1 .f32 := addf v89 v92
  have v94 : FVec Ideal S100000x1 .f32 := Host.rsqrt (F := Ideal) v93
  have v95 : FVec Ideal S100000x64 .f32 := broadcastInDim S100000x64 ![0, 1] bcast_S100000x1_S100000x64_0_1 v94
  have v96 : FVec Ideal S100000x64 .f32 := mulf v91 v95
  have v97 : FVec Ideal S1x64 .f32 := broadcastInDim S1x64 ![1] bcast_S64_S1x64_1 a13
  have v98 : FVec Ideal S100000x64 .f32 := broadcastInDim S100000x64 ![0, 1] bcast_S1x64_S100000x64_0_1 v97
  have v99 : FVec Ideal S100000x64 .f32 := mulf v96 v98
  have v100 : FVec Ideal S1x64 .f32 := broadcastInDim S1x64 ![1] bcast_S64_S1x64_1 a14
  have v101 : FVec Ideal S100000x64 .f32 := broadcastInDim S100000x64 ![0, 1] bcast_S1x64_S100000x64_0_1 v100
  have v102 : FVec Ideal S100000x64 .f32 := addf v99 v101
  v102

end Cert.ReferenceIdeal.Terms

end
-- ==== Proof.RefStages.lean ====
/-
  The reference line read back stage by stage, over an arbitrary valuation of the buffers.

  Each stage of the line (see the run's module) writes its own buffers and reads a handful the earlier stages or the launch
  left: what its last buffer holds afterwards is the composition of its operations' functions at the contents of the
  buffers it reads, and every buffer it does not write keeps its contents. The whole line's fold is the four stages'
  folds in order.
-/
import proofs.«154884_j40596030882310_2_alg».proof.Proof.RefRun
import proofs.«154884_j40596030882310_2_alg».proof.Proof.RefTerms
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The fold of the whole line is the stages' folds in order -/

theorem after_ops (W : Valuation τ sig (Elt F)) :
    after ops W = after opsD (after opsC (after opsB (after opsA W))) := by
  simp only [ops, after_append]

theorem after_ops_apply (W : Valuation τ sig (Elt F)) (b : DevRef τ sig) :
    after ops W b = after opsD (after opsC (after opsB (after opsA W))) b := by
  rw [after_ops]

/-! ## Stage C: the messages summed into their target rows -/

theorem stageC_out (W : Valuation τ sig (Elt F)) :
    after opsC W (Proc.devRef .tc main_v73)
      = Host.scatterAdd scatter_S100000x64_S1600000x1_S1600000x64_1_0_0_1
          (broadcastInDim S100000x64 ![] bcast_S_S100000x64 (constant S_ .f32 0x00000000#32))
          (broadcastInDim S1600000x1 ![0] bcast_S1600000_S1600000x1_0 (W (Proc.devRef .tc main_v3)))
          (W (Proc.devRef .tc main_v70)) := by
  after_results

/-! ## What each stage leaves alone -/

theorem stageA_keep_arg0 (W : Valuation τ sig (Elt F)) :
    after opsA W (Proc.devRef .tc main_arg0) = W (Proc.devRef .tc main_arg0) := by not_written
theorem stageA_keep_arg1 (W : Valuation τ sig (Elt F)) :
    after opsA W (Proc.devRef .tc main_arg1) = W (Proc.devRef .tc main_arg1) := by not_written
theorem stageA_keep_arg2 (W : Valuation τ sig (Elt F)) :
    after opsA W (Proc.devRef .tc main_arg2) = W (Proc.devRef .tc main_arg2) := by not_written
theorem stageA_keep_arg3 (W : Valuation τ sig (Elt F)) :
    after opsA W (Proc.devRef .tc main_arg3) = W (Proc.devRef .tc main_arg3) := by not_written
theorem stageA_keep_arg4 (W : Valuation τ sig (Elt F)) :
    after opsA W (Proc.devRef .tc main_arg4) = W (Proc.devRef .tc main_arg4) := by not_written
theorem stageA_keep_arg5 (W : Valuation τ sig (Elt F)) :
    after opsA W (Proc.devRef .tc main_arg5) = W (Proc.devRef .tc main_arg5) := by not_written
theorem stageA_keep_arg6 (W : Valuation τ sig (Elt F)) :
    after opsA W (Proc.devRef .tc main_arg6) = W (Proc.devRef .tc main_arg6) := by not_written
theorem stageA_keep_arg7 (W : Valuation τ sig (Elt F)) :
    after opsA W (Proc.devRef .tc main_arg7) = W (Proc.devRef .tc main_arg7) := by not_written
theorem stageA_keep_arg8 (W : Valuation τ sig (Elt F)) :
    after opsA W (Proc.devRef .tc main_arg8) = W (Proc.devRef .tc main_arg8) := by not_written
theorem stageA_keep_arg9 (W : Valuation τ sig (Elt F)) :
    after opsA W (Proc.devRef .tc main_arg9) = W (Proc.devRef .tc main_arg9) := by not_written
theorem stageA_keep_arg10 (W : Valuation τ sig (Elt F)) :
    after opsA W (Proc.devRef .tc main_arg10) = W (Proc.devRef .tc main_arg10) := by not_written
theorem stageA_keep_arg11 (W : Valuation τ sig (Elt F)) :
    after opsA W (Proc.devRef .tc main_arg11) = W (Proc.devRef .tc main_arg11) := by not_written
theorem stageA_keep_arg12 (W : Valuation τ sig (Elt F)) :
    after opsA W (Proc.devRef .tc main_arg12) = W (Proc.devRef .tc main_arg12) := by not_written
theorem stageA_keep_arg13 (W : Valuation τ sig (Elt F)) :
    after opsA W (Proc.devRef .tc main_arg13) = W (Proc.devRef .tc main_arg13) := by not_written
theorem stageA_keep_arg14 (W : Valuation τ sig (Elt F)) :
    after opsA W (Proc.devRef .tc main_arg14) = W (Proc.devRef .tc main_arg14) := by not_written

theorem stageB_keep_v3 (W : Valuation τ sig (Elt F)) :
    after opsB W (Proc.devRef .tc main_v3) = W (Proc.devRef .tc main_v3) := by not_written
theorem stageB_keep_arg0 (W : Valuation τ sig (Elt F)) :
    after opsB W (Proc.devRef .tc main_arg0) = W (Proc.devRef .tc main_arg0) := by not_written
theorem stageB_keep_arg1 (W : Valuation τ sig (Elt F)) :
    after opsB W (Proc.devRef .tc main_arg1) = W (Proc.devRef .tc main_arg1) := by not_written
theorem stageB_keep_arg2 (W : Valuation τ sig (Elt F)) :
    after opsB W (Proc.devRef .tc main_arg2) = W (Proc.devRef .tc main_arg2) := by not_written
theorem stageB_keep_arg3 (W : Valuation τ sig (Elt F)) :
    after opsB W (Proc.devRef .tc main_arg3) = W (Proc.devRef .tc main_arg3) := by not_written
theorem stageB_keep_arg4 (W : Valuation τ sig (Elt F)) :
    after opsB W (Proc.devRef .tc main_arg4) = W (Proc.devRef .tc main_arg4) := by not_written
theorem stageB_keep_arg5 (W : Valuation τ sig (Elt F)) :
    after opsB W (Proc.devRef .tc main_arg5) = W (Proc.devRef .tc main_arg5) := by not_written
theorem stageB_keep_arg6 (W : Valuation τ sig (Elt F)) :
    after opsB W (Proc.devRef .tc main_arg6) = W (Proc.devRef .tc main_arg6) := by not_written
theorem stageB_keep_arg7 (W : Valuation τ sig (Elt F)) :
    after opsB W (Proc.devRef .tc main_arg7) = W (Proc.devRef .tc main_arg7) := by not_written
theorem stageB_keep_arg8 (W : Valuation τ sig (Elt F)) :
    after opsB W (Proc.devRef .tc main_arg8) = W (Proc.devRef .tc main_arg8) := by not_written
theorem stageB_keep_arg9 (W : Valuation τ sig (Elt F)) :
    after opsB W (Proc.devRef .tc main_arg9) = W (Proc.devRef .tc main_arg9) := by not_written
theorem stageB_keep_arg10 (W : Valuation τ sig (Elt F)) :
    after opsB W (Proc.devRef .tc main_arg10) = W (Proc.devRef .tc main_arg10) := by not_written
theorem stageB_keep_arg11 (W : Valuation τ sig (Elt F)) :
    after opsB W (Proc.devRef .tc main_arg11) = W (Proc.devRef .tc main_arg11) := by not_written
theorem stageB_keep_arg12 (W : Valuation τ sig (Elt F)) :
    after opsB W (Proc.devRef .tc main_arg12) = W (Proc.devRef .tc main_arg12) := by not_written
theorem stageB_keep_arg13 (W : Valuation τ sig (Elt F)) :
    after opsB W (Proc.devRef .tc main_arg13) = W (Proc.devRef .tc main_arg13) := by not_written
theorem stageB_keep_arg14 (W : Valuation τ sig (Elt F)) :
    after opsB W (Proc.devRef .tc main_arg14) = W (Proc.devRef .tc main_arg14) := by not_written

theorem stageC_keep_arg0 (W : Valuation τ sig (Elt F)) :
    after opsC W (Proc.devRef .tc main_arg0) = W (Proc.devRef .tc main_arg0) := by not_written
theorem stageC_keep_arg1 (W : Valuation τ sig (Elt F)) :
    after opsC W (Proc.devRef .tc main_arg1) = W (Proc.devRef .tc main_arg1) := by not_written
theorem stageC_keep_arg2 (W : Valuation τ sig (Elt F)) :
    after opsC W (Proc.devRef .tc main_arg2) = W (Proc.devRef .tc main_arg2) := by not_written
theorem stageC_keep_arg3 (W : Valuation τ sig (Elt F)) :
    after opsC W (Proc.devRef .tc main_arg3) = W (Proc.devRef .tc main_arg3) := by not_written
theorem stageC_keep_arg4 (W : Valuation τ sig (Elt F)) :
    after opsC W (Proc.devRef .tc main_arg4) = W (Proc.devRef .tc main_arg4) := by not_written
theorem stageC_keep_arg5 (W : Valuation τ sig (Elt F)) :
    after opsC W (Proc.devRef .tc main_arg5) = W (Proc.devRef .tc main_arg5) := by not_written
theorem stageC_keep_arg6 (W : Valuation τ sig (Elt F)) :
    after opsC W (Proc.devRef .tc main_arg6) = W (Proc.devRef .tc main_arg6) := by not_written
theorem stageC_keep_arg7 (W : Valuation τ sig (Elt F)) :
    after opsC W (Proc.devRef .tc main_arg7) = W (Proc.devRef .tc main_arg7) := by not_written
theorem stageC_keep_arg8 (W : Valuation τ sig (Elt F)) :
    after opsC W (Proc.devRef .tc main_arg8) = W (Proc.devRef .tc main_arg8) := by not_written
theorem stageC_keep_arg9 (W : Valuation τ sig (Elt F)) :
    after opsC W (Proc.devRef .tc main_arg9) = W (Proc.devRef .tc main_arg9) := by not_written
theorem stageC_keep_arg10 (W : Valuation τ sig (Elt F)) :
    after opsC W (Proc.devRef .tc main_arg10) = W (Proc.devRef .tc main_arg10) := by not_written
theorem stageC_keep_arg11 (W : Valuation τ sig (Elt F)) :
    after opsC W (Proc.devRef .tc main_arg11) = W (Proc.devRef .tc main_arg11) := by not_written
theorem stageC_keep_arg12 (W : Valuation τ sig (Elt F)) :
    after opsC W (Proc.devRef .tc main_arg12) = W (Proc.devRef .tc main_arg12) := by not_written
theorem stageC_keep_arg13 (W : Valuation τ sig (Elt F)) :
    after opsC W (Proc.devRef .tc main_arg13) = W (Proc.devRef .tc main_arg13) := by not_written
theorem stageC_keep_arg14 (W : Valuation τ sig (Elt F)) :
    after opsC W (Proc.devRef .tc main_arg14) = W (Proc.devRef .tc main_arg14) := by not_written

theorem stageD_keep_arg0 (W : Valuation τ sig (Elt F)) :
    after opsD W (Proc.devRef .tc main_arg0) = W (Proc.devRef .tc main_arg0) := by not_written
theorem stageD_keep_arg1 (W : Valuation τ sig (Elt F)) :
    after opsD W (Proc.devRef .tc main_arg1) = W (Proc.devRef .tc main_arg1) := by not_written
theorem stageD_keep_arg2 (W : Valuation τ sig (Elt F)) :
    after opsD W (Proc.devRef .tc main_arg2) = W (Proc.devRef .tc main_arg2) := by not_written
theorem stageD_keep_arg3 (W : Valuation τ sig (Elt F)) :
    after opsD W (Proc.devRef .tc main_arg3) = W (Proc.devRef .tc main_arg3) := by not_written
theorem stageD_keep_arg4 (W : Valuation τ sig (Elt F)) :
    after opsD W (Proc.devRef .tc main_arg4) = W (Proc.devRef .tc main_arg4) := by not_written
theorem stageD_keep_arg5 (W : Valuation τ sig (Elt F)) :
    after opsD W (Proc.devRef .tc main_arg5) = W (Proc.devRef .tc main_arg5) := by not_written
theorem stageD_keep_arg6 (W : Valuation τ sig (Elt F)) :
    after opsD W (Proc.devRef .tc main_arg6) = W (Proc.devRef .tc main_arg6) := by not_written
theorem stageD_keep_arg7 (W : Valuation τ sig (Elt F)) :
    after opsD W (Proc.devRef .tc main_arg7) = W (Proc.devRef .tc main_arg7) := by not_written
theorem stageD_keep_arg8 (W : Valuation τ sig (Elt F)) :
    after opsD W (Proc.devRef .tc main_arg8) = W (Proc.devRef .tc main_arg8) := by not_written
theorem stageD_keep_arg9 (W : Valuation τ sig (Elt F)) :
    after opsD W (Proc.devRef .tc main_arg9) = W (Proc.devRef .tc main_arg9) := by not_written
theorem stageD_keep_arg10 (W : Valuation τ sig (Elt F)) :
    after opsD W (Proc.devRef .tc main_arg10) = W (Proc.devRef .tc main_arg10) := by not_written
theorem stageD_keep_arg11 (W : Valuation τ sig (Elt F)) :
    after opsD W (Proc.devRef .tc main_arg11) = W (Proc.devRef .tc main_arg11) := by not_written
theorem stageD_keep_arg12 (W : Valuation τ sig (Elt F)) :
    after opsD W (Proc.devRef .tc main_arg12) = W (Proc.devRef .tc main_arg12) := by not_written
theorem stageD_keep_arg13 (W : Valuation τ sig (Elt F)) :
    after opsD W (Proc.devRef .tc main_arg13) = W (Proc.devRef .tc main_arg13) := by not_written
theorem stageD_keep_arg14 (W : Valuation τ sig (Elt F)) :
    after opsD W (Proc.devRef .tc main_arg14) = W (Proc.devRef .tc main_arg14) := by not_written

/-! ## Stages B and D at the ideal floats: the edge chain and the node chain -/

/-- The weighted messages: the edge chain of the joined features, the squared distances and the six edge parameters. -/
theorem stageB_out (W : Valuation τ sig (Elt Ideal)) :
    after (opsB (F := Ideal)) W (Proc.devRef .tc main_v70)
      = Terms.edgeChain (W (Proc.devRef .tc main_v36)) (W (Proc.devRef .tc main_v35))
          (W (Proc.devRef .tc main_arg3)) (W (Proc.devRef .tc main_arg4)) (W (Proc.devRef .tc main_arg5)) (W (Proc.devRef .tc main_arg6)) (W (Proc.devRef .tc main_arg7)) (W (Proc.devRef .tc main_arg8)) := by
  after_results_simp
  rfl

/-- The layer's output: the node chain of the summed messages, the node features and the six node parameters. -/
theorem stageD_out (W : Valuation τ sig (Elt Ideal)) :
    after (opsD (F := Ideal)) W (Proc.devRef .tc main_v102)
      = Terms.nodeChain (W (Proc.devRef .tc main_v73)) (W (Proc.devRef .tc main_arg0)) (W (Proc.devRef .tc main_arg9)) (W (Proc.devRef .tc main_arg10)) (W (Proc.devRef .tc main_arg11)) (W (Proc.devRef .tc main_arg12)) (W (Proc.devRef .tc main_arg13)) (W (Proc.devRef .tc main_arg14)) := by
  after_results_simp
  rfl

/-! ## The whole line at its result -/

/-- After the whole line the result buffer holds the node chain of the messages summed at their targets — each message the edge
    chain's — and of the arguments; stage A's three results are left as that stage's fold. -/
theorem out_eq (W : Valuation τ sig (Elt Ideal)) :
    after (ops (F := Ideal)) W (Proc.devRef .tc main_v102)
      = Terms.nodeChain
          (Host.scatterAdd scatter_S100000x64_S1600000x1_S1600000x64_1_0_0_1
          (broadcastInDim S100000x64 ![] bcast_S_S100000x64 (constant S_ .f32 0x00000000#32))
          (broadcastInDim S1600000x1 ![0] bcast_S1600000_S1600000x1_0 (after opsA W (Proc.devRef .tc main_v3)))
          (Terms.edgeChain (after opsA W (Proc.devRef .tc main_v36)) (after opsA W (Proc.devRef .tc main_v35))
            (W (Proc.devRef .tc main_arg3)) (W (Proc.devRef .tc main_arg4)) (W (Proc.devRef .tc main_arg5)) (W (Proc.devRef .tc main_arg6)) (W (Proc.devRef .tc main_arg7)) (W (Proc.devRef .tc main_arg8))))
          (W (Proc.devRef .tc main_arg0)) (W (Proc.devRef .tc main_arg9)) (W (Proc.devRef .tc main_arg10)) (W (Proc.devRef .tc main_arg11)) (W (Proc.devRef .tc main_arg12)) (W (Proc.devRef .tc main_arg13)) (W (Proc.devRef .tc main_arg14)) := by
  rw [after_ops_apply, stageD_out, stageC_out, stageB_out, stageB_keep_v3,
    stageC_keep_arg0, stageB_keep_arg0, stageA_keep_arg0,
    stageC_keep_arg9, stageB_keep_arg9, stageA_keep_arg9,
    stageC_keep_arg10, stageB_keep_arg10, stageA_keep_arg10,
    stageC_keep_arg11, stageB_keep_arg11, stageA_keep_arg11,
    stageC_keep_arg12, stageB_keep_arg12, stageA_keep_arg12,
    stageC_keep_arg13, stageB_keep_arg13, stageA_keep_arg13,
    stageC_keep_arg14, stageB_keep_arg14, stageA_keep_arg14,
    stageA_keep_arg3, stageA_keep_arg4, stageA_keep_arg5, stageA_keep_arg6, stageA_keep_arg7, stageA_keep_arg8]

end Cert.ReferenceIdeal.RefRun

end
-- ==== Proof.LibHostForms.lean ====
/-
  Host-side readings at an entry (p, q), on the extended reals and for variable extents.

  A bias kept as a row: the host's broadcast of a vector [b] to a row [1, b] along axis 1 reads at (0, q) the entry q,
  and its broadcast of a row [1, b] to [a, b] reads at (p, q) the row's entry (0, q).  And the host's ordinary matrix
  product — an [a, n] array times an [n, b] array, contracting the second axis of the left with the first of the right,
  no batch axis — is at (p, q) the sum over k of left (p, k) · right (k, q).
-/
import Idealize.ShloMosaic.Lib.Pipeline.Value
import Idealize.ShloMosaic.Lib.ValueIdx
import Idealize.ShloMosaic.PureOps.Ideal.Laws
import proofs.«154884_j40596030882310_2_alg».proof.Proof.LibPlainMatmul

noncomputable section

open scoped BigOperators

namespace Cert.HostForms

open Idealize.ShloMosaic Idealize.ShloMosaic.ValueIdx

variable {α : Type}

/-- The host's broadcast of a vector [b] to a row [1, b] along axis 1 reads, at (z, q), its entry `q`. -/
theorem host_row_apply {b : ℕ} (v : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h v (ix2 z q) = v (ix1 q) := by
  refine broadcastInDim_apply _ h v (ix2 z q) (ix1 q) fun ax => ?_
  match ax with
  | ⟨0, _⟩ =>
    show q.val = if b = 1 then 0 else q.val
    split
    · have := q.isLt; omega
    · rfl

/-- The host's broadcast of a row [1, b] to [a, b] reads, at (p, q), the row's entry of column `q`. -/
theorem host_row_repeat_apply {a b : ℕ} (u : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h u (ix2 p q) = u (ix2 (0 : Fin 1) q) := by
  refine broadcastInDim_apply _ h u (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- The host's ordinary product: at (p, q) the sum over k of left (p, k) · right (k, q). -/
theorem host_product_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    Host.dotGeneral (F := Ideal) (Cert.PlainMatmul.dims wf) prec L R (ix2 p q)
      = ∑ k : Fin n, L (ix2 p k) * R (ix2 k q) := by
  simp only [Host.dotGeneral]
  rw [Ideal.dotGeneral_apply, ← Equiv.sum_comp (contrEquiv1 (Cert.PlainMatmul.dims wf) n rfl rfl).symm]
  refine Finset.sum_congr rfl fun k _ => ?_
  have hk := contrEquiv1_symm_val (Cert.PlainMatmul.dims wf) n rfl rfl k
  have el : (Cert.PlainMatmul.dims wf).lhsIdx (ix2 p q) ((contrEquiv1 (Cert.PlainMatmul.dims wf) n rfl rfl).symm k) = ix2 p k :=
    funext fun ax => Fin.ext (by
      match ax with
      | ⟨0, _⟩ => rfl
      | ⟨1, _⟩ => exact ((Cert.PlainMatmul.dims wf).lhsIdx_val_of_single rfl _ _).trans hk)
  have er : (Cert.PlainMatmul.dims wf).rhsIdx (ix2 p q) ((contrEquiv1 (Cert.PlainMatmul.dims wf) n rfl rfl).symm k) = ix2 k q :=
    funext fun ax => Fin.ext (by
      match ax with
      | ⟨0, _⟩ => exact ((Cert.PlainMatmul.dims wf).rhsIdx_val_of_single rfl _ _).trans hk
      | ⟨1, _⟩ => rfl)
  rw [el, er]

end Cert.HostForms

end
-- ==== Proof.RefSpec.lean ====
/-
  The reference program's two chains of operations compute the layer as the specification states it.

  Read at an entry (p, q): a product followed by an added row of biases is the sum over k of left (p, k) · right (k, q)
  plus the bias q; a maximum with the broadcast zero is the maximum with 0; the quotient 1 / (1 + exp (−x)) the program
  spells out is the logistic function; a column [a, 1] repeated over 64 columns reads its row's entry.  Composing these
  readings along the edge chain gives the message times the weight; along the node chain, the normalised updated
  features, where the variance's divisor 64 − 0 is 64 and positive, so the quotient (and never the not-a-number word)
  is selected.
-/
import proofs.«154884_j40596030882310_2_alg».proof.Proof.RefTerms
import proofs.«154884_j40596030882310_2_alg».proof.Proof.Spec
import proofs.«154884_j40596030882310_2_alg».proof.Proof.LibHostForms
import proofs.«154884_j40596030882310_2_alg».proof.Proof.LibKeepdims
import Idealize.ShloMosaic.Lib.IdealHost

noncomputable section

open scoped BigOperators

namespace Cert.ReferenceIdeal.Terms

open Idealize.ShloMosaic Idealize.SL.Sem Idealize.ShloMosaic.ValueIdx
open Cert.ReferenceIdeal Cert.ReferenceIdeal.Gen
open Cert.Egnn

/-! ## Readings at an entry, for any number of rows -/

/-- A product plus a row of biases, at (p, j). -/
theorem affine_apply {a n b : ℕ}
    (wf : DotDims.WF ⟨2, ![a, n]⟩ ⟨2, ![n, b]⟩ ⟨2, ![a, b]⟩ [1] [0] [0] [1] [] [])
    (h1 : (⟨1, ![b]⟩ : Shape).BroadcastsInDim ⟨2, ![1, b]⟩ ![1])
    (h2 : (⟨2, ![1, b]⟩ : Shape).BroadcastsInDim ⟨2, ![a, b]⟩ ![0, 1])
    (x : FVec Ideal ⟨2, ![a, n]⟩ .f32) (W : FVec Ideal ⟨2, ![n, b]⟩ .f32) (bias : FVec Ideal ⟨1, ![b]⟩ .f32)
    (p : Fin a) (j : Fin b) :
    addf (Host.dotGeneral (F := Ideal) (Cert.PlainMatmul.dims wf) none x W)
        (broadcastInDim ⟨2, ![a, b]⟩ ![0, 1] h2 (broadcastInDim ⟨2, ![1, b]⟩ ![1] h1 bias)) (ix2 p j)
      = ∑ k : Fin n, x (ix2 p k) * W (ix2 k j) + bias (ix1 j) := by
  show Host.dotGeneral (F := Ideal) (Cert.PlainMatmul.dims wf) none x W (ix2 p j)
      + broadcastInDim ⟨2, ![a, b]⟩ ![0, 1] h2 (broadcastInDim ⟨2, ![1, b]⟩ ![1] h1 bias) (ix2 p j) = _
  rw [Cert.HostForms.host_product_apply, Cert.HostForms.host_row_repeat_apply, Cert.HostForms.host_row_apply]

/-- The maximum with the broadcast zero, at any index. -/
theorem relu_apply {T : Shape} (h0 : (⟨0, ![]⟩ : Shape).BroadcastsInDim T ![]) (y : FVec Ideal T .f32) (i : T.Idx) :
    maximumf y (broadcastInDim T ![] h0 (constant (F := Ideal) ⟨0, ![]⟩ .f32 0x00000000#32)) i = max (y i) 0 := by
  show max (y i) (broadcastInDim T ![] h0 (constant (F := Ideal) ⟨0, ![]⟩ .f32 0x00000000#32) i) = _
  rw [broadcastInDim_scalar_apply, constant_apply, Ideal.ofBits_zero_f32]

/-- One layer of an edge or node map: product, biases, maximum with zero, at (p, j). -/
theorem layer_apply {a n : ℕ}
    (wf : DotDims.WF ⟨2, ![a, n]⟩ ⟨2, ![n, 64]⟩ ⟨2, ![a, 64]⟩ [1] [0] [0] [1] [] [])
    (h1 : (⟨1, ![64]⟩ : Shape).BroadcastsInDim ⟨2, ![1, 64]⟩ ![1])
    (h2 : (⟨2, ![1, 64]⟩ : Shape).BroadcastsInDim ⟨2, ![a, 64]⟩ ![0, 1])
    (h0 : (⟨0, ![]⟩ : Shape).BroadcastsInDim ⟨2, ![a, 64]⟩ ![])
    (x : FVec Ideal ⟨2, ![a, n]⟩ .f32) (W : FVec Ideal ⟨2, ![n, 64]⟩ .f32) (bias : FVec Ideal ⟨1, ![64]⟩ .f32)
    (p : Fin a) (j : Fin 64) :
    maximumf (addf (Host.dotGeneral (F := Ideal) (Cert.PlainMatmul.dims wf) none x W)
        (broadcastInDim ⟨2, ![a, 64]⟩ ![0, 1] h2 (broadcastInDim ⟨2, ![1, 64]⟩ ![1] h1 bias)))
        (broadcastInDim ⟨2, ![a, 64]⟩ ![] h0 (constant (F := Ideal) ⟨0, ![]⟩ .f32 0x00000000#32)) (ix2 p j)
      = max (∑ k : Fin n, x (ix2 p k) * W (ix2 k j) + bias (ix1 j)) 0 :=
  (relu_apply h0 _ _).trans (congrArg (max · 0) (affine_apply wf h1 h2 x W bias p j))

/-- The quotient 1 / (1 + exp (−x)) the program spells out is the logistic function, at any index. -/
theorem logistic_apply {T : Shape} (h : (⟨0, ![]⟩ : Shape).BroadcastsInDim T ![]) (x : FVec Ideal T .f32) (i : T.Idx) :
    Host.divf (F := Ideal) (broadcastInDim T ![] h (constant (F := Ideal) ⟨0, ![]⟩ .f32 0x3F800000#32))
        (addf (broadcastInDim T ![] h (constant (F := Ideal) ⟨0, ![]⟩ .f32 0x3F800000#32))
          (Host.exp (F := Ideal) (Host.negf (F := Ideal) x))) i
      = Ideal.logistic (x i) := by
  show Ideal.div (broadcastInDim T ![] h (constant (F := Ideal) ⟨0, ![]⟩ .f32 0x3F800000#32) i)
      (broadcastInDim T ![] h (constant (F := Ideal) ⟨0, ![]⟩ .f32 0x3F800000#32) i + Ideal.exp (-(x i))) = _
  rw [broadcastInDim_scalar_apply, constant_apply, Ideal.ofBits_one_f32]
  rfl

/-! ## The edge chain -/

/-- Two layers over the joined rows: the message, at (p, q). -/
theorem message_term {a : ℕ}
    (wf1 : DotDims.WF ⟨2, ![a, 128]⟩ ⟨2, ![128, 64]⟩ ⟨2, ![a, 64]⟩ [1] [0] [0] [1] [] [])
    (wf2 : DotDims.WF ⟨2, ![a, 64]⟩ ⟨2, ![64, 64]⟩ ⟨2, ![a, 64]⟩ [1] [0] [0] [1] [] [])
    (h1 : (⟨1, ![64]⟩ : Shape).BroadcastsInDim ⟨2, ![1, 64]⟩ ![1])
    (h2 : (⟨2, ![1, 64]⟩ : Shape).BroadcastsInDim ⟨2, ![a, 64]⟩ ![0, 1])
    (h0 : (⟨0, ![]⟩ : Shape).BroadcastsInDim ⟨2, ![a, 64]⟩ ![])
    (e : FVec Ideal ⟨2, ![a, 128]⟩ .f32) (a3 : FVec Ideal ⟨2, ![128, 64]⟩ .f32) (a4 : FVec Ideal ⟨1, ![64]⟩ .f32)
    (a5 : FVec Ideal ⟨2, ![64, 64]⟩ .f32) (a6 : FVec Ideal ⟨1, ![64]⟩ .f32) (p : Fin a) (q : Fin 64) :
    maximumf (addf (Host.dotGeneral (F := Ideal) (Cert.PlainMatmul.dims wf2) none
          (maximumf (addf (Host.dotGeneral (F := Ideal) (Cert.PlainMatmul.dims wf1) none e a3)
              (broadcastInDim ⟨2, ![a, 64]⟩ ![0, 1] h2 (broadcastInDim ⟨2, ![1, 64]⟩ ![1] h1 a4)))
            (broadcastInDim ⟨2, ![a, 64]⟩ ![] h0 (constant (F := Ideal) ⟨0, ![]⟩ .f32 0x00000000#32))) a5)
        (broadcastInDim ⟨2, ![a, 64]⟩ ![0, 1] h2 (broadcastInDim ⟨2, ![1, 64]⟩ ![1] h1 a6)))
        (broadcastInDim ⟨2, ![a, 64]⟩ ![] h0 (constant (F := Ideal) ⟨0, ![]⟩ .f32 0x00000000#32)) (ix2 p q)
      = message e a3 a4 a5 a6 p q := by
  refine (layer_apply wf2 h1 h2 h0 _ a5 a6 p q).trans ?_
  unfold Cert.Egnn.message Cert.Egnn.hidden
  refine congrArg (fun s => max (s + a6 (ix1 q)) 0) (Finset.sum_congr rfl fun k _ => ?_)
  exact congrArg (· * a5 (ix2 k q)) (layer_apply wf1 h1 h2 h0 e a3 a4 p k)

/-- The distance gate the program spells out, at (p, 0). -/
theorem gate_term {a : ℕ} (h : (⟨0, ![]⟩ : Shape).BroadcastsInDim ⟨2, ![a, 1]⟩ ![])
    (d : FVec Ideal ⟨2, ![a, 1]⟩ .f32) (p : Fin a) :
    Host.divf (F := Ideal) (broadcastInDim ⟨2, ![a, 1]⟩ ![] h (constant (F := Ideal) ⟨0, ![]⟩ .f32 0x3F800000#32))
        (addf (broadcastInDim ⟨2, ![a, 1]⟩ ![] h (constant (F := Ideal) ⟨0, ![]⟩ .f32 0x3F800000#32))
          (Host.exp (F := Ideal) (Host.negf (F := Ideal)
            (Host.divf (F := Ideal) (broadcastInDim ⟨2, ![a, 1]⟩ ![] h (constant (F := Ideal) ⟨0, ![]⟩ .f32 0x41F00000#32))
              (addf (Host.sqrt (F := Ideal) d)
                (broadcastInDim ⟨2, ![a, 1]⟩ ![] h (constant (F := Ideal) ⟨0, ![]⟩ .f32 0x322BCC77#32)))))))
        (ix2 p (0 : Fin 1))
      = gate d p := by
  refine (logistic_apply h _ _).trans ?_
  unfold Cert.Egnn.gate
  refine congrArg Ideal.logistic ?_
  show Ideal.div (broadcastInDim ⟨2, ![a, 1]⟩ ![] h (constant (F := Ideal) ⟨0, ![]⟩ .f32 0x41F00000#32) (ix2 p (0 : Fin 1)))
      (Ideal.sqrt (d (ix2 p (0 : Fin 1)))
        + broadcastInDim ⟨2, ![a, 1]⟩ ![] h (constant (F := Ideal) ⟨0, ![]⟩ .f32 0x322BCC77#32) (ix2 p (0 : Fin 1))) = _
  rw [broadcastInDim_scalar_apply, broadcastInDim_scalar_apply, constant_apply, constant_apply]

/-- The weight of an edge the program spells out over a message array M and a gate array G, at (p, 0). -/
theorem weight_term {a : ℕ}
    (wf : DotDims.WF ⟨2, ![a, 64]⟩ ⟨2, ![64, 1]⟩ ⟨2, ![a, 1]⟩ [1] [0] [0] [1] [] [])
    (h1 : (⟨1, ![1]⟩ : Shape).BroadcastsInDim ⟨2, ![1, 1]⟩ ![1])
    (h2 : (⟨2, ![1, 1]⟩ : Shape).BroadcastsInDim ⟨2, ![a, 1]⟩ ![0, 1])
    (h : (⟨0, ![]⟩ : Shape).BroadcastsInDim ⟨2, ![a, 1]⟩ ![])
    (M : FVec Ideal ⟨2, ![a, 64]⟩ .f32) (a7 : FVec Ideal ⟨2, ![64, 1]⟩ .f32) (a8 : FVec Ideal ⟨1, ![1]⟩ .f32)
    (G : FVec Ideal ⟨2, ![a, 1]⟩ .f32) (p : Fin a) :
    Host.divf (F := Ideal) (broadcastInDim ⟨2, ![a, 1]⟩ ![] h (constant (F := Ideal) ⟨0, ![]⟩ .f32 0x3F800000#32))
        (addf (broadcastInDim ⟨2, ![a, 1]⟩ ![] h (constant (F := Ideal) ⟨0, ![]⟩ .f32 0x3F800000#32))
          (Host.exp (F := Ideal) (Host.negf (F := Ideal)
            (mulf (addf (Host.dotGeneral (F := Ideal) (Cert.PlainMatmul.dims wf) none M a7)
                (broadcastInDim ⟨2, ![a, 1]⟩ ![0, 1] h2 (broadcastInDim ⟨2, ![1, 1]⟩ ![1] h1 a8))) G))))
        (ix2 p (0 : Fin 1))
      = Ideal.logistic ((∑ k : Fin 64, M (ix2 p k) * a7 (ix2 k (0 : Fin 1)) + a8 (ix1 (0 : Fin 1))) * G (ix2 p (0 : Fin 1))) := by
  refine (logistic_apply h _ _).trans ?_
  refine congrArg Ideal.logistic ?_
  exact congrArg (· * G (ix2 p (0 : Fin 1))) (affine_apply wf h1 h2 M a7 a8 p 0)

/-- The edge chain is the specification's weighted messages. -/
theorem edgeChain_eq (e : FVec Ideal S1600000x128 .f32) (d : FVec Ideal S1600000x1 .f32)
    (a3 : FVec Ideal S128x64 .f32) (a4 : FVec Ideal S64 .f32) (a5 : FVec Ideal S64x64 .f32) (a6 : FVec Ideal S64 .f32)
    (a7 : FVec Ideal S64x1 .f32) (a8 : FVec Ideal S1 .f32) :
    edgeChain e d a3 a4 a5 a6 a7 a8 = Cert.Egnn.edgeRows (a := 1600000) e d a3 a4 a5 a6 a7 a8 := by
  funext i
  obtain ⟨p, q, rfl⟩ : ∃ (p : Fin 1600000) (q : Fin 64), i = ix2 p q := ⟨i 0, i 1, eq_ix2 i⟩
  rw [Cert.Egnn.edgeRows_apply]
  unfold edgeChain
  refine (mulf_apply _ _ _).trans ?_
  have hm : ∀ k : Fin 64, _ = message (a := 1600000) e a3 a4 a5 a6 p k := fun k =>
    message_term (a := 1600000) dot_S1600000x128_S128x64_S1600000x64_1_0_0_1_n_n_wf dot_S1600000x64_S64x64_S1600000x64_1_0_0_1_n_n_wf
      bcast_S64_S1x64_1 bcast_S1x64_S1600000x64_0_1 bcast_S_S1600000x64 e a3 a4 a5 a6 p k
  refine congrArg₂ (· * ·) (hm q) ?_
  refine (Cert.Keepdims.host_column_repeat_apply _ bcast_S1600000x1_S1600000x64_0_1 p q).trans ?_
  refine (weight_term (a := 1600000) dot_S1600000x64_S64x1_S1600000x1_1_0_0_1_n_n_wf bcast_S1_S1x1_1 bcast_S1x1_S1600000x1_0_1
    bcast_S_S1600000x1 _ a7 a8 _ p).trans ?_
  unfold Cert.Egnn.weight
  refine congrArg Ideal.logistic (congrArg₂ (· * ·) ?_ ?_)
  · exact congrArg (· + a8 (ix1 (0 : Fin 1))) (Finset.sum_congr rfl fun k _ => congrArg (· * a7 (ix2 k (0 : Fin 1))) (hm k))
  · exact gate_term (a := 1600000) bcast_S_S1600000x1 d p

/-! ## The node chain -/

/-- A row of 64 numbers repeated over the rows, at (p, q). -/
theorem row_bias_apply {a : ℕ}
    (h1 : (⟨1, ![64]⟩ : Shape).BroadcastsInDim ⟨2, ![1, 64]⟩ ![1])
    (h2 : (⟨2, ![1, 64]⟩ : Shape).BroadcastsInDim ⟨2, ![a, 64]⟩ ![0, 1])
    (v : FVec Ideal ⟨1, ![64]⟩ .f32) (p : Fin a) (q : Fin 64) :
    broadcastInDim ⟨2, ![a, 64]⟩ ![0, 1] h2 (broadcastInDim ⟨2, ![1, 64]⟩ ![1] h1 v) (ix2 p q) = v (ix1 q) :=
  (Cert.HostForms.host_row_repeat_apply _ h2 p q).trans (Cert.HostForms.host_row_apply v h1 0 q)

/-- The features plus their update, as the program computes them over the joined rows, at (p, j). -/
theorem updated_term {a : ℕ}
    (wf1 : DotDims.WF ⟨2, ![a, 128]⟩ ⟨2, ![128, 64]⟩ ⟨2, ![a, 64]⟩ [1] [0] [0] [1] [] [])
    (wf2 : DotDims.WF ⟨2, ![a, 64]⟩ ⟨2, ![64, 64]⟩ ⟨2, ![a, 64]⟩ [1] [0] [0] [1] [] [])
    (h1 : (⟨1, ![64]⟩ : Shape).BroadcastsInDim ⟨2, ![1, 64]⟩ ![1])
    (h2 : (⟨2, ![1, 64]⟩ : Shape).BroadcastsInDim ⟨2, ![a, 64]⟩ ![0, 1])
    (h0 : (⟨0, ![]⟩ : Shape).BroadcastsInDim ⟨2, ![a, 64]⟩ ![])
    (hcat : Shape.Concatenates [⟨2, ![a, 64]⟩, ⟨2, ![a, 64]⟩] ⟨2, ![a, 128]⟩ 1)
    (mi a0 : FVec Ideal ⟨2, ![a, 64]⟩ .f32) (a9 : FVec Ideal ⟨2, ![128, 64]⟩ .f32) (a10 : FVec Ideal ⟨1, ![64]⟩ .f32)
    (a11 : FVec Ideal ⟨2, ![64, 64]⟩ .f32) (a12 : FVec Ideal ⟨1, ![64]⟩ .f32) (p : Fin a) (j : Fin 64) :
    addf a0 (addf (Host.dotGeneral (F := Ideal) (Cert.PlainMatmul.dims wf2) none
          (maximumf (addf (Host.dotGeneral (F := Ideal) (Cert.PlainMatmul.dims wf1) none
                (concatenate ⟨2, ![a, 128]⟩ 1 [⟨⟨2, ![a, 64]⟩, mi⟩, ⟨⟨2, ![a, 64]⟩, a0⟩] hcat) a9)
              (broadcastInDim ⟨2, ![a, 64]⟩ ![0, 1] h2 (broadcastInDim ⟨2, ![1, 64]⟩ ![1] h1 a10)))
            (broadcastInDim ⟨2, ![a, 64]⟩ ![] h0 (constant (F := Ideal) ⟨0, ![]⟩ .f32 0x00000000#32))) a11)
        (broadcastInDim ⟨2, ![a, 64]⟩ ![0, 1] h2 (broadcastInDim ⟨2, ![1, 64]⟩ ![1] h1 a12))) (ix2 p j)
      = updated mi a0 a9 a10 a11 a12 p j := by
  refine (addf_apply _ _ _).trans ?_
  unfold Cert.Egnn.updated
  refine congrArg (a0 (ix2 p j) + ·) ?_
  refine (affine_apply wf2 h1 h2 _ a11 a12 p j).trans ?_
  refine congrArg (· + a12 (ix1 j)) (Finset.sum_congr rfl fun k _ => congrArg (· * a11 (ix2 k j)) ?_)
  refine (layer_apply wf1 h1 h2 h0 _ a9 a10 p k).trans ?_
  unfold Cert.Egnn.nodeHidden
  refine congrArg (fun s => max (s + a10 (ix1 k)) 0) (Finset.sum_congr rfl fun k' _ => congrArg (· * a9 (ix2 k' k)) ?_)
  exact concatenate_apply mi a0 hcat p k'

/-- The word 0x42800000 is sixty-four. -/
theorem ofBits_sixty_four : Ideal.ofBits .f32 0x42800000#32 = ((64 : ℝ) : EReal) := by
  simp [Ideal.ofBits, Ideal.ieee, -EReal.coe_mul]; norm_num

/-- The variance's divisor: sixty-four minus the integer word zero read as a number, which is sixty-four. -/
theorem divisor_eq :
    subf (constant (F := Ideal) ⟨0, ![]⟩ .f32 0x42800000#32)
        (sitofp (F := Ideal) .f32 (constantI ⟨0, ![]⟩ 32 0#32)) ix0
      = Ideal.ofBits .f32 0x42800000#32 := by
  show Ideal.ofBits .f32 0x42800000#32 - ((((0#32 : BitVec 32).toInt : ℝ)) : EReal) = _
  rw [show (0#32 : BitVec 32).toInt = 0 from rfl, Int.cast_zero, EReal.coe_zero, sub_zero]

/-- The divisor is positive: the comparison with zero gives the bit one. -/
theorem divisor_pos :
    cmpf .ogt (subf (constant (F := Ideal) ⟨0, ![]⟩ .f32 0x42800000#32)
        (sitofp (F := Ideal) .f32 (constantI ⟨0, ![]⟩ 32 0#32)))
      (constant (F := Ideal) ⟨0, ![]⟩ .f32 0x00000000#32) ix0 = 1#1 := by
  show Ideal.cmp .ogt (subf (constant (F := Ideal) ⟨0, ![]⟩ .f32 0x42800000#32)
        (sitofp (F := Ideal) .f32 (constantI ⟨0, ![]⟩ 32 0#32)) ix0) (Ideal.ofBits .f32 0x00000000#32) = 1#1
  rw [divisor_eq, Ideal.ofBits_zero_f32, ofBits_sixty_four]
  show BitVec.ofBool (decide ((0 : EReal) < ((64 : ℝ) : EReal))) = 1#1
  rw [decide_eq_true (by exact_mod_cast (by norm_num : (0 : ℝ) < 64))]
  rfl

/-- The mean of a row as the program computes it: the row's sum from zero, kept as a column, over sixty-four. -/
theorem mean_term {a : ℕ}
    (hr : (⟨2, ![a, 64]⟩ : Shape).ReducesTo [1] ⟨1, ![a]⟩) (hr' : (⟨2, ![a, 64]⟩ : Shape).Reduces [1] ⟨1, ![a]⟩)
    (hu : 0 < (⟨0, ![]⟩ : Shape).numel)
    (hc : (⟨1, ![a]⟩ : Shape).BroadcastsInDim ⟨2, ![a, 1]⟩ ![0])
    (hs : (⟨0, ![]⟩ : Shape).BroadcastsInDim ⟨2, ![a, 1]⟩ ![])
    (z : FVec Ideal ⟨2, ![a, 64]⟩ .f32) (p : Fin a) :
    Host.divf (F := Ideal)
        (broadcastInDim ⟨2, ![a, 1]⟩ ![0] hc
          (Host.reduceAdd (F := Ideal) z (constant (F := Ideal) ⟨0, ![]⟩ .f32 0x00000000#32) hr hu))
        (broadcastInDim ⟨2, ![a, 1]⟩ ![] hs (constant (F := Ideal) ⟨0, ![]⟩ .f32 0x42800000#32)) (ix2 p (0 : Fin 1))
      = rowMean (fun p j => z (ix2 p j)) p := by
  show Ideal.div (broadcastInDim ⟨2, ![a, 1]⟩ ![0] hc
          (Host.reduceAdd (F := Ideal) z (constant (F := Ideal) ⟨0, ![]⟩ .f32 0x00000000#32) hr hu) (ix2 p (0 : Fin 1)))
        (broadcastInDim ⟨2, ![a, 1]⟩ ![] hs (constant (F := Ideal) ⟨0, ![]⟩ .f32 0x42800000#32) (ix2 p (0 : Fin 1))) = _
  rw [Cert.Keepdims.host_column_apply, Cert.Keepdims.host_sum_over_columns_apply z _ hr hr' hu, broadcastInDim_scalar_apply,
    constant_apply, constant_apply, Ideal.ofBits_zero_f32, zero_add]
  rfl

/-- The mean of the squared deviations of a row as the program computes it; the selection takes the quotient. -/
theorem var_term {a : ℕ}
    (hr : (⟨2, ![a, 64]⟩ : Shape).ReducesTo [1] ⟨1, ![a]⟩) (hr' : (⟨2, ![a, 64]⟩ : Shape).Reduces [1] ⟨1, ![a]⟩)
    (hu : 0 < (⟨0, ![]⟩ : Shape).numel)
    (hc : (⟨1, ![a]⟩ : Shape).BroadcastsInDim ⟨2, ![a, 1]⟩ ![0])
    (hs : (⟨0, ![]⟩ : Shape).BroadcastsInDim ⟨2, ![a, 1]⟩ ![])
    (hcr : (⟨2, ![a, 1]⟩ : Shape).BroadcastsInDim ⟨2, ![a, 64]⟩ ![0, 1])
    (z : FVec Ideal ⟨2, ![a, 64]⟩ .f32) (C : FVec Ideal ⟨2, ![a, 64]⟩ .f32)
    (hC : ∀ j : Fin 64, ∀ p : Fin a, C (ix2 p j) = z (ix2 p j) - rowMean (fun p j => z (ix2 p j)) p) (p : Fin a) :
    select (broadcastInDim ⟨2, ![a, 1]⟩ ![] hs
          (cmpf .ogt (subf (constant (F := Ideal) ⟨0, ![]⟩ .f32 0x42800000#32)
              (sitofp (F := Ideal) .f32 (constantI ⟨0, ![]⟩ 32 0#32)))
            (constant (F := Ideal) ⟨0, ![]⟩ .f32 0x00000000#32)))
        (Host.divf (F := Ideal)
          (broadcastInDim ⟨2, ![a, 1]⟩ ![0] hc
            (Host.reduceAdd (F := Ideal) (mulf C C) (constant (F := Ideal) ⟨0, ![]⟩ .f32 0x00000000#32) hr hu))
          (broadcastInDim ⟨2, ![a, 1]⟩ ![] hs
            (subf (constant (F := Ideal) ⟨0, ![]⟩ .f32 0x42800000#32)
              (sitofp (F := Ideal) .f32 (constantI ⟨0, ![]⟩ 32 0#32)))))
        (broadcastInDim ⟨2, ![a, 1]⟩ ![] hs (id (constant (F := Ideal) ⟨0, ![]⟩ .f32 0x7FC00000#32))) (ix2 p (0 : Fin 1))
      = rowMean (fun p j => (z (ix2 p j) - rowMean (fun p j => z (ix2 p j)) p)
          * (z (ix2 p j) - rowMean (fun p j => z (ix2 p j)) p)) p := by
  refine (select_apply _ _ _ _).trans ?_
  rw [broadcastInDim_scalar_apply, divisor_pos, select_one]
  show Ideal.div (broadcastInDim ⟨2, ![a, 1]⟩ ![0] hc
          (Host.reduceAdd (F := Ideal) (mulf C C) (constant (F := Ideal) ⟨0, ![]⟩ .f32 0x00000000#32) hr hu) (ix2 p (0 : Fin 1)))
        (broadcastInDim ⟨2, ![a, 1]⟩ ![] hs
            (subf (constant (F := Ideal) ⟨0, ![]⟩ .f32 0x42800000#32)
              (sitofp (F := Ideal) .f32 (constantI ⟨0, ![]⟩ 32 0#32))) (ix2 p (0 : Fin 1))) = _
  rw [Cert.Keepdims.host_column_apply, Cert.Keepdims.host_sum_over_columns_apply (mulf C C) _ hr hr' hu,
    broadcastInDim_scalar_apply, divisor_eq, constant_apply, Ideal.ofBits_zero_f32, zero_add]
  show _ = Ideal.div (∑ j : Fin 64, (z (ix2 p j) - rowMean (fun p j => z (ix2 p j)) p)
          * (z (ix2 p j) - rowMean (fun p j => z (ix2 p j)) p)) (Ideal.ofBits .f32 0x42800000#32)
  refine congrArg (Ideal.div · (Ideal.ofBits .f32 0x42800000#32)) (Finset.sum_congr rfl fun j _ => ?_)
  exact congrArg₂ (· * ·) (hC j p) (hC j p)

/-- The normalised rows read at an entry. -/
theorem normRows_apply {a : ℕ} (z : Fin a → Fin 64 → EReal) (g b : (⟨1, ![64]⟩ : Shape).Idx → EReal) (p : Fin a) (q : Fin 64) :
    normRows z g b (ix2 p q)
      = (z p q - rowMean z p)
        * Ideal.rsqrt (rowMean (fun p j => (z p j - rowMean z p) * (z p j - rowMean z p)) p + Ideal.ofBits .f32 0x3727C5AC#32)
        * g (ix1 q) + b (ix1 q) := rfl

/-- The normalisation as the program computes it over an array z, at (p, q). -/
theorem norm_term {a : ℕ}
    (hr : (⟨2, ![a, 64]⟩ : Shape).ReducesTo [1] ⟨1, ![a]⟩) (hr' : (⟨2, ![a, 64]⟩ : Shape).Reduces [1] ⟨1, ![a]⟩)
    (hu : 0 < (⟨0, ![]⟩ : Shape).numel)
    (hc : (⟨1, ![a]⟩ : Shape).BroadcastsInDim ⟨2, ![a, 1]⟩ ![0])
    (hs : (⟨0, ![]⟩ : Shape).BroadcastsInDim ⟨2, ![a, 1]⟩ ![])
    (hcr : (⟨2, ![a, 1]⟩ : Shape).BroadcastsInDim ⟨2, ![a, 64]⟩ ![0, 1])
    (h1 : (⟨1, ![64]⟩ : Shape).BroadcastsInDim ⟨2, ![1, 64]⟩ ![1])
    (h2 : (⟨2, ![1, 64]⟩ : Shape).BroadcastsInDim ⟨2, ![a, 64]⟩ ![0, 1])
    (z : FVec Ideal ⟨2, ![a, 64]⟩ .f32) (g b : FVec Ideal ⟨1, ![64]⟩ .f32) (p : Fin a) (q : Fin 64) :
    addf (mulf (mulf
          (subf z (broadcastInDim ⟨2, ![a, 64]⟩ ![0, 1] hcr
            (Host.divf (F := Ideal)
              (broadcastInDim ⟨2, ![a, 1]⟩ ![0] hc
                (Host.reduceAdd (F := Ideal) z (constant (F := Ideal) ⟨0, ![]⟩ .f32 0x00000000#32) hr hu))
              (broadcastInDim ⟨2, ![a, 1]⟩ ![] hs (constant (F := Ideal) ⟨0, ![]⟩ .f32 0x42800000#32)))))
          (broadcastInDim ⟨2, ![a, 64]⟩ ![0, 1] hcr
            (Host.rsqrt (F := Ideal)
              (addf
                (select (broadcastInDim ⟨2, ![a, 1]⟩ ![] hs
                    (cmpf .ogt (subf (constant (F := Ideal) ⟨0, ![]⟩ .f32 0x42800000#32)
                        (sitofp (F := Ideal) .f32 (constantI ⟨0, ![]⟩ 32 0#32)))
                      (constant (F := Ideal) ⟨0, ![]⟩ .f32 0x00000000#32)))
                  (Host.divf (F := Ideal)
                    (broadcastInDim ⟨2, ![a, 1]⟩ ![0] hc
                      (Host.reduceAdd (F := Ideal)
                        (mulf
                          (subf z (broadcastInDim ⟨2, ![a, 64]⟩ ![0, 1] hcr
                            (Host.divf (F := Ideal)
                              (broadcastInDim ⟨2, ![a, 1]⟩ ![0] hc
                                (Host.reduceAdd (F := Ideal) z (constant (F := Ideal) ⟨0, ![]⟩ .f32 0x00000000#32) hr hu))
                              (broadcastInDim ⟨2, ![a, 1]⟩ ![] hs (constant (F := Ideal) ⟨0, ![]⟩ .f32 0x42800000#32)))))
                          (subf z (broadcastInDim ⟨2, ![a, 64]⟩ ![0, 1] hcr
                            (Host.divf (F := Ideal)
                              (broadcastInDim ⟨2, ![a, 1]⟩ ![0] hc
                                (Host.reduceAdd (F := Ideal) z (constant (F := Ideal) ⟨0, ![]⟩ .f32 0x00000000#32) hr hu))
                              (broadcastInDim ⟨2, ![a, 1]⟩ ![] hs (constant (F := Ideal) ⟨0, ![]⟩ .f32 0x42800000#32))))))
                        (constant (F := Ideal) ⟨0, ![]⟩ .f32 0x00000000#32) hr hu))
                    (broadcastInDim ⟨2, ![a, 1]⟩ ![] hs
                      (subf (constant (F := Ideal) ⟨0, ![]⟩ .f32 0x42800000#32)
                        (sitofp (F := Ideal) .f32 (constantI ⟨0, ![]⟩ 32 0#32)))))
                  (broadcastInDim ⟨2, ![a, 1]⟩ ![] hs (id (constant (F := Ideal) ⟨0, ![]⟩ .f32 0x7FC00000#32))))
                (broadcastInDim ⟨2, ![a, 1]⟩ ![] hs (constant (F := Ideal) ⟨0, ![]⟩ .f32 0x3727C5AC#32))))))
          (broadcastInDim ⟨2, ![a, 64]⟩ ![0, 1] h2 (broadcastInDim ⟨2, ![1, 64]⟩ ![1] h1 g)))
        (broadcastInDim ⟨2, ![a, 64]⟩ ![0, 1] h2 (broadcastInDim ⟨2, ![1, 64]⟩ ![1] h1 b)) (ix2 p q)
      = normRows (fun p j => z (ix2 p j)) g b (ix2 p q) := by
  have hcen : ∀ j : Fin 64, ∀ p : Fin a,
      subf z (broadcastInDim ⟨2, ![a, 64]⟩ ![0, 1] hcr
            (Host.divf (F := Ideal)
              (broadcastInDim ⟨2, ![a, 1]⟩ ![0] hc
                (Host.reduceAdd (F := Ideal) z (constant (F := Ideal) ⟨0, ![]⟩ .f32 0x00000000#32) hr hu))
              (broadcastInDim ⟨2, ![a, 1]⟩ ![] hs (constant (F := Ideal) ⟨0, ![]⟩ .f32 0x42800000#32)))) (ix2 p j)
        = z (ix2 p j) - rowMean (fun p j => z (ix2 p j)) p := fun j p =>
    congrArg (z (ix2 p j) - ·) ((Cert.Keepdims.host_column_repeat_apply _ hcr p j).trans (mean_term hr hr' hu hc hs z p))
  rw [normRows_apply]
  refine (addf_apply _ _ _).trans ?_
  refine congrArg₂ (· + ·) ?_ (row_bias_apply h1 h2 b p q)
  refine (mulf_apply _ _ _).trans ?_
  refine congrArg₂ (· * ·) ?_ (row_bias_apply h1 h2 g p q)
  refine (mulf_apply _ _ _).trans ?_
  refine congrArg₂ (· * ·) (hcen q p) ?_
  refine (Cert.Keepdims.host_column_repeat_apply _ hcr p q).trans ?_
  refine congrArg Ideal.rsqrt ?_
  refine (addf_apply _ _ _).trans ?_
  refine congrArg₂ (· + ·) (var_term hr hr' hu hc hs hcr z _ hcen p) ?_
  exact (broadcastInDim_scalar_apply hs _ _).trans (constant_apply _ _)

/-- The node chain is the specification's normalised updated features. -/
theorem nodeChain_eq (mi : FVec Ideal S100000x64 .f32) (a0 : FVec Ideal S100000x64 .f32)
    (a9 : FVec Ideal S128x64 .f32) (a10 : FVec Ideal S64 .f32) (a11 : FVec Ideal S64x64 .f32) (a12 : FVec Ideal S64 .f32)
    (a13 : FVec Ideal S64 .f32) (a14 : FVec Ideal S64 .f32) :
    nodeChain mi a0 a9 a10 a11 a12 a13 a14 = Cert.Egnn.nodeRows (a := 100000) mi a0 a9 a10 a11 a12 a13 a14 := by
  funext i
  obtain ⟨p, q, rfl⟩ : ∃ (p : Fin 100000) (q : Fin 64), i = ix2 p q := ⟨i 0, i 1, eq_ix2 i⟩
  unfold nodeChain
  have hr' : Shape.Reduces S100000x64 [1] S100000 := by decide
  refine (norm_term (a := 100000) reducesTo_S100000x64_S100000_d1 hr' h_S_ bcast_S100000_S100000x1_0 bcast_S_S100000x1
    bcast_S100000x1_S100000x64_0_1 bcast_S64_S1x64_1 bcast_S1x64_S100000x64_0_1 _ a13 a14 p q).trans ?_
  unfold Cert.Egnn.nodeRows
  refine congrArg (fun Z => normRows (a := 100000) Z a13 a14 (ix2 p q)) (funext fun p' => funext fun j => ?_)
  exact updated_term (a := 100000) dot_S100000x128_S128x64_S100000x64_1_0_0_1_n_n_wf dot_S100000x64_S64x64_S100000x64_1_0_0_1_n_n_wf
    bcast_S64_S1x64_1 bcast_S1x64_S100000x64_0_1 bcast_S_S100000x64 concatenates_S100000x64_S100000x64_S100000x128_d1
    mi a0 a9 a10 a11 a12 p' j

end Cert.ReferenceIdeal.Terms

end
-- ==== Proof.Agree.lean ====
/-
  The two programs' first stretches of host operations compute the same three arrays.

  Both programs begin by cutting the edge list into its sending and receiving rows, wrapping a negative index once
  around the node count, gathering the two end nodes' feature rows and laying them side by side, and gathering the end
  nodes' positions, subtracting them and summing the squares.  The operations are the same ones in the same order, on
  buffers numbered differently; the kernel's program moreover first rounds the features to a narrower format, which on the
  extended reals changes nothing.  So from launch contents that agree on the features, the positions and the edge list,
  the edge rows, the squared distances and the receiving-node indices agree.
-/
import proofs.«154884_j40596030882310_2_alg».proof.Proof.RefRun
import proofs.«154884_j40596030882310_2_alg».proof.Proof.Gen.KernelIdeal.Launch
import Idealize.ShloMosaic.Lib.StableHlo.Run
import Idealize.ShloMosaic.PureOps.Ideal

set_option maxRecDepth 16384

noncomputable section

namespace Cert.Agree

open Idealize.ShloMosaic Idealize.ShloMosaic.TcCoe Idealize.SL.Sem Idealize.ShloMosaic.StableHlo

variable (W : Valuation Cert.KernelIdeal.τ Cert.KernelIdeal.sig (Elt Ideal))
variable (W' : Valuation Cert.ReferenceIdeal.τ Cert.ReferenceIdeal.sig (Elt Ideal))
variable (a0 : (⟨Cert.KernelIdeal.S100000x64, .f32⟩ : BufTy).Contents (Elt Ideal))
variable (a1 : (⟨Cert.KernelIdeal.S100000x3, .f32⟩ : BufTy).Contents (Elt Ideal))
variable (a2 : (⟨Cert.KernelIdeal.S2x1600000, .i32⟩ : BufTy).Contents (Elt Ideal))

set_option maxHeartbeats 4000000 in
/-- The receiving-node indices. -/
theorem dst_agree (h2 : W (Proc.devRef .tc Cert.KernelIdeal.main_arg2) = a2)
    (h2' : W' (Proc.devRef .tc Cert.ReferenceIdeal.main_arg2) = a2) :
    after (Cert.ReferenceIdeal.RefRun.opsA (F := Ideal)) W' (Proc.devRef .tc Cert.ReferenceIdeal.main_v3)
      = after (Cert.KernelIdeal.Gen.hostOps0 (F := Ideal)) W (Proc.devRef .tc Cert.KernelIdeal.main_v3) := by
  after_results_simp
  rw [h2, h2']
  rfl

set_option maxHeartbeats 4000000 in
/-- The squared distances. -/
theorem dsq_agree (h1 : W (Proc.devRef .tc Cert.KernelIdeal.main_arg1) = a1)
    (h1' : W' (Proc.devRef .tc Cert.ReferenceIdeal.main_arg1) = a1)
    (h2 : W (Proc.devRef .tc Cert.KernelIdeal.main_arg2) = a2)
    (h2' : W' (Proc.devRef .tc Cert.ReferenceIdeal.main_arg2) = a2) :
    after (Cert.ReferenceIdeal.RefRun.opsA (F := Ideal)) W' (Proc.devRef .tc Cert.ReferenceIdeal.main_v35)
      = after (Cert.KernelIdeal.Gen.hostOps0 (F := Ideal)) W (Proc.devRef .tc Cert.KernelIdeal.main_v37) := by
  after_results_simp
  rw [h1, h1', h2, h2']
  rfl

/-- Two arrays laid side by side: equal parts give equal wholes. -/
theorem concatenate_pair_congr {α : Type} {t s₁ s₂ : Shape} (a : Fin t.rank) {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

set_option maxHeartbeats 4000000 in
/-- The edge rows: the two end nodes' features side by side. -/
theorem ein_agree (h0 : W (Proc.devRef .tc Cert.KernelIdeal.main_arg0) = a0)
    (h0' : W' (Proc.devRef .tc Cert.ReferenceIdeal.main_arg0) = a0)
    (h2 : W (Proc.devRef .tc Cert.KernelIdeal.main_arg2) = a2)
    (h2' : W' (Proc.devRef .tc Cert.ReferenceIdeal.main_arg2) = a2) :
    after (Cert.ReferenceIdeal.RefRun.opsA (F := Ideal)) W' (Proc.devRef .tc Cert.ReferenceIdeal.main_v36)
      = after (Cert.KernelIdeal.Gen.hostOps0 (F := Ideal)) W (Proc.devRef .tc Cert.KernelIdeal.main_v19) := by
  after_results_simp
  refine concatenate_pair_congr _ _ ?_ ?_
  · after_results_simp
    rw [h0, h0', h2, h2']
    rfl
  · after_results_simp
    rw [h0, h0', h2, h2']
    rfl

end Cert.Agree

end
-- ==== Proof.Bridge.lean ====
/-
  The reference program's result is the kernel program's result.

  From launch contents that agree on the fifteen arguments: the reference's first stretch leaves the same edge rows,
  squared distances and receiving-node indices as the kernel program's first stretch; its edge chain is the edge
  specification of those, as the edge region's output is; both programs then sum the weighted messages by receiving node
  with the same scatter-add from zero; and the reference's node chain is the node specification of the sums and the
  untouched arguments, as the node region's output is.
-/
import proofs.«154884_j40596030882310_2_alg».proof.Proof.KernelOut
import proofs.«154884_j40596030882310_2_alg».proof.Proof.RefStages
import proofs.«154884_j40596030882310_2_alg».proof.Proof.RefSpec
import proofs.«154884_j40596030882310_2_alg».proof.Proof.Agree

set_option maxRecDepth 16384

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

open Cert.KernelIdeal Cert.KernelIdeal.Gen in
/-- The layer's output on core `c`, as a function of the kernel program's launch memory. -/
def out (c : Dev Cert.KernelIdeal.nD) : (⟨2, ![100000, 64]⟩ : Shape).Idx → EReal :=
  Cert.Egnn.nodeRows (a := 100000)
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 (W1 m ρ c (Proc.devRef .tc main_v3)))
      (Cert.Egnn.edgeRows (a := 1600000) (V1 m ρ c main_v19) (V1 m ρ c main_v37)
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))))
    (m ((c : Thread nD τ).loc main_arg0)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14))

/-- The reference's result buffer after its run, from a launch memory `m'` agreeing with `m` on the arguments. -/
theorem ref_out (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    StableHlo.after (Cert.ReferenceIdeal.RefRun.ops (F := Ideal)) (StableHlo.launchContents m' c) (Proc.devRef .tc Cert.ReferenceIdeal.main_v102)
      = out m ρ c := by
  have e0 : StableHlo.launchContents m' c (Proc.devRef .tc Cert.ReferenceIdeal.main_arg0) = m ((c : Thread Cert.KernelIdeal.nD Cert.KernelIdeal.τ).loc Cert.KernelIdeal.main_arg0) := h0
  have e3 : StableHlo.launchContents m' c (Proc.devRef .tc Cert.ReferenceIdeal.main_arg3) = m ((c : Thread Cert.KernelIdeal.nD Cert.KernelIdeal.τ).loc Cert.KernelIdeal.main_arg3) := h3
  have e4 : StableHlo.launchContents m' c (Proc.devRef .tc Cert.ReferenceIdeal.main_arg4) = m ((c : Thread Cert.KernelIdeal.nD Cert.KernelIdeal.τ).loc Cert.KernelIdeal.main_arg4) := h4
  have e5 : StableHlo.launchContents m' c (Proc.devRef .tc Cert.ReferenceIdeal.main_arg5) = m ((c : Thread Cert.KernelIdeal.nD Cert.KernelIdeal.τ).loc Cert.KernelIdeal.main_arg5) := h5
  have e6 : StableHlo.launchContents m' c (Proc.devRef .tc Cert.ReferenceIdeal.main_arg6) = m ((c : Thread Cert.KernelIdeal.nD Cert.KernelIdeal.τ).loc Cert.KernelIdeal.main_arg6) := h6
  have e7 : StableHlo.launchContents m' c (Proc.devRef .tc Cert.ReferenceIdeal.main_arg7) = m ((c : Thread Cert.KernelIdeal.nD Cert.KernelIdeal.τ).loc Cert.KernelIdeal.main_arg7) := h7
  have e8 : StableHlo.launchContents m' c (Proc.devRef .tc Cert.ReferenceIdeal.main_arg8) = m ((c : Thread Cert.KernelIdeal.nD Cert.KernelIdeal.τ).loc Cert.KernelIdeal.main_arg8) := h8
  have e9 : StableHlo.launchContents m' c (Proc.devRef .tc Cert.ReferenceIdeal.main_arg9) = m ((c : Thread Cert.KernelIdeal.nD Cert.KernelIdeal.τ).loc Cert.KernelIdeal.main_arg9) := h9
  have e10 : StableHlo.launchContents m' c (Proc.devRef .tc Cert.ReferenceIdeal.main_arg10) = m ((c : Thread Cert.KernelIdeal.nD Cert.KernelIdeal.τ).loc Cert.KernelIdeal.main_arg10) := h10
  have e11 : StableHlo.launchContents m' c (Proc.devRef .tc Cert.ReferenceIdeal.main_arg11) = m ((c : Thread Cert.KernelIdeal.nD Cert.KernelIdeal.τ).loc Cert.KernelIdeal.main_arg11) := h11
  have e12 : StableHlo.launchContents m' c (Proc.devRef .tc Cert.ReferenceIdeal.main_arg12) = m ((c : Thread Cert.KernelIdeal.nD Cert.KernelIdeal.τ).loc Cert.KernelIdeal.main_arg12) := h12
  have e13 : StableHlo.launchContents m' c (Proc.devRef .tc Cert.ReferenceIdeal.main_arg13) = m ((c : Thread Cert.KernelIdeal.nD Cert.KernelIdeal.τ).loc Cert.KernelIdeal.main_arg13) := h13
  have e14 : StableHlo.launchContents m' c (Proc.devRef .tc Cert.ReferenceIdeal.main_arg14) = m ((c : Thread Cert.KernelIdeal.nD Cert.KernelIdeal.τ).loc Cert.KernelIdeal.main_arg14) := h14
  rw [Cert.ReferenceIdeal.RefRun.out_eq, Cert.ReferenceIdeal.Terms.nodeChain_eq, Cert.ReferenceIdeal.Terms.edgeChain_eq]
  rw [Cert.Agree.ein_agree (Cert.KernelIdeal.Gen.W0 m ρ c) (StableHlo.launchContents m' c) (m ((c : Thread Cert.KernelIdeal.nD Cert.KernelIdeal.τ).loc Cert.KernelIdeal.main_arg0))
      (m ((c : Thread Cert.KernelIdeal.nD Cert.KernelIdeal.τ).loc Cert.KernelIdeal.main_arg2)) rfl h0 rfl h2,
    Cert.Agree.dsq_agree (Cert.KernelIdeal.Gen.W0 m ρ c) (StableHlo.launchContents m' c) (m ((c : Thread Cert.KernelIdeal.nD Cert.KernelIdeal.τ).loc Cert.KernelIdeal.main_arg1))
      (m ((c : Thread Cert.KernelIdeal.nD Cert.KernelIdeal.τ).loc Cert.KernelIdeal.main_arg2)) rfl h1 rfl h2,
    Cert.Agree.dst_agree (Cert.KernelIdeal.Gen.W0 m ρ c) (StableHlo.launchContents m' c)
      (m ((c : Thread Cert.KernelIdeal.nD Cert.KernelIdeal.τ).loc Cert.KernelIdeal.main_arg2)) rfl h2]
  rw [e0, e3, e4, e5, e6, e7, e8, e9, e10, e11, e12, e13, e14]
  rfl

end Cert.Bridge

end
-- ==== Proof.lean ====
/-
  One message-passing layer of a graph network, computed by two programs, and the claim that they agree on the extended reals.

  The kernel program gathers, per edge, the two end nodes' feature rows side by side and the squared distance of their
  positions on the host; a first region of 200 blocks of 8000 edges turns each edge row into its weighted message (two
  affine maps with a maximum against zero, then a scale by the logistic function of the message's affine reading times
  the logistic function of 30 / (√d + ε)); the host sums the messages by receiving node; a second region of 20 blocks of
  5000 nodes applies the node map to (sums, features), adds the features and normalises each row.  The reference does
  the same with whole-array host operations.  On the extended reals a change of float format is the identity, a product
  accumulated block by block is the whole product, and every row of either region depends on that row of its inputs
  alone, so both programs return the node specification of the scatter-added edge specification of the same gathered
  arrays.  The positions are returned untouched by both.  The kernel's idealization rewrote nothing, and each frame claim
  is the program's run with its result forgotten.
-/
import proofs.«154884_j40596030882310_2_alg».proof.Defs
import proofs.«154884_j40596030882310_2_alg».proof.Proof.Gen.Kernel
import proofs.«154884_j40596030882310_2_alg».proof.Proof.Gen.Kernel.Frame
import proofs.«154884_j40596030882310_2_alg».proof.Proof.Gen.KernelIdeal
import proofs.«154884_j40596030882310_2_alg».proof.Proof.Gen.KernelIdeal.Frame
import proofs.«154884_j40596030882310_2_alg».proof.Proof.Gen.ReferenceIdeal
import proofs.«154884_j40596030882310_2_alg».proof.Proof.Gen.Pre_finite_inputs
import proofs.«154884_j40596030882310_2_alg».proof.Proof.EdgeKernel
import proofs.«154884_j40596030882310_2_alg».proof.Proof.NodeKernel
import proofs.«154884_j40596030882310_2_alg».proof.Proof.Bridge

noncomputable section

namespace Cert.Proof

open Idealize.ShloMosaic Idealize.ShloMosaic.TcCoe Idealize.SL.Sem

/-- The word-level kernel program runs and leaves its arguments alone. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference: its run, every buffer read after its operations, restricted to the arguments, which no operation writes. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c Cert.ReferenceIdeal.main_arg0).trans (Cert.ReferenceIdeal.RefRun.kept_arg0 _),
     (h c Cert.ReferenceIdeal.main_arg1).trans (Cert.ReferenceIdeal.RefRun.kept_arg1 _),
     (h c Cert.ReferenceIdeal.main_arg2).trans (Cert.ReferenceIdeal.RefRun.kept_arg2 _),
     (h c Cert.ReferenceIdeal.main_arg3).trans (Cert.ReferenceIdeal.RefRun.kept_arg3 _),
     (h c Cert.ReferenceIdeal.main_arg4).trans (Cert.ReferenceIdeal.RefRun.kept_arg4 _),
     (h c Cert.ReferenceIdeal.main_arg5).trans (Cert.ReferenceIdeal.RefRun.kept_arg5 _),
     (h c Cert.ReferenceIdeal.main_arg6).trans (Cert.ReferenceIdeal.RefRun.kept_arg6 _),
     (h c Cert.ReferenceIdeal.main_arg7).trans (Cert.ReferenceIdeal.RefRun.kept_arg7 _),
     (h c Cert.ReferenceIdeal.main_arg8).trans (Cert.ReferenceIdeal.RefRun.kept_arg8 _),
     (h c Cert.ReferenceIdeal.main_arg9).trans (Cert.ReferenceIdeal.RefRun.kept_arg9 _),
     (h c Cert.ReferenceIdeal.main_arg10).trans (Cert.ReferenceIdeal.RefRun.kept_arg10 _),
     (h c Cert.ReferenceIdeal.main_arg11).trans (Cert.ReferenceIdeal.RefRun.kept_arg11 _),
     (h c Cert.ReferenceIdeal.main_arg12).trans (Cert.ReferenceIdeal.RefRun.kept_arg12 _),
     (h c Cert.ReferenceIdeal.main_arg13).trans (Cert.ReferenceIdeal.RefRun.kept_arg13 _),
     (h c Cert.ReferenceIdeal.main_arg14).trans (Cert.ReferenceIdeal.RefRun.kept_arg14 _)⟩)
    (Cert.ReferenceIdeal.RefRun.run (F := Ideal) m ρ)

/-- Both programs end with the layer's output `Cert.Bridge.out` in their result buffers and the positions as launched. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Bridge.out m ρ c, fun c => m ((c.tc : Thread Cert.KernelIdeal.nD Cert.KernelIdeal.τ).loc Cert.KernelIdeal.main_arg1), ?_, ?_⟩
  · refine (θ_run Cert.KernelIdeal.defs _ _).mono (fun r h c => ?_) (Cert.KernelIdeal.Out.run_out (F := Ideal) m ρ)
    exact ⟨(h c).1.trans (Cert.KernelIdeal.Out.out_eq m ρ (fun V c => Cert.KernelIdeal.Edge.final V c)
      (fun V c => Cert.KernelIdeal.Node.final V c) c), (h c).2.2.1, (h c).2⟩
  · refine (θ_run Cert.ReferenceIdeal.defs _ _).mono (fun r h c => ?_) (Cert.ReferenceIdeal.RefRun.run (F := Ideal) m' ρ')
    refine ⟨(h c Cert.ReferenceIdeal.main_v102).trans (Cert.Bridge.ref_out m ρ m' c
      (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2), ?_, ?_⟩
    · exact ((h c Cert.ReferenceIdeal.main_arg1).trans (Cert.ReferenceIdeal.RefRun.kept_arg1 _)).trans (hagree c).2.1
    · exact ⟨(h c Cert.ReferenceIdeal.main_arg0).trans (Cert.ReferenceIdeal.RefRun.kept_arg0 _),
        (h c Cert.ReferenceIdeal.main_arg1).trans (Cert.ReferenceIdeal.RefRun.kept_arg1 _),
        (h c Cert.ReferenceIdeal.main_arg2).trans (Cert.ReferenceIdeal.RefRun.kept_arg2 _),
        (h c Cert.ReferenceIdeal.main_arg3).trans (Cert.ReferenceIdeal.RefRun.kept_arg3 _),
        (h c Cert.ReferenceIdeal.main_arg4).trans (Cert.ReferenceIdeal.RefRun.kept_arg4 _),
        (h c Cert.ReferenceIdeal.main_arg5).trans (Cert.ReferenceIdeal.RefRun.kept_arg5 _),
        (h c Cert.ReferenceIdeal.main_arg6).trans (Cert.ReferenceIdeal.RefRun.kept_arg6 _),
        (h c Cert.ReferenceIdeal.main_arg7).trans (Cert.ReferenceIdeal.RefRun.kept_arg7 _),
        (h c Cert.ReferenceIdeal.main_arg8).trans (Cert.ReferenceIdeal.RefRun.kept_arg8 _),
        (h c Cert.ReferenceIdeal.main_arg9).trans (Cert.ReferenceIdeal.RefRun.kept_arg9 _),
        (h c Cert.ReferenceIdeal.main_arg10).trans (Cert.ReferenceIdeal.RefRun.kept_arg10 _),
        (h c Cert.ReferenceIdeal.main_arg11).trans (Cert.ReferenceIdeal.RefRun.kept_arg11 _),
        (h c Cert.ReferenceIdeal.main_arg12).trans (Cert.ReferenceIdeal.RefRun.kept_arg12 _),
        (h c Cert.ReferenceIdeal.main_arg13).trans (Cert.ReferenceIdeal.RefRun.kept_arg13 _),
        (h c Cert.ReferenceIdeal.main_arg14).trans (Cert.ReferenceIdeal.RefRun.kept_arg14 _)⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
